-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333333#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S1024x3072 : Shape := ⟨2, ![1024, 3072]⟩
abbrev S16x64x1024 : Shape := ⟨3, ![16, 64, 1024]⟩
abbrev S1x1024 : Shape := ⟨2, ![1, 1024]⟩
abbrev S8192x1024 : Shape := ⟨2, ![8192, 1024]⟩
abbrev S16x4x2048x64 : Shape := ⟨4, ![16, 4, 2048, 64]⟩
abbrev S512x1024 : Shape := ⟨2, ![512, 1024]⟩
abbrev S16x1x512x64 : Shape := ⟨4, ![16, 1, 512, 64]⟩
abbrev S512x3072 : Shape := ⟨2, ![512, 3072]⟩
abbrev S512x3x16x64 : Shape := ⟨4, ![512, 3, 16, 64]⟩
abbrev S512x1x16x64 : Shape := ⟨4, ![512, 1, 16, 64]⟩
abbrev S512x16x64 : Shape := ⟨3, ![512, 16, 64]⟩
abbrev S16x512x64 : Shape := ⟨3, ![16, 512, 64]⟩
abbrev S64x2048x64 : Shape := ⟨3, ![64, 2048, 64]⟩
abbrev S1x512x64 : Shape := ⟨3, ![1, 512, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩
abbrev S1x64x1024 : Shape := ⟨3, ![1, 64, 1024]⟩
abbrev S64x1024 : Shape := ⟨2, ![64, 1024]⟩

abbrev nBuf : Space → Nat
  | .hbm => 20
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S1024x3072, .f32⟩
  | .hbm, ⟨5, _⟩ => ⟨S1024x3072, .bf16⟩
  | .hbm, ⟨6, _⟩ => ⟨S1024x1024, .f32⟩
  | .hbm, ⟨7, _⟩ => ⟨S1024x1024, .bf16⟩
  | .hbm, ⟨8, _⟩ => ⟨S16x64x1024, .bf16⟩
  | .hbm, ⟨9, _⟩ => ⟨S1x1024, .f32⟩
  | .hbm, ⟨10, _⟩ => ⟨S8192x1024, .f32⟩
  | .hbm, ⟨11, _⟩ => ⟨S16x4x2048x64, .bf16⟩
  | .hbm, ⟨12, _⟩ => ⟨S16x4x2048x64, .bf16⟩
  | .hbm, ⟨13, _⟩ => ⟨S16x4x2048x64, .bf16⟩
  | .hbm, ⟨14, _⟩ => ⟨S64x2048x64, .bf16⟩
  | .hbm, ⟨15, _⟩ => ⟨S64x2048x64, .bf16⟩
  | .hbm, ⟨16, _⟩ => ⟨S64x2048x64, .bf16⟩
  | .hbm, ⟨17, _⟩ => ⟨S64x2048x64, .bf16⟩
  | .hbm, ⟨18, _⟩ => ⟨S8192x1024, .f32⟩
  | .hbm, ⟨19, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S16x1x512x64, .bf16⟩
  | .local _ .vmem, ⟨4, _⟩ => ⟨S16x1x512x64, .bf16⟩
  | .local _ .vmem, ⟨5, _⟩ => ⟨S16x1x512x64, .bf16⟩
  | .local _ .vmem, ⟨6, _⟩ => ⟨S16x1x512x64, .bf16⟩
  | .local _ .vmem, ⟨7, _⟩ => ⟨S16x1x512x64, .bf16⟩
  | .local _ .vmem, ⟨8, _⟩ => ⟨S16x1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S512x1, .f32⟩
  | .local _ .vmem, ⟨18, _⟩ => ⟨S512x1, .f32⟩
  | .local _ .vmem, ⟨19, _⟩ => ⟨S512x64, .f32⟩
  | .local _ .vmem, ⟨20, _⟩ => ⟨S1x512x64, .bf16⟩
  | .local _ .vmem, ⟨21, _⟩ => ⟨S1x512x64, .bf16⟩
  | .local _ .vmem, ⟨22, _⟩ => ⟨S1x64x1024, .bf16⟩
  | .local _ .vmem, ⟨23, _⟩ => ⟨S1x64x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![64, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_10 : BitVec 32 := 0#32
  let v15 : BitVec 1 := Scalar.cmpi .ne v14 c0_i32_10
  v15

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32_10 : BitVec 32 := 4#32
  let v27 : BitVec 32 := Scalar.muli arg1 c4_i32_10
  let v28 : BitVec 32 := Scalar.addi v27 v16
  let c0_i32_11 : BitVec 32 := 0#32
  let c0_i32_12 : BitVec 32 := 0#32
  ![v28.toNat, v26.toNat, c0_i32_11.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S1024x1024_S16x64x1024 : S1024x1024.ShapeCasts S16x64x1024
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S512x3072_S512x3x16x64 : S512x3072.ShapeCasts S512x3x16x64
  slices_S512x3x16x64_o0_0_0_0_S512x1x16x64 : S512x3x16x64.Slices ![0, 0, 0, 0] S512x1x16x64
  shapeCasts_S512x1x16x64_S512x16x64 : S512x1x16x64.ShapeCasts S512x16x64
  transposes_S512x16x64_p1_0_2_S16x512x64 : S512x16x64.Transposes [1, 0, 2] S16x512x64
  inb_S16x1x512x64_S16x1x512x64_0_0_0_0 : ∀ a, (![0, 0, 0, 0] : Fin 4 → Nat) a + S16x1x512x64.size a ≤ S16x1x512x64.size a
  h_S16x1x512x64 : 0 < S16x1x512x64.numel
  shapeCasts_S16x1x512x64_S16x512x64 : S16x1x512x64.ShapeCasts S16x512x64
  shapeCasts_S16x512x64_S16x1x512x64 : S16x512x64.ShapeCasts S16x1x512x64
  packedbf16_S16x1x512x64_S16x1x512x64_0_0_0_0 : (Rect.unit (s := S16x1x512x64) ![0, 0, 0, 0] S16x1x512x64.size inb_S16x1x512x64_S16x1x512x64_0_0_0_0).PackedRows (EltTy.packing .bf16)
  slices_S512x3x16x64_o0_1_0_0_S512x1x16x64 : S512x3x16x64.Slices ![0, 1, 0, 0] S512x1x16x64
  slices_S512x3x16x64_o0_2_0_0_S512x1x16x64 : S512x3x16x64.Slices ![0, 2, 0, 0] S512x1x16x64
  shapeCasts_S16x4x2048x64_S64x2048x64 : S16x4x2048x64.ShapeCasts S64x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x512x64.size a ≤ S16x4x2048x64.size a
  hwx0_2 : ∀ i : grid0.Coords, EltTy.bits .bf16 = 32 ∨ (Rect.block (s := S16x4x2048x64) S16x1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x512x64.size a ≤ S16x4x2048x64.size a
  hwx0_3 : ∀ i : grid0.Coords, EltTy.bits .bf16 = 32 ∨ (Rect.block (s := S16x4x2048x64) S16x1x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x512x64.size a ≤ S16x4x2048x64.size a
  hwx0_4 : ∀ i : grid0.Coords, EltTy.bits .bf16 = 32 ∨ (Rect.block (s := S16x4x2048x64) S16x1x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .bf16 = 32 ∨ (Rect.block (s := S64x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S64x2048x64.size a
  hwx1_1 : ∀ i : grid1.Coords, EltTy.bits .bf16 = 32 ∨ (Rect.block (s := S64x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S64x2048x64.size a
  hwx1_2 : ∀ i : grid1.Coords, EltTy.bits .bf16 = 32 ∨ (Rect.block (s := S64x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S64x2048x64.size a
  hwx1_3 : ∀ i : grid1.Coords, EltTy.bits .bf16 = 32 ∨ (Rect.block (s := S64x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S64x2048x64.size a
  hwx2_0 : ∀ i : grid2.Coords, EltTy.bits .bf16 = 32 ∨ (Rect.block (s := S64x2048x64) S1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S16x64x1024.size a
  hwx2_1 : ∀ i : grid2.Coords, EltTy.bits .bf16 = 32 ∨ (Rect.block (s := S16x64x1024) S1x64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S16x1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S16x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_2) S16x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v11) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x16x2048x2048, .i1⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x64, .f32⟩
  | .hbm, ⟨48, _⟩ => ⟨S4x2048x16x64, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v13 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.FrameI.R0.lean ====
/-
  The projection kernel (the first pallas_call) at one grid point, and at every point: what it leaves in its three
  output blocks as a function of its two input blocks, and the proof data of its pipeline.
  A point handles 512 consecutive rows of the flattened input [8192, 1024] against the whole transposed weight
  [1024, 3072]; each output block [16, 1, 512, 64] is stored whole, once, with the product re-laid head-major.
-/
import proofs.«181309_j90692529422468_2_alg».proof.Proof.Gen.KernelIdeal.Launch
import proofs.«181309_j90692529422468_2_alg».proof.Proof.Gen.KernelIdeal.Skeleton
import proofs.«181309_j90692529422468_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved), for any proof data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rO0 : Rect S16x1x512x64 := Rect.unit (s := S16x1x512x64) ![0, 0, 0, 0] S16x1x512x64.size inb_S16x1x512x64_S16x1x512x64_0_0_0_0

/-! ## What the body leaves in each output block -/

def out0_2 (x0 : Vec F S512x1024 .f32) (x1 : Vec F S1024x3072 .bf16) : Vec F S16x1x512x64 .bf16 :=
  View.canon [⟨rO0, k0_pay2 (View.ld x0 rX0) (View.ld x1 rW0)⟩]
def out0_3 (x0 : Vec F S512x1024 .f32) (x1 : Vec F S1024x3072 .bf16) : Vec F S16x1x512x64 .bf16 :=
  View.canon [⟨rO0, k0_pay3 (View.ld x0 rX0) (View.ld x1 rW0)⟩]
def out0_4 (x0 : Vec F S512x1024 .f32) (x1 : Vec F S1024x3072 .bf16) : Vec F S16x1x512x64 .bf16 :=
  View.canon [⟨rO0, k0_pay4 (View.ld x0 rX0) (View.ld x1 rW0)⟩]

/-- The one store covers the block. -/
theorem cover0 (p0 : Vec F S16x1x512x64 .bf16) (y : S16x1x512x64.Idx) :
    ∃ pc ∈ ([⟨rO0, p0⟩] : List (View.Piece (Elt F) S16x1x512x64 .bf16)), y ∈ pc.1.set :=
  View.cover_of_tiled [⟨rO0, p0⟩] S16x1x512x64.size (by rfl) y

/-! ## The body's triple -/

set_option maxHeartbeats 2000000 in
/-- On whole staging memrefs, the inputs' at contents `x0`, `x1` and the outputs' at anything, the body runs to the
    continuation holding the inputs' as they were and each output's at its function of the inputs'. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S16x1x512x64 .bf16) (harg3 : arg3.IsWhole)
    (arg4 : Memref sig .tc .vmem S16x1x512x64 .bf16) (harg4 : arg4.IsWhole) (arg5 : Memref sig .tc .vmem S16x1x512x64 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the first pipeline on core `c`: the arrays as the region finds them; after the body at point
    `t` each input's buffer at its block and each output's at its function of the input blocks; the invariant the
    scoped buffers no window stages and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI.R1Runs.lean ====
/-
  The attention kernel (the second pallas_call): what its runs share. Its grid is 64 (head, batch) pairs by 4 query
  tiles by 4 key tiles, the key axis innermost. For one query tile of 512 rows the kernel keeps, in three scratch
  buffers carried across the key tiles, each row's running maximum [512, 1], running sum [512, 1] and running weighted
  sum [512, 64]: reset at key tile 0; updated at every key tile not wholly above the diagonal (ki ≤ qi); and at key tile
  3 the quotient of the two sums is stored into the output block — idle at every other key tile. The key and value
  windows' block index is min(ki, qi): above the diagonal they stay on the diagonal tile and are not fetched again.
-/
import proofs.«181309_j90692529422468_2_alg».proof.Proof.Gen.KernelIdeal.Launch
import proofs.«181309_j90692529422468_2_alg».proof.Proof.Gen.KernelIdeal.Skeleton
import proofs.«181309_j90692529422468_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, decided over the grid -/

/-- "Key tile 0": the running quantities are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The key tile is not wholly above the diagonal" (ki ≤ qi): the running quantities take the tile in. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
/-- "Key tile 3": the output block is stored. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The memrefs the body is called with -/

abbrev VO1_3 : View sig .tc .vmem S1x512x64 .bf16 := (Memref.whole cc1_stg3_0 : Memref sig .tc .vmem S1x512x64 .bf16).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum, running sum and running weighted sum: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view

/-! ## The scoped buffers no window stages: the three scratch buffers, and the others -/

def Others1 (c : Dev nD) : sProp 𝕄 :=
  bigSep (((Finset.univ.filter fun b : Ref sig .tc => b.isScoped) \ Finset.univ.image (Pipeline.stageRef spec1)) \ {cc1_scratch0, cc1_scratch1, cc1_scratch2})
    fun b => iprop(∃ f : Buf (Elt F) ((c.tc : Thread nD τ).loc b), ((c.tc : Thread nD τ).loc b) ↦{fullShare} f)

theorem scopedRest1_split (c : Dev nD) :
    (Pipeline.scopedRest (Ix := Unit) (Name := ℕ) (U := Pipeline.UD sig nD τ) (Lvl := ℕ) (Val := Elt F) spec1 c : sProp 𝕄)
      = iprop(((∃ d, owns (c : Thread nD τ) scM1_0 fullShare d) ∗ (∃ d, owns (c : Thread nD τ) scM1_1 fullShare d) ∗ (∃ d, owns (c : Thread nD τ) scM1_2 fullShare d)) ∗ Others1 c) := by
  unfold Pipeline.scopedRest Others1
  rw [BI.bigSep_sdiff_split (t := {cc1_scratch0, cc1_scratch1, cc1_scratch2}) (by decide),
    BI.bigSep_eq_bigSepL_of_eq [cc1_scratch0, cc1_scratch1, cc1_scratch2] (by decide) (by decide)]
  simp only [scM1_0, scM1_1, scM1_2, owns_whole]
  rfl

end Cert.KernelIdeal.Hand

end
-- ==== Proof.FrameI.R1A.lean ====
/-
  The attention kernel at key tile 0: the three running quantities, whatever they held, are reset and then take the tile in; the output block is untouched.
-/
import proofs.«181309_j90692529422468_2_alg».proof.Proof.FrameI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 : Vec F S1x512x64 .bf16) (x1 : Vec F S1x512x64 .bf16) (x2 : Vec F S1x512x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FrameI.R1B.lean ====
/-
  The attention kernel at a later key tile not above the diagonal, not the last: the running quantities take the tile in; the output block is untouched.
-/
import proofs.«181309_j90692529422468_2_alg».proof.Proof.FrameI.R1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FrameI.R1C.lean ====
/-
  The attention kernel at the last key tile when it is on the diagonal: the running quantities take the tile in, and the output block is stored: the quotient of the two sums.
-/
import proofs.«181309_j90692529422468_2_alg».proof.Proof.FrameI.R1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FrameI.R1D.lean ====
/-
  The attention kernel at a key tile wholly above the diagonal, not the last: nothing is read or stored.
-/
import proofs.«181309_j90692529422468_2_alg».proof.Proof.FrameI.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], [], [], fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.FrameI.R1E.lean ====
/-
  The attention kernel at the last key tile when it is wholly above the diagonal: the running quantities stay, and the output block is stored: the quotient of the two sums.
-/
import proofs.«181309_j90692529422468_2_alg».proof.Proof.FrameI.R1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, [], [], [], fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.FrameI.R1.lean ====
/-
  The attention kernel at every point: what each of its five cases leaves in the three scratch buffers and in the output
  block, those contents point by point, the pipeline's proof data — whose invariant carries the running maximum, sum and
  weighted sum from each point to the next — and the body obligation.
-/
import proofs.«181309_j90692529422468_2_alg».proof.Proof.FrameI.R1E
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

theorem scover1_A_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y
def sout1_A_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)
theorem scover1_A_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y
def sout1_A_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)
theorem scover1_A_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x64.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x64.size (by sl_kernel_rfl) y
def sout1_A_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)
theorem scover1_B_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y
def sout1_B_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)
theorem scover1_B_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y
def sout1_B_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)
theorem scover1_B_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x64.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x64.size (by sl_kernel_rfl) y
def sout1_B_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)
theorem scover1_C_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S512x1.size (by sl_kernel_rfl) y
def sout1_C_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)
theorem scover1_C_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S512x1.size (by sl_kernel_rfl) y
def sout1_C_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)
theorem scover1_C_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x64.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S512x64.size (by sl_kernel_rfl) y
def sout1_C_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)
theorem cover1_C_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S1x512x64.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x64.size (by sl_kernel_rfl) y
def out1_C_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S1x512x64 .bf16 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)
theorem cover1_E_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S1x512x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x64.size (by sl_kernel_rfl) y
def out1_E_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S1x512x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## The output block and the scratch buffers after each point -/

/-- Where the output block is idle nothing consults its entry: a placeholder. -/
def idleOut1 : Vec F S1x512x64 .bf16 := VO1_3.read (Elt F) (VO1_3.writes (Elt F) VO1_3.junk [])

def stepA1 (c : Dev nD) (t : Fin cfg1.N) (h0 : t.val % 4 = 0) (h1 : t.val % 4 ≤ t.val / 4 % 4) (h2 : ¬t.val % 4 = 3) : Vec F S1x512x64 .bf16 × Vec F S512x1 .f32 × Vec F S512x1 .f32 × Vec F S512x64 .f32 :=
  (idleOut1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
def stepB1 (c : Dev nD) (t : Fin cfg1.N) (h0 : ¬t.val % 4 = 0) (h1 : t.val % 4 ≤ t.val / 4 % 4) (h2 : ¬t.val % 4 = 3) (xs : Vec F S512x1 .f32 × Vec F S512x1 .f32 × Vec F S512x64 .f32) : Vec F S1x512x64 .bf16 × Vec F S512x1 .f32 × Vec F S512x1 .f32 × Vec F S512x64 .f32 :=
  (idleOut1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2)
def stepC1 (c : Dev nD) (t : Fin cfg1.N) (h0 : ¬t.val % 4 = 0) (h1 : t.val % 4 ≤ t.val / 4 % 4) (h2 : t.val % 4 = 3) (xs : Vec F S512x1 .f32 × Vec F S512x1 .f32 × Vec F S512x64 .f32) : Vec F S1x512x64 .bf16 × Vec F S512x1 .f32 × Vec F S512x1 .f32 × Vec F S512x64 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2)
def stepD1 (c : Dev nD) (t : Fin cfg1.N) (h0 : ¬t.val % 4 = 0) (h1 : ¬t.val % 4 ≤ t.val / 4 % 4) (h2 : ¬t.val % 4 = 3) (xs : Vec F S512x1 .f32 × Vec F S512x1 .f32 × Vec F S512x64 .f32) : Vec F S1x512x64 .bf16 × Vec F S512x1 .f32 × Vec F S512x1 .f32 × Vec F S512x64 .f32 :=
  (idleOut1, xs.1, xs.2.1, xs.2.2)
def stepE1 (c : Dev nD) (t : Fin cfg1.N) (h0 : ¬t.val % 4 = 0) (h1 : ¬t.val % 4 ≤ t.val / 4 % 4) (h2 : t.val % 4 = 3) (xs : Vec F S512x1 .f32 × Vec F S512x1 .f32 × Vec F S512x64 .f32) : Vec F S1x512x64 .bf16 × Vec F S512x1 .f32 × Vec F S512x1 .f32 × Vec F S512x64 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) xs.1 xs.2.1 xs.2.2, xs.1, xs.2.1, xs.2.2)

/-- (output block, running maximum, running sum, running weighted sum) after point `n`, by recursion on the point:
    key tile 0 starts afresh; every other key tile continues from what the point before left in the scratch buffers. -/
def outsAt1 (c : Dev nD) : (n : ℕ) → n < cfg1.N → Vec F S1x512x64 .bf16 × Vec F S512x1 .f32 × Vec F S512x1 .f32 × Vec F S512x64 .f32
  | 0, hn => stepA1 V c ⟨0, hn⟩ rfl (by show (0 : ℕ) % 4 ≤ 0 / 4 % 4; decide) (by show ¬(0 : ℕ) % 4 = 3; decide)
  | n + 1, hn =>
    if h0 : (n + 1) % 4 = 0 then stepA1 V c ⟨n + 1, hn⟩ h0 (by show (n + 1) % 4 ≤ (n + 1) / 4 % 4; omega) (by show ¬(n + 1) % 4 = 3; omega)
    else if h1 : (n + 1) % 4 ≤ (n + 1) / 4 % 4 then
      (if h2 : (n + 1) % 4 = 3 then stepC1 V c ⟨n + 1, hn⟩ h0 h1 h2 (outsAt1 c n (Nat.lt_of_succ_lt hn)).2
       else stepB1 V c ⟨n + 1, hn⟩ h0 h1 h2 (outsAt1 c n (Nat.lt_of_succ_lt hn)).2)
    else
      (if h2 : (n + 1) % 4 = 3 then stepE1 V c ⟨n + 1, hn⟩ h0 h1 h2 (outsAt1 c n (Nat.lt_of_succ_lt hn)).2
       else stepD1 c ⟨n + 1, hn⟩ h0 h1 h2 (outsAt1 c n (Nat.lt_of_succ_lt hn)).2)

theorem outsAt1_A (c : Dev nD) (t : Fin cfg1.N) (h0 : t.val % 4 = 0) (h1 : t.val % 4 ≤ t.val / 4 % 4) (h2 : ¬t.val % 4 = 3) : outsAt1 V c t.val t.isLt = stepA1 V c t h0 h1 h2 := by
  obtain ⟨n, hn⟩ := t
  cases n with
  | zero => rfl
  | succ n => exact dif_pos h0
theorem outsAt1_B (c : Dev nD) (t : Fin cfg1.N) (h0 : ¬t.val % 4 = 0) (h1 : t.val % 4 ≤ t.val / 4 % 4) (h2 : ¬t.val % 4 = 3) :
    outsAt1 V c t.val t.isLt = stepB1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans (dif_neg h2))
theorem outsAt1_C (c : Dev nD) (t : Fin cfg1.N) (h0 : ¬t.val % 4 = 0) (h1 : t.val % 4 ≤ t.val / 4 % 4) (h2 : t.val % 4 = 3) :
    outsAt1 V c t.val t.isLt = stepC1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans (dif_pos h2))
theorem outsAt1_D (c : Dev nD) (t : Fin cfg1.N) (h0 : ¬t.val % 4 = 0) (h1 : ¬t.val % 4 ≤ t.val / 4 % 4) (h2 : ¬t.val % 4 = 3) :
    outsAt1 V c t.val t.isLt = stepD1 c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans (dif_neg h2))
theorem outsAt1_E (c : Dev nD) (t : Fin cfg1.N) (h0 : ¬t.val % 4 = 0) (h1 : ¬t.val % 4 ≤ t.val / 4 % 4) (h2 : t.val % 4 = 3) :
    outsAt1 V c t.val t.isLt = stepE1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans (dif_pos h2))

/-! ## The invariant: the three running quantities carried from point to point -/

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Others1 c) ∗ (∃ r, prngReg c r))

theorem PhiA1_eq (c : Dev nD) :
    (Pipeline.ΦA spec1 c : sProp 𝕄) = iprop(iprop(iprop((∃ d, owns (c : Thread nD τ) scM1_0 fullShare d) ∗ (∃ d, owns (c : Thread nD τ) scM1_1 fullShare d) ∗ (∃ d, owns (c : Thread nD τ) scM1_2 fullShare d)) ∗ Others1 c) ∗ (∃ r, prngReg c r)) := by
  unfold Pipeline.ΦA; rw [scopedRest1_split]
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Others1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Others1 c) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the point's key and query tiles say which case it is
    in; the invariant hands the body the three running quantities at what the point before left (at anything at the
    very first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold stepA1 sout1_A_0 sout1_A_1 sout1_A_2; (try dsimp only)
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS1_castSucc V c t, PhiS1_pos V c _ _ hz]
    by_cases h1 : t.val % 4 ≤ t.val / 4 % 4
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_C V c t h0 h1 h2]
        unfold stepC1 out1_C_3 sout1_C_0 sout1_C_1 sout1_C_2; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _)
      · skip
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold stepB1 sout1_B_0 sout1_B_1 sout1_B_2; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stepE1 out1_E_3; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · skip
        rw [Dat.leavesExact_idle (dat1 V c) 3 t (idleAt1_3 t (fun h => h2 ((hcond1_2 t).mp h))) (noFlush1_3 t (fun h => h2 ((hcond1_2 t).mp h)))]
        rw [outsAt1_D V c t h0 h1 h2]
        unfold stepD1; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameI.R2Runs.lean ====
/-
  The output-projection kernel (the third pallas_call): what its runs share. Its grid is 16 row tiles by 16 heads; the
  head axis is innermost. A point adds the product of one head's attention tile [512, 64] with that head's weight slice
  [64, 1024] into an accumulator [512, 1024] kept in scratch across the heads of a row tile: cleared at head 0, and at
  head 15 stored, with the bias added, into the output block — which is idle (neither stored nor written back) at
  every other head.
-/
import proofs.«181309_j90692529422468_2_alg».proof.Proof.Gen.KernelIdeal.Launch
import proofs.«181309_j90692529422468_2_alg».proof.Proof.Gen.KernelIdeal.Skeleton
import proofs.«181309_j90692529422468_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is head 0": the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "This is head 15": the output block is stored. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S512x1024 .f32 := (Memref.whole cc2_stg3_0 : Memref sig .tc .vmem S512x1024 .f32).view
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S512x1024 .f32 := Memref.whole cc2_scratch0
abbrev VS2_0 : View sig .tc .vmem S512x1024 .f32 := scM2_0.view

/-! ## The scoped buffers no window stages: the accumulator, and the others -/

/-- The scoped buffers that are neither a staging buffer of this pipeline nor its accumulator, each at some contents. -/
def Others2 (c : Dev nD) : sProp 𝕄 :=
  bigSep (((Finset.univ.filter fun b : Ref sig .tc => b.isScoped) \ Finset.univ.image (Pipeline.stageRef spec2)) \ {cc2_scratch0})
    fun b => iprop(∃ f : Buf (Elt F) ((c.tc : Thread nD τ).loc b), ((c.tc : Thread nD τ).loc b) ↦{fullShare} f)

theorem scopedRest2_split (c : Dev nD) :
    (Pipeline.scopedRest (Ix := Unit) (Name := ℕ) (U := Pipeline.UD sig nD τ) (Lvl := ℕ) (Val := Elt F) spec2 c : sProp 𝕄)
      = iprop((∃ d, owns (c : Thread nD τ) scM2_0 fullShare d) ∗ Others2 c) := by
  unfold Pipeline.scopedRest Others2
  rw [BI.bigSep_sdiff_split (t := {cc2_scratch0}) (by decide), BI.bigSep_singleton]
  simp only [scM2_0, owns_whole]
  rfl

end Cert.KernelIdeal.Hand

end
-- ==== Proof.FrameI.R2A.lean ====
/-
  The output-projection kernel at head 0 (not the last head): the accumulator, whatever it held, is cleared and then
  holds this head's product; the output block is untouched.
-/
import proofs.«181309_j90692529422468_2_alg».proof.Proof.FrameI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
/-- The pieces the body's stores leave in the accumulator at head 0, with the proof that the body runs: inputs as
    they were, the output block handed back as found, the accumulator with those pieces written. -/
noncomputable def kernelRun2_A (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameI.R2B.lean ====
/-
  The output-projection kernel at a middle head (neither 0 nor 15): the accumulator, holding what the head before left,
  gains this head's product; the output block is untouched.
-/
import proofs.«181309_j90692529422468_2_alg».proof.Proof.FrameI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
noncomputable def kernelRun2_B (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameI.R2C.lean ====
/-
  The output-projection kernel at head 15: the accumulator gains the last head's product, and the output block is stored
  whole: the accumulator plus the bias row.
-/
import proofs.«181309_j90692529422468_2_alg».proof.Proof.FrameI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
noncomputable def kernelRun2_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameI.R2.lean ====
/-
  The output-projection kernel at every point: what each of its three cases leaves in the accumulator and in the output
  block, the accumulator's contents point by point (cleared at head 0, one head's product added per point), the
  pipeline's proof data — whose invariant carries the accumulator at those contents from each point to the next —
  and the body obligation.
-/
import proofs.«181309_j90692529422468_2_alg».proof.Proof.FrameI.R2A
import proofs.«181309_j90692529422468_2_alg».proof.Proof.FrameI.R2B
import proofs.«181309_j90692529422468_2_alg».proof.Proof.FrameI.R2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

theorem scover2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1x1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y
def sout2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1x1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

theorem scover2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1x1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y
def sout2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

theorem scover2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y
def sout2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)
theorem cover2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y
def out2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Where the output block is idle nothing consults its entry: a placeholder. -/
def idleOut2 : Vec F S512x1024 .f32 := VO2_3.read (Elt F) (VO2_3.writes (Elt F) VO2_3.junk [])

/-! ## The output block and the accumulator after each point -/

def stepA2 (c : Dev nD) (t : Fin cfg2.N) (h0 : t.val % 16 = 0) (h1 : ¬t.val % 16 = 15) : Vec F S512x1024 .f32 × Vec F S512x1024 .f32 :=
  (idleOut2, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))
def stepB2 (c : Dev nD) (t : Fin cfg2.N) (h0 : ¬t.val % 16 = 0) (h1 : ¬t.val % 16 = 15) (xs : Vec F S512x1024 .f32) : Vec F S512x1024 .f32 × Vec F S512x1024 .f32 :=
  (idleOut2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)
def stepC2 (c : Dev nD) (t : Fin cfg2.N) (h0 : ¬t.val % 16 = 0) (h1 : t.val % 16 = 15) (xs : Vec F S512x1024 .f32) : Vec F S512x1024 .f32 × Vec F S512x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- (output block, accumulator) after point `n`, by recursion on the point: head 0 starts afresh, every other head
    continues from what the point before left in the accumulator. -/
def outsAt2 (c : Dev nD) : (n : ℕ) → n < cfg2.N → Vec F S512x1024 .f32 × Vec F S512x1024 .f32
  | 0, hn => stepA2 V c ⟨0, hn⟩ rfl (by show ¬(0 : ℕ) % 16 = 15; decide)
  | n + 1, hn =>
    if h0 : (n + 1) % 16 = 0 then stepA2 V c ⟨n + 1, hn⟩ h0 (by show ¬(n + 1) % 16 = 15; omega)
    else if h1 : (n + 1) % 16 = 15 then stepC2 V c ⟨n + 1, hn⟩ h0 h1 (outsAt2 c n (Nat.lt_of_succ_lt hn)).2
    else stepB2 V c ⟨n + 1, hn⟩ h0 h1 (outsAt2 c n (Nat.lt_of_succ_lt hn)).2

theorem outsAt2_A (c : Dev nD) (t : Fin cfg2.N) (h0 : t.val % 16 = 0) (h1 : ¬t.val % 16 = 15) :
    outsAt2 V c t.val t.isLt = stepA2 V c t h0 h1 := by
  obtain ⟨n, hn⟩ := t
  cases n with
  | zero => rfl
  | succ n => exact dif_pos h0
theorem outsAt2_B (c : Dev nD) (t : Fin cfg2.N) (h0 : ¬t.val % 16 = 0) (h1 : ¬t.val % 16 = 15) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt2_C (c : Dev nD) (t : Fin cfg2.N) (h0 : ¬t.val % 16 = 0) (h1 : t.val % 16 = 15) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant: the accumulator carried from point to point -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Others2 c) ∗ (∃ r, prngReg c r))

theorem PhiA2_eq (c : Dev nD) :
    (Pipeline.ΦA spec2 c : sProp 𝕄) = iprop(iprop((∃ d, owns (c : Thread nD τ) scM2_0 fullShare d) ∗ Others2 c) ∗ (∃ r, prngReg c r)) := by
  unfold Pipeline.ΦA; rw [scopedRest2_split]
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Others2 c) ∗ (∃ r, prngReg c r)) := by
  cases n with
  | zero => exact absurd rfl hz
  | succ n => rfl

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the point's head says which case it is in; the
    invariant hands the body the accumulator at what the point before left (at anything at the very first point)
    and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold stepA2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold stepC2 out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold stepB2 sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameI.Chain.lean ====
/-
  The whole program: the contents of the unscoped buffers at each of the seven boundaries between @main's six items
  (host operations, the projection kernel, three reshapes, the attention kernel, the output-projection kernel, a last
  reshape) as a fold from the launch memory; each kernel region as a segment between two boundaries; and the run: every
  weakly fair execution terminates with every unscoped buffer at the last boundary's contents.
-/
import proofs.«181309_j90692529422468_2_alg».proof.Proof.Gen.KernelIdeal.Launch
import proofs.«181309_j90692529422468_2_alg».proof.Proof.Gen.KernelIdeal.Skeleton
import proofs.«181309_j90692529422468_2_alg».proof.Proof.Gen.KernelIdeal.Points
import proofs.«181309_j90692529422468_2_alg».proof.Proof.Gen.KernelIdeal.Regions
import proofs.«181309_j90692529422468_2_alg».proof.Proof.FrameI.R0
import proofs.«181309_j90692529422468_2_alg».proof.Proof.FrameI.R1
import proofs.«181309_j90692529422468_2_alg».proof.Proof.FrameI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The invariants at the last point give the scoped buffers back -/

theorem Phi1_any (V : (c : Dev nD) → (b : Ref sig .tc) → Buf (Elt F) ((c : Thread nD τ).loc b)) (c : Dev nD) (t : Fin (cfg1.N + 1)) :
    (dat1 V c).Φ t ⊢ (iprop((∃ r, prngReg c r) ∗ Pipeline.scopedRest (Ix := Unit) (Name := ℕ) (U := Pipeline.UD sig nD τ) (Lvl := ℕ) (Val := Elt F) spec1 c) : sProp 𝕄) := by
  rw [show (dat1 V c).Φ t = PhiS1 V c t.val (Nat.le_of_lt_succ t.isLt) from by dsimp only [dat1]]
  by_cases hz : t.val = 0
  · rw [PhiS1_zero V c _ _ hz]; unfold Pipeline.ΦA
    iintro ⟨Hp, Hr⟩
    isplitl [Hr]; · iexact Hr
    iexact Hp
  · rw [PhiS1_pos V c _ _ hz, scopedRest1_split]
    iintro ⟨⟨⟨HS0, HS1, HS2⟩, HR⟩, Hg⟩
    isplitl [Hg]; · iexact Hg
    isplitl [HS0 HS1 HS2]
    · isplitl [HS0]; · iexists _; iexact HS0
      isplitl [HS1]; · iexists _; iexact HS1
      iexists _; iexact HS2
    iexact HR
theorem Phi2_any (V : (c : Dev nD) → (b : Ref sig .tc) → Buf (Elt F) ((c : Thread nD τ).loc b)) (c : Dev nD) (t : Fin (cfg2.N + 1)) :
    (dat2 V c).Φ t ⊢ (iprop((∃ r, prngReg c r) ∗ Pipeline.scopedRest (Ix := Unit) (Name := ℕ) (U := Pipeline.UD sig nD τ) (Lvl := ℕ) (Val := Elt F) spec2 c) : sProp 𝕄) := by
  rw [show (dat2 V c).Φ t = PhiS2 V c t.val (Nat.le_of_lt_succ t.isLt) from by dsimp only [dat2]]
  by_cases hz : t.val = 0
  · rw [PhiS2_zero V c _ _ hz]; unfold Pipeline.ΦA
    iintro ⟨Hp, Hr⟩
    isplitl [Hr]; · iexact Hr
    iexact Hp
  · rw [PhiS2_pos V c _ _ hz, scopedRest2_split]
    iintro ⟨⟨HS0, HR⟩, Hg⟩
    isplitl [Hg]; · iexact Hg
    isplitl [HS0]; · iexists _; iexact HS0
    iexact HR

/-! ## The buffer contents at each boundary: a fold through @main -/

/-- At launch. -/
abbrev W0b : Dev nD → Valuation τ sig (Elt F) := fun c b => (s₀ m ρ).mem ((c : Dev nD), b)
/-- After the first host stretch (the projection kernel's entry). -/
abbrev W1b (c : Dev nD) : Valuation τ sig (Elt F) := StableHlo.after hostOps0 (W0b m ρ c)
abbrev V1b : (c : Dev nD) → (b : Ref sig .tc) → Buf (Elt F) ((c : Thread nD τ).loc b) := fun c b => W1b m ρ c b

/-- After region 0: its arrays at what the pipeline leaves, every other buffer as entered. -/
def W2b (c : Dev nD) : Valuation τ sig (Elt F) :=
  Pipeline.withArrays spec0 c (W1b m ρ c) fun w => (dat0 (V1b m ρ) c).arrAt w cfg0.N
theorem W2b_arr (c : Dev nD) (w : Fin cfg0.W) :
    W2b m ρ c (Proc.devRef .tc (Pipeline.arrRef spec0 w)) = (dat0 (V1b m ρ) c).arrAt w cfg0.N := by
  unfold W2b; exact Pipeline.withArrays_arr spec0 launch0.win.arr_inj c _ _ w
theorem W2b_of_ne (c : Dev nD) (b : Ref sig .tc) (hb : ∀ w, Pipeline.arrRef spec0 w ≠ b) :
    W2b m ρ c (Proc.devRef .tc b) = W1b m ρ c (Proc.devRef .tc b) := by
  unfold W2b; exact Pipeline.withArrays_of_ne spec0 c _ _ b hb
/-- After the three reshapes (the attention kernel's entry). -/
abbrev W3b (c : Dev nD) : Valuation τ sig (Elt F) := StableHlo.after hostOps1 (W2b m ρ c)
abbrev V3b : (c : Dev nD) → (b : Ref sig .tc) → Buf (Elt F) ((c : Thread nD τ).loc b) := fun c b => W3b m ρ c b

/-- After region 1: its arrays at what the pipeline leaves, every other buffer as entered. -/
def W4b (c : Dev nD) : Valuation τ sig (Elt F) :=
  Pipeline.withArrays spec1 c (W3b m ρ c) fun w => (dat1 (V3b m ρ) c).arrAt w cfg1.N
theorem W4b_arr (c : Dev nD) (w : Fin cfg1.W) :
    W4b m ρ c (Proc.devRef .tc (Pipeline.arrRef spec1 w)) = (dat1 (V3b m ρ) c).arrAt w cfg1.N := by
  unfold W4b; exact Pipeline.withArrays_arr spec1 launch1.win.arr_inj c _ _ w
theorem W4b_of_ne (c : Dev nD) (b : Ref sig .tc) (hb : ∀ w, Pipeline.arrRef spec1 w ≠ b) :
    W4b m ρ c (Proc.devRef .tc b) = W3b m ρ c (Proc.devRef .tc b) := by
  unfold W4b; exact Pipeline.withArrays_of_ne spec1 c _ _ b hb
abbrev V4b : (c : Dev nD) → (b : Ref sig .tc) → Buf (Elt F) ((c : Thread nD τ).loc b) := fun c b => W4b m ρ c b

/-- After region 2: its arrays at what the pipeline leaves, every other buffer as entered. -/
def W5b (c : Dev nD) : Valuation τ sig (Elt F) :=
  Pipeline.withArrays spec2 c (W4b m ρ c) fun w => (dat2 (V4b m ρ) c).arrAt w cfg2.N
theorem W5b_arr (c : Dev nD) (w : Fin cfg2.W) :
    W5b m ρ c (Proc.devRef .tc (Pipeline.arrRef spec2 w)) = (dat2 (V4b m ρ) c).arrAt w cfg2.N := by
  unfold W5b; exact Pipeline.withArrays_arr spec2 launch2.win.arr_inj c _ _ w
theorem W5b_of_ne (c : Dev nD) (b : Ref sig .tc) (hb : ∀ w, Pipeline.arrRef spec2 w ≠ b) :
    W5b m ρ c (Proc.devRef .tc b) = W4b m ρ c (Proc.devRef .tc b) := by
  unfold W5b; exact Pipeline.withArrays_of_ne spec2 c _ _ b hb
/-- After the last reshape: the end. -/
abbrev W6b (c : Dev nD) : Valuation τ sig (Elt F) := StableHlo.after hostOps3 (W5b m ρ c)

theorem hF0 (c : Dev nD) (w : Fin cfg0.W) : (dat0 (V1b m ρ) c).arrAt w cfg0.N = W2b m ρ c (Pipeline.arrRef spec0 w) := (W2b_arr m ρ c w).symm
theorem hrest0 (c : Dev nD) : ∀ b, b ∉ Finset.univ.image (Pipeline.arrRef spec0) → W2b m ρ c b = V1b m ρ c b :=
  fun b hb => W2b_of_ne m ρ c b fun w e => hb (Finset.mem_image.mpr ⟨w, Finset.mem_univ _, e⟩)
theorem hF1 (c : Dev nD) (w : Fin cfg1.W) : (dat1 (V3b m ρ) c).arrAt w cfg1.N = W4b m ρ c (Pipeline.arrRef spec1 w) := (W4b_arr m ρ c w).symm
theorem hrest1 (c : Dev nD) : ∀ b, b ∉ Finset.univ.image (Pipeline.arrRef spec1) → W4b m ρ c b = V3b m ρ c b :=
  fun b hb => W4b_of_ne m ρ c b fun w e => hb (Finset.mem_image.mpr ⟨w, Finset.mem_univ _, e⟩)
theorem hF2 (c : Dev nD) (w : Fin cfg2.W) : (dat2 (V4b m ρ) c).arrAt w cfg2.N = W5b m ρ c (Pipeline.arrRef spec2 w) := (W5b_arr m ρ c w).symm
theorem hrest2 (c : Dev nD) : ∀ b, b ∉ Finset.univ.image (Pipeline.arrRef spec2) → W5b m ρ c b = V4b m ρ c b :=
  fun b hb => W5b_of_ne m ρ c b fun w e => hb (Finset.mem_image.mpr ⟨w, Finset.mem_univ _, e⟩)

/-! ## The proof data family and the thread state -/

def pdats : (p : Fin 3) → (c : Dev nD) → Dat τ (Elt F) Unit ℕ (Pipeline.UD sig nD τ) ℕ (Pipeline.pin (pcfgs (F := F)) adm p) c
  | ⟨0, _⟩ => fun c => dat0 (V1b m ρ) c
  | ⟨1, _⟩ => fun c => dat1 (V3b m ρ) c
  | ⟨2, _⟩ => fun c => dat2 (V4b m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6b m ρ c) ∗ ∃ r, prngReg c r)

/-! ## The regions as segments -/

set_option backward.isDefEq.respectTransparency.types false in
/-- Region 0 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1b m ρ) c).loose
  hwaits := Pipeline.hwaits_of_owed_zero _ _ _ _ L lv 0 fun _ _ => rfl
  pre c := iprop(StableHlo.held (c : Thread nD τ) (Pipeline.ucRefs τ sig) (W1b m ρ c) ∗ R c)
  post c := iprop(StableHlo.held (c : Thread nD τ) (Pipeline.ucRefs τ sig) (W2b m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1b m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1b m ρ c) (fun b => W2b m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3b m ρ) c).loose
  hwaits := Pipeline.hwaits_of_owed_zero _ _ _ _ L lv 1 fun _ _ => rfl
  pre c := iprop(StableHlo.held (c : Thread nD τ) (Pipeline.ucRefs τ sig) (W3b m ρ c) ∗ R c)
  post c := iprop(StableHlo.held (c : Thread nD τ) (Pipeline.ucRefs τ sig) (W4b m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3b m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_any (V3b m ρ) c (Fin.last _)).trans ?_
    iintro ⟨Hr, Hp⟩
    isplitl [Hr]; · iexact Hr
    isplitr; · iempintro
    iexact Hp
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3b m ρ c) (fun b => W4b m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4b m ρ) c).loose
  hwaits := Pipeline.hwaits_of_owed_zero _ _ _ _ L lv 2 fun _ _ => rfl
  pre c := iprop(StableHlo.held (c : Thread nD τ) (Pipeline.ucRefs τ sig) (W4b m ρ c) ∗ R c)
  post c := iprop(StableHlo.held (c : Thread nD τ) (Pipeline.ucRefs τ sig) (W5b m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4b m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_any (V4b m ρ) c (Fin.last _)).trans ?_
    iintro ⟨Hr, Hp⟩
    isplitl [Hr]; · iexact Hr
    isplitr; · iempintro
    iexact Hp
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4b m ρ c) (fun b => W5b m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0b m ρ)),
    .region (reg0 m ρ),
    .host (hseg hostOps1 hostOps1_sub hostOps1_fresh (W2b m ρ)),
    .region (reg1 m ρ),
    .region (reg2 m ρ),
    .host (hseg hostOps3 hostOps3_sub hostOps3_fresh (W5b m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6b m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0b m ρ c) ∗ R c)) (Tₙ := Tₙ m ρ)
    (hch := ⟨fun _ => .rfl, fun _ => .rfl, fun _ => .rfl, fun _ => .rfl, fun _ => .rfl, fun _ => .rfl, fun c => (show (iprop(StableHlo.held (c : Thread nD τ) (Pipeline.ucRefs τ sig) (W6b m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0b m ρ c)
        from Pipeline.unscopedBufs_held c (W0b m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6b m ρ c b)
    (hfin := fun c s' => by
      iintro ⟨⟨Hh, -⟩, HSI⟩
      unfold StableHlo.held
      imodintro
      iapply (pointsTo_read_all (Pipeline.ucRefs τ sig) (fun b => (((c : Thread nD τ)).1, b)) (W6b m ρ c) s')
      isplitl [Hh] <;> iassumption)
    (hQ := fun s h c => h c)

end Cert.KernelIdeal.Hand

end
-- ==== Proof.FrameI.Args.lean ====
/-
  The arguments end as launched: no host operation writes one and no kernel region has one as a window's array, so the
  fold of boundary contents read at an argument walks back to the launch memory; with the run this is the frame claim.
-/
import proofs.«181309_j90692529422468_2_alg».proof.Proof.FrameI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem W6b_main_arg0 (c : Dev nD) : W6b m ρ c (Proc.devRef .tc main_arg0) = m ((c : Thread nD τ).loc main_arg0) :=
  calc W6b m ρ c (Proc.devRef .tc main_arg0)
    _ = W5b m ρ c (Proc.devRef .tc main_arg0) := StableHlo.after_of_writes_sub hostOps3 _ hostOps3_writes (by decide)
    _ = W4b m ρ c (Proc.devRef .tc main_arg0) := W5b_of_ne m ρ c main_arg0 (by decide)
    _ = W3b m ρ c (Proc.devRef .tc main_arg0) := W4b_of_ne m ρ c main_arg0 (by decide)
    _ = W2b m ρ c (Proc.devRef .tc main_arg0) := StableHlo.after_of_writes_sub hostOps1 _ hostOps1_writes (by decide)
    _ = W1b m ρ c (Proc.devRef .tc main_arg0) := W2b_of_ne m ρ c main_arg0 (by decide)
    _ = W0b m ρ c (Proc.devRef .tc main_arg0) := StableHlo.after_of_writes_sub hostOps0 _ hostOps0_writes (by decide)
    _ = m ((c : Thread nD τ).loc main_arg0) := rfl
theorem W6b_main_arg1 (c : Dev nD) : W6b m ρ c (Proc.devRef .tc main_arg1) = m ((c : Thread nD τ).loc main_arg1) :=
  calc W6b m ρ c (Proc.devRef .tc main_arg1)
    _ = W5b m ρ c (Proc.devRef .tc main_arg1) := StableHlo.after_of_writes_sub hostOps3 _ hostOps3_writes (by decide)
    _ = W4b m ρ c (Proc.devRef .tc main_arg1) := W5b_of_ne m ρ c main_arg1 (by decide)
    _ = W3b m ρ c (Proc.devRef .tc main_arg1) := W4b_of_ne m ρ c main_arg1 (by decide)
    _ = W2b m ρ c (Proc.devRef .tc main_arg1) := StableHlo.after_of_writes_sub hostOps1 _ hostOps1_writes (by decide)
    _ = W1b m ρ c (Proc.devRef .tc main_arg1) := W2b_of_ne m ρ c main_arg1 (by decide)
    _ = W0b m ρ c (Proc.devRef .tc main_arg1) := StableHlo.after_of_writes_sub hostOps0 _ hostOps0_writes (by decide)
    _ = m ((c : Thread nD τ).loc main_arg1) := rfl
theorem W6b_main_arg2 (c : Dev nD) : W6b m ρ c (Proc.devRef .tc main_arg2) = m ((c : Thread nD τ).loc main_arg2) :=
  calc W6b m ρ c (Proc.devRef .tc main_arg2)
    _ = W5b m ρ c (Proc.devRef .tc main_arg2) := StableHlo.after_of_writes_sub hostOps3 _ hostOps3_writes (by decide)
    _ = W4b m ρ c (Proc.devRef .tc main_arg2) := W5b_of_ne m ρ c main_arg2 (by decide)
    _ = W3b m ρ c (Proc.devRef .tc main_arg2) := W4b_of_ne m ρ c main_arg2 (by decide)
    _ = W2b m ρ c (Proc.devRef .tc main_arg2) := StableHlo.after_of_writes_sub hostOps1 _ hostOps1_writes (by decide)
    _ = W1b m ρ c (Proc.devRef .tc main_arg2) := W2b_of_ne m ρ c main_arg2 (by decide)
    _ = W0b m ρ c (Proc.devRef .tc main_arg2) := StableHlo.after_of_writes_sub hostOps0 _ hostOps0_writes (by decide)
    _ = m ((c : Thread nD τ).loc main_arg2) := rfl
theorem W6b_main_arg3 (c : Dev nD) : W6b m ρ c (Proc.devRef .tc main_arg3) = m ((c : Thread nD τ).loc main_arg3) :=
  calc W6b m ρ c (Proc.devRef .tc main_arg3)
    _ = W5b m ρ c (Proc.devRef .tc main_arg3) := StableHlo.after_of_writes_sub hostOps3 _ hostOps3_writes (by decide)
    _ = W4b m ρ c (Proc.devRef .tc main_arg3) := W5b_of_ne m ρ c main_arg3 (by decide)
    _ = W3b m ρ c (Proc.devRef .tc main_arg3) := W4b_of_ne m ρ c main_arg3 (by decide)
    _ = W2b m ρ c (Proc.devRef .tc main_arg3) := StableHlo.after_of_writes_sub hostOps1 _ hostOps1_writes (by decide)
    _ = W1b m ρ c (Proc.devRef .tc main_arg3) := W2b_of_ne m ρ c main_arg3 (by decide)
    _ = W0b m ρ c (Proc.devRef .tc main_arg3) := StableHlo.after_of_writes_sub hostOps0 _ hostOps0_writes (by decide)
    _ = m ((c : Thread nD τ).loc main_arg3) := rfl

/-- THE FRAME: every weakly fair execution of @main terminates, nothing faulting, and every final memory holds each
    argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6b_main_arg0 m ρ c),
     (h c _ (mem_uc main_arg1 (by decide))).trans (W6b_main_arg1 m ρ c),
     (h c _ (mem_uc main_arg2 (by decide))).trans (W6b_main_arg2 m ρ c),
     (h c _ (mem_uc main_arg3 (by decide))).trans (W6b_main_arg3 m ρ c)⟩) (run_all m ρ)

end Cert.KernelIdeal.Hand

end
-- ==== Proof.FrameB.R0.lean ====
/-
  The projection kernel (the first pallas_call) at one grid point, and at every point: what it leaves in its three
  output blocks as a function of its two input blocks, and the proof data of its pipeline.
  A point handles 512 consecutive rows of the flattened input [8192, 1024] against the whole transposed weight
  [1024, 3072]; each output block [16, 1, 512, 64] is stored whole, once, with the product re-laid head-major.
-/
import proofs.«181309_j90692529422468_2_alg».proof.Proof.Gen.Kernel.Launch
import proofs.«181309_j90692529422468_2_alg».proof.Proof.Gen.Kernel.Skeleton
import proofs.«181309_j90692529422468_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block index
    has not moved), for any proof data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rO0 : Rect S16x1x512x64 := Rect.unit (s := S16x1x512x64) ![0, 0, 0, 0] S16x1x512x64.size inb_S16x1x512x64_S16x1x512x64_0_0_0_0

/-! ## What the body leaves in each output block -/

def out0_2 (x0 : Vec F S512x1024 .f32) (x1 : Vec F S1024x3072 .bf16) : Vec F S16x1x512x64 .bf16 :=
  View.canon [⟨rO0, k0_pay2 (View.ld x0 rX0) (View.ld x1 rW0)⟩]
def out0_3 (x0 : Vec F S512x1024 .f32) (x1 : Vec F S1024x3072 .bf16) : Vec F S16x1x512x64 .bf16 :=
  View.canon [⟨rO0, k0_pay3 (View.ld x0 rX0) (View.ld x1 rW0)⟩]
def out0_4 (x0 : Vec F S512x1024 .f32) (x1 : Vec F S1024x3072 .bf16) : Vec F S16x1x512x64 .bf16 :=
  View.canon [⟨rO0, k0_pay4 (View.ld x0 rX0) (View.ld x1 rW0)⟩]

/-- The one store covers the block. -/
theorem cover0 (p0 : Vec F S16x1x512x64 .bf16) (y : S16x1x512x64.Idx) :
    ∃ pc ∈ ([⟨rO0, p0⟩] : List (View.Piece (Elt F) S16x1x512x64 .bf16)), y ∈ pc.1.set :=
  View.cover_of_tiled [⟨rO0, p0⟩] S16x1x512x64.size (by rfl) y

/-! ## The body's triple -/

set_option maxHeartbeats 2000000 in
/-- On whole staging memrefs, the inputs' at contents `x0`, `x1` and the outputs' at anything, the body runs to the
    continuation holding the inputs' as they were and each output's at its function of the inputs'. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S16x1x512x64 .bf16) (harg3 : arg3.IsWhole)
    (arg4 : Memref sig .tc .vmem S16x1x512x64 .bf16) (harg4 : arg4.IsWhole) (arg5 : Memref sig .tc .vmem S16x1x512x64 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the first pipeline on core `c`: the arrays as the region finds them; after the body at point
    `t` each input's buffer at its block and each output's at its function of the input blocks; the invariant the
    scoped buffers no window stages and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB.R1Runs.lean ====
/-
  The attention kernel (the second pallas_call): what its runs share. Its grid is 64 (head, batch) pairs by 4 query
  tiles by 4 key tiles, the key axis innermost. For one query tile of 512 rows the kernel keeps, in three scratch
  buffers carried across the key tiles, each row's running maximum [512, 1], running sum [512, 1] and running weighted
  sum [512, 64]: reset at key tile 0; updated at every key tile not wholly above the diagonal (ki ≤ qi); and at key tile
  3 the quotient of the two sums is stored into the output block — idle at every other key tile. The key and value
  windows' block index is min(ki, qi): above the diagonal they stay on the diagonal tile and are not fetched again.
-/
import proofs.«181309_j90692529422468_2_alg».proof.Proof.Gen.Kernel.Launch
import proofs.«181309_j90692529422468_2_alg».proof.Proof.Gen.Kernel.Skeleton
import proofs.«181309_j90692529422468_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, decided over the grid -/

/-- "Key tile 0": the running quantities are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The key tile is not wholly above the diagonal" (ki ≤ qi): the running quantities take the tile in. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
/-- "Key tile 3": the output block is stored. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The memrefs the body is called with -/

abbrev VO1_3 : View sig .tc .vmem S1x512x64 .bf16 := (Memref.whole cc1_stg3_0 : Memref sig .tc .vmem S1x512x64 .bf16).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum, running sum and running weighted sum: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view

/-! ## The scoped buffers no window stages: the three scratch buffers, and the others -/

def Others1 (c : Dev nD) : sProp 𝕄 :=
  bigSep (((Finset.univ.filter fun b : Ref sig .tc => b.isScoped) \ Finset.univ.image (Pipeline.stageRef spec1)) \ {cc1_scratch0, cc1_scratch1, cc1_scratch2})
    fun b => iprop(∃ f : Buf (Elt F) ((c.tc : Thread nD τ).loc b), ((c.tc : Thread nD τ).loc b) ↦{fullShare} f)

theorem scopedRest1_split (c : Dev nD) :
    (Pipeline.scopedRest (Ix := Unit) (Name := ℕ) (U := Pipeline.UD sig nD τ) (Lvl := ℕ) (Val := Elt F) spec1 c : sProp 𝕄)
      = iprop(((∃ d, owns (c : Thread nD τ) scM1_0 fullShare d) ∗ (∃ d, owns (c : Thread nD τ) scM1_1 fullShare d) ∗ (∃ d, owns (c : Thread nD τ) scM1_2 fullShare d)) ∗ Others1 c) := by
  unfold Pipeline.scopedRest Others1
  rw [BI.bigSep_sdiff_split (t := {cc1_scratch0, cc1_scratch1, cc1_scratch2}) (by decide),
    BI.bigSep_eq_bigSepL_of_eq [cc1_scratch0, cc1_scratch1, cc1_scratch2] (by decide) (by decide)]
  simp only [scM1_0, scM1_1, scM1_2, owns_whole]
  rfl

end Cert.Kernel.Hand

end
-- ==== Proof.FrameB.R1A.lean ====
/-
  The attention kernel at key tile 0: the three running quantities, whatever they held, are reset and then take the tile in; the output block is untouched.
-/
import proofs.«181309_j90692529422468_2_alg».proof.Proof.FrameB.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 : Vec F S1x512x64 .bf16) (x1 : Vec F S1x512x64 .bf16) (x2 : Vec F S1x512x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.FrameB.R1B.lean ====
/-
  The attention kernel at a later key tile not above the diagonal, not the last: the running quantities take the tile in; the output block is untouched.
-/
import proofs.«181309_j90692529422468_2_alg».proof.Proof.FrameB.R1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.FrameB.R1C.lean ====
/-
  The attention kernel at the last key tile when it is on the diagonal: the running quantities take the tile in, and the output block is stored: the quotient of the two sums.
-/
import proofs.«181309_j90692529422468_2_alg».proof.Proof.FrameB.R1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.FrameB.R1D.lean ====
/-
  The attention kernel at a key tile wholly above the diagonal, not the last: nothing is read or stored.
-/
import proofs.«181309_j90692529422468_2_alg».proof.Proof.FrameB.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], [], [], fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.FrameB.R1E.lean ====
/-
  The attention kernel at the last key tile when it is wholly above the diagonal: the running quantities stay, and the output block is stored: the quotient of the two sums.
-/
import proofs.«181309_j90692529422468_2_alg».proof.Proof.FrameB.R1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 4000000 in
/-- The pieces the body's stores leave (output block, running maximum, running sum, running weighted sum), with the
    proof that the body runs in this case. -/
noncomputable def kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 : Vec F S1x512x64 .bf16) (x1 : Vec F S1x512x64 .bf16) (x2 : Vec F S1x512x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, [], [], [], fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.FrameB.R1.lean ====
/-
  The attention kernel at every point: what each of its five cases leaves in the three scratch buffers and in the output
  block, those contents point by point, the pipeline's proof data — whose invariant carries the running maximum, sum and
  weighted sum from each point to the next — and the body obligation.
-/
import proofs.«181309_j90692529422468_2_alg».proof.Proof.FrameB.R1E
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

theorem scover1_A_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y
def sout1_A_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)
theorem scover1_A_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y
def sout1_A_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)
theorem scover1_A_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) (y : S512x64.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x64.size (by sl_kernel_rfl) y
def sout1_A_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) : Vec F S512x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)
theorem scover1_B_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y
def sout1_B_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)
theorem scover1_B_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y
def sout1_B_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)
theorem scover1_B_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x64.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x64.size (by sl_kernel_rfl) y
def sout1_B_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)
theorem scover1_C_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S512x1.size (by sl_kernel_rfl) y
def sout1_C_0 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)
theorem scover1_C_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S512x1.size (by sl_kernel_rfl) y
def sout1_C_1 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)
theorem scover1_C_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S512x64.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S512x64.size (by sl_kernel_rfl) y
def sout1_C_2 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)
theorem cover1_C_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S1x512x64.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x64.size (by sl_kernel_rfl) y
def out1_C_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S1x512x64 .bf16 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)
theorem cover1_E_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) (y : S1x512x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x64.size (by sl_kernel_rfl) y
def out1_E_3 (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) : Vec F S1x512x64 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## The output block and the scratch buffers after each point -/

/-- Where the output block is idle nothing consults its entry: a placeholder. -/
def idleOut1 : Vec F S1x512x64 .bf16 := VO1_3.read (Elt F) (VO1_3.writes (Elt F) VO1_3.junk [])

def stepA1 (c : Dev nD) (t : Fin cfg1.N) (h0 : t.val % 4 = 0) (h1 : t.val % 4 ≤ t.val / 4 % 4) (h2 : ¬t.val % 4 = 3) : Vec F S1x512x64 .bf16 × Vec F S512x1 .f32 × Vec F S512x1 .f32 × Vec F S512x64 .f32 :=
  (idleOut1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
def stepB1 (c : Dev nD) (t : Fin cfg1.N) (h0 : ¬t.val % 4 = 0) (h1 : t.val % 4 ≤ t.val / 4 % 4) (h2 : ¬t.val % 4 = 3) (xs : Vec F S512x1 .f32 × Vec F S512x1 .f32 × Vec F S512x64 .f32) : Vec F S1x512x64 .bf16 × Vec F S512x1 .f32 × Vec F S512x1 .f32 × Vec F S512x64 .f32 :=
  (idleOut1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2)
def stepC1 (c : Dev nD) (t : Fin cfg1.N) (h0 : ¬t.val % 4 = 0) (h1 : t.val % 4 ≤ t.val / 4 % 4) (h2 : t.val % 4 = 3) (xs : Vec F S512x1 .f32 × Vec F S512x1 .f32 × Vec F S512x64 .f32) : Vec F S1x512x64 .bf16 × Vec F S512x1 .f32 × Vec F S512x1 .f32 × Vec F S512x64 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2)
def stepD1 (c : Dev nD) (t : Fin cfg1.N) (h0 : ¬t.val % 4 = 0) (h1 : ¬t.val % 4 ≤ t.val / 4 % 4) (h2 : ¬t.val % 4 = 3) (xs : Vec F S512x1 .f32 × Vec F S512x1 .f32 × Vec F S512x64 .f32) : Vec F S1x512x64 .bf16 × Vec F S512x1 .f32 × Vec F S512x1 .f32 × Vec F S512x64 .f32 :=
  (idleOut1, xs.1, xs.2.1, xs.2.2)
def stepE1 (c : Dev nD) (t : Fin cfg1.N) (h0 : ¬t.val % 4 = 0) (h1 : ¬t.val % 4 ≤ t.val / 4 % 4) (h2 : t.val % 4 = 3) (xs : Vec F S512x1 .f32 × Vec F S512x1 .f32 × Vec F S512x64 .f32) : Vec F S1x512x64 .bf16 × Vec F S512x1 .f32 × Vec F S512x1 .f32 × Vec F S512x64 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) xs.1 xs.2.1 xs.2.2, xs.1, xs.2.1, xs.2.2)

/-- (output block, running maximum, running sum, running weighted sum) after point `n`, by recursion on the point:
    key tile 0 starts afresh; every other key tile continues from what the point before left in the scratch buffers. -/
def outsAt1 (c : Dev nD) : (n : ℕ) → n < cfg1.N → Vec F S1x512x64 .bf16 × Vec F S512x1 .f32 × Vec F S512x1 .f32 × Vec F S512x64 .f32
  | 0, hn => stepA1 V c ⟨0, hn⟩ rfl (by show (0 : ℕ) % 4 ≤ 0 / 4 % 4; decide) (by show ¬(0 : ℕ) % 4 = 3; decide)
  | n + 1, hn =>
    if h0 : (n + 1) % 4 = 0 then stepA1 V c ⟨n + 1, hn⟩ h0 (by show (n + 1) % 4 ≤ (n + 1) / 4 % 4; omega) (by show ¬(n + 1) % 4 = 3; omega)
    else if h1 : (n + 1) % 4 ≤ (n + 1) / 4 % 4 then
      (if h2 : (n + 1) % 4 = 3 then stepC1 V c ⟨n + 1, hn⟩ h0 h1 h2 (outsAt1 c n (Nat.lt_of_succ_lt hn)).2
       else stepB1 V c ⟨n + 1, hn⟩ h0 h1 h2 (outsAt1 c n (Nat.lt_of_succ_lt hn)).2)
    else
      (if h2 : (n + 1) % 4 = 3 then stepE1 V c ⟨n + 1, hn⟩ h0 h1 h2 (outsAt1 c n (Nat.lt_of_succ_lt hn)).2
       else stepD1 c ⟨n + 1, hn⟩ h0 h1 h2 (outsAt1 c n (Nat.lt_of_succ_lt hn)).2)

theorem outsAt1_A (c : Dev nD) (t : Fin cfg1.N) (h0 : t.val % 4 = 0) (h1 : t.val % 4 ≤ t.val / 4 % 4) (h2 : ¬t.val % 4 = 3) : outsAt1 V c t.val t.isLt = stepA1 V c t h0 h1 h2 := by
  obtain ⟨n, hn⟩ := t
  cases n with
  | zero => rfl
  | succ n => exact dif_pos h0
theorem outsAt1_B (c : Dev nD) (t : Fin cfg1.N) (h0 : ¬t.val % 4 = 0) (h1 : t.val % 4 ≤ t.val / 4 % 4) (h2 : ¬t.val % 4 = 3) :
    outsAt1 V c t.val t.isLt = stepB1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans (dif_neg h2))
theorem outsAt1_C (c : Dev nD) (t : Fin cfg1.N) (h0 : ¬t.val % 4 = 0) (h1 : t.val % 4 ≤ t.val / 4 % 4) (h2 : t.val % 4 = 3) :
    outsAt1 V c t.val t.isLt = stepC1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans (dif_pos h2))
theorem outsAt1_D (c : Dev nD) (t : Fin cfg1.N) (h0 : ¬t.val % 4 = 0) (h1 : ¬t.val % 4 ≤ t.val / 4 % 4) (h2 : ¬t.val % 4 = 3) :
    outsAt1 V c t.val t.isLt = stepD1 c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans (dif_neg h2))
theorem outsAt1_E (c : Dev nD) (t : Fin cfg1.N) (h0 : ¬t.val % 4 = 0) (h1 : ¬t.val % 4 ≤ t.val / 4 % 4) (h2 : t.val % 4 = 3) :
    outsAt1 V c t.val t.isLt = stepE1 V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans (dif_pos h2))

/-! ## The invariant: the three running quantities carried from point to point -/

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Others1 c) ∗ (∃ r, prngReg c r))

theorem PhiA1_eq (c : Dev nD) :
    (Pipeline.ΦA spec1 c : sProp 𝕄) = iprop(iprop(iprop((∃ d, owns (c : Thread nD τ) scM1_0 fullShare d) ∗ (∃ d, owns (c : Thread nD τ) scM1_1 fullShare d) ∗ (∃ d, owns (c : Thread nD τ) scM1_2 fullShare d)) ∗ Others1 c) ∗ (∃ r, prngReg c r)) := by
  unfold Pipeline.ΦA; rw [scopedRest1_split]
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Others1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Others1 c) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the point's key and query tiles say which case it is
    in; the invariant hands the body the three running quantities at what the point before left (at anything at the
    very first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold stepA1 sout1_A_0 sout1_A_1 sout1_A_2; (try dsimp only)
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS1_castSucc V c t, PhiS1_pos V c _ _ hz]
    by_cases h1 : t.val % 4 ≤ t.val / 4 % 4
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_C V c t h0 h1 h2]
        unfold stepC1 out1_C_3 sout1_C_0 sout1_C_1 sout1_C_2; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _)
      · skip
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold stepB1 sout1_B_0 sout1_B_1 sout1_B_2; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stepE1 out1_E_3; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · skip
        rw [Dat.leavesExact_idle (dat1 V c) 3 t (idleAt1_3 t (fun h => h2 ((hcond1_2 t).mp h))) (noFlush1_3 t (fun h => h2 ((hcond1_2 t).mp h)))]
        rw [outsAt1_D V c t h0 h1 h2]
        unfold stepD1; (try dsimp only)
        iintro ⟨⟨⟨⟨HS0, HS1, HS2⟩, HR⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameB.R2Runs.lean ====
/-
  The output-projection kernel (the third pallas_call): what its runs share. Its grid is 16 row tiles by 16 heads; the
  head axis is innermost. A point adds the product of one head's attention tile [512, 64] with that head's weight slice
  [64, 1024] into an accumulator [512, 1024] kept in scratch across the heads of a row tile: cleared at head 0, and at
  head 15 stored, with the bias added, into the output block — which is idle (neither stored nor written back) at
  every other head.
-/
import proofs.«181309_j90692529422468_2_alg».proof.Proof.Gen.Kernel.Launch
import proofs.«181309_j90692529422468_2_alg».proof.Proof.Gen.Kernel.Skeleton
import proofs.«181309_j90692529422468_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is head 0": the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "This is head 15": the output block is stored. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S512x1024 .f32 := (Memref.whole cc2_stg3_0 : Memref sig .tc .vmem S512x1024 .f32).view
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S512x1024 .f32 := Memref.whole cc2_scratch0
abbrev VS2_0 : View sig .tc .vmem S512x1024 .f32 := scM2_0.view

/-! ## The scoped buffers no window stages: the accumulator, and the others -/

/-- The scoped buffers that are neither a staging buffer of this pipeline nor its accumulator, each at some contents. -/
def Others2 (c : Dev nD) : sProp 𝕄 :=
  bigSep (((Finset.univ.filter fun b : Ref sig .tc => b.isScoped) \ Finset.univ.image (Pipeline.stageRef spec2)) \ {cc2_scratch0})
    fun b => iprop(∃ f : Buf (Elt F) ((c.tc : Thread nD τ).loc b), ((c.tc : Thread nD τ).loc b) ↦{fullShare} f)

theorem scopedRest2_split (c : Dev nD) :
    (Pipeline.scopedRest (Ix := Unit) (Name := ℕ) (U := Pipeline.UD sig nD τ) (Lvl := ℕ) (Val := Elt F) spec2 c : sProp 𝕄)
      = iprop((∃ d, owns (c : Thread nD τ) scM2_0 fullShare d) ∗ Others2 c) := by
  unfold Pipeline.scopedRest Others2
  rw [BI.bigSep_sdiff_split (t := {cc2_scratch0}) (by decide), BI.bigSep_singleton]
  simp only [scM2_0, owns_whole]
  rfl

end Cert.Kernel.Hand

end
-- ==== Proof.FrameB.R2A.lean ====
/-
  The output-projection kernel at head 0 (not the last head): the accumulator, whatever it held, is cleared and then
  holds this head's product; the output block is untouched.
-/
import proofs.«181309_j90692529422468_2_alg».proof.Proof.FrameB.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
/-- The pieces the body's stores leave in the accumulator at head 0, with the proof that the body runs: inputs as
    they were, the output block handed back as found, the accumulator with those pieces written. -/
noncomputable def kernelRun2_A (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameB.R2B.lean ====
/-
  The output-projection kernel at a middle head (neither 0 nor 15): the accumulator, holding what the head before left,
  gains this head's product; the output block is untouched.
-/
import proofs.«181309_j90692529422468_2_alg».proof.Proof.FrameB.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
noncomputable def kernelRun2_B (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameB.R2C.lean ====
/-
  The output-projection kernel at head 15: the accumulator gains the last head's product, and the output block is stored
  whole: the accumulator plus the bias row.
-/
import proofs.«181309_j90692529422468_2_alg».proof.Proof.FrameB.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 2000000 in
noncomputable def kernelRun2_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__out_proj_kernel i arg2 harg2 arg3 harg3 arg4 harg4 arg5 harg5 arg6 harg6) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrameB.R2.lean ====
/-
  The output-projection kernel at every point: what each of its three cases leaves in the accumulator and in the output
  block, the accumulator's contents point by point (cleared at head 0, one head's product added per point), the
  pipeline's proof data — whose invariant carries the accumulator at those contents from each point to the next —
  and the body obligation.
-/
import proofs.«181309_j90692529422468_2_alg».proof.Proof.FrameB.R2A
import proofs.«181309_j90692529422468_2_alg».proof.Proof.FrameB.R2B
import proofs.«181309_j90692529422468_2_alg».proof.Proof.FrameB.R2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

theorem scover2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1x1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y
def sout2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1x1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

theorem scover2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1x1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y
def sout2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

theorem scover2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y
def sout2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)
theorem cover2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y
def out2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Where the output block is idle nothing consults its entry: a placeholder. -/
def idleOut2 : Vec F S512x1024 .f32 := VO2_3.read (Elt F) (VO2_3.writes (Elt F) VO2_3.junk [])

/-! ## The output block and the accumulator after each point -/

def stepA2 (c : Dev nD) (t : Fin cfg2.N) (h0 : t.val % 16 = 0) (h1 : ¬t.val % 16 = 15) : Vec F S512x1024 .f32 × Vec F S512x1024 .f32 :=
  (idleOut2, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))
def stepB2 (c : Dev nD) (t : Fin cfg2.N) (h0 : ¬t.val % 16 = 0) (h1 : ¬t.val % 16 = 15) (xs : Vec F S512x1024 .f32) : Vec F S512x1024 .f32 × Vec F S512x1024 .f32 :=
  (idleOut2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)
def stepC2 (c : Dev nD) (t : Fin cfg2.N) (h0 : ¬t.val % 16 = 0) (h1 : t.val % 16 = 15) (xs : Vec F S512x1024 .f32) : Vec F S512x1024 .f32 × Vec F S512x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- (output block, accumulator) after point `n`, by recursion on the point: head 0 starts afresh, every other head
    continues from what the point before left in the accumulator. -/
def outsAt2 (c : Dev nD) : (n : ℕ) → n < cfg2.N → Vec F S512x1024 .f32 × Vec F S512x1024 .f32
  | 0, hn => stepA2 V c ⟨0, hn⟩ rfl (by show ¬(0 : ℕ) % 16 = 15; decide)
  | n + 1, hn =>
    if h0 : (n + 1) % 16 = 0 then stepA2 V c ⟨n + 1, hn⟩ h0 (by show ¬(n + 1) % 16 = 15; omega)
    else if h1 : (n + 1) % 16 = 15 then stepC2 V c ⟨n + 1, hn⟩ h0 h1 (outsAt2 c n (Nat.lt_of_succ_lt hn)).2
    else stepB2 V c ⟨n + 1, hn⟩ h0 h1 (outsAt2 c n (Nat.lt_of_succ_lt hn)).2

theorem outsAt2_A (c : Dev nD) (t : Fin cfg2.N) (h0 : t.val % 16 = 0) (h1 : ¬t.val % 16 = 15) :
    outsAt2 V c t.val t.isLt = stepA2 V c t h0 h1 := by
  obtain ⟨n, hn⟩ := t
  cases n with
  | zero => rfl
  | succ n => exact dif_pos h0
theorem outsAt2_B (c : Dev nD) (t : Fin cfg2.N) (h0 : ¬t.val % 16 = 0) (h1 : ¬t.val % 16 = 15) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt2_C (c : Dev nD) (t : Fin cfg2.N) (h0 : ¬t.val % 16 = 0) (h1 : t.val % 16 = 15) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant: the accumulator carried from point to point -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Others2 c) ∗ (∃ r, prngReg c r))

theorem PhiA2_eq (c : Dev nD) :
    (Pipeline.ΦA spec2 c : sProp 𝕄) = iprop(iprop((∃ d, owns (c : Thread nD τ) scM2_0 fullShare d) ∗ Others2 c) ∗ (∃ r, prngReg c r)) := by
  unfold Pipeline.ΦA; rw [scopedRest2_split]
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Others2 c) ∗ (∃ r, prngReg c r)) := by
  cases n with
  | zero => exact absurd rfl hz
  | succ n => rfl

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the point's head says which case it is in; the
    invariant hands the body the accumulator at what the point before left (at anything at the very first point)
    and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold stepA2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold stepC2 out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold stepB2 sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameB.Chain.lean ====
/-
  The whole program: the contents of the unscoped buffers at each of the seven boundaries between @main's six items
  (host operations, the projection kernel, three reshapes, the attention kernel, the output-projection kernel, a last
  reshape) as a fold from the launch memory; each kernel region as a segment between two boundaries; and the run: every
  weakly fair execution terminates with every unscoped buffer at the last boundary's contents.
-/
import proofs.«181309_j90692529422468_2_alg».proof.Proof.Gen.Kernel.Launch
import proofs.«181309_j90692529422468_2_alg».proof.Proof.Gen.Kernel.Skeleton
import proofs.«181309_j90692529422468_2_alg».proof.Proof.Gen.Kernel.Points
import proofs.«181309_j90692529422468_2_alg».proof.Proof.Gen.Kernel.Regions
import proofs.«181309_j90692529422468_2_alg».proof.Proof.FrameB.R0
import proofs.«181309_j90692529422468_2_alg».proof.Proof.FrameB.R1
import proofs.«181309_j90692529422468_2_alg».proof.Proof.FrameB.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariants at the last point give the scoped buffers back -/

theorem Phi1_any (V : (c : Dev nD) → (b : Ref sig .tc) → Buf (Elt F) ((c : Thread nD τ).loc b)) (c : Dev nD) (t : Fin (cfg1.N + 1)) :
    (dat1 V c).Φ t ⊢ (iprop((∃ r, prngReg c r) ∗ Pipeline.scopedRest (Ix := Unit) (Name := ℕ) (U := Pipeline.UD sig nD τ) (Lvl := ℕ) (Val := Elt F) spec1 c) : sProp 𝕄) := by
  rw [show (dat1 V c).Φ t = PhiS1 V c t.val (Nat.le_of_lt_succ t.isLt) from by dsimp only [dat1]]
  by_cases hz : t.val = 0
  · rw [PhiS1_zero V c _ _ hz]; unfold Pipeline.ΦA
    iintro ⟨Hp, Hr⟩
    isplitl [Hr]; · iexact Hr
    iexact Hp
  · rw [PhiS1_pos V c _ _ hz, scopedRest1_split]
    iintro ⟨⟨⟨HS0, HS1, HS2⟩, HR⟩, Hg⟩
    isplitl [Hg]; · iexact Hg
    isplitl [HS0 HS1 HS2]
    · isplitl [HS0]; · iexists _; iexact HS0
      isplitl [HS1]; · iexists _; iexact HS1
      iexists _; iexact HS2
    iexact HR
theorem Phi2_any (V : (c : Dev nD) → (b : Ref sig .tc) → Buf (Elt F) ((c : Thread nD τ).loc b)) (c : Dev nD) (t : Fin (cfg2.N + 1)) :
    (dat2 V c).Φ t ⊢ (iprop((∃ r, prngReg c r) ∗ Pipeline.scopedRest (Ix := Unit) (Name := ℕ) (U := Pipeline.UD sig nD τ) (Lvl := ℕ) (Val := Elt F) spec2 c) : sProp 𝕄) := by
  rw [show (dat2 V c).Φ t = PhiS2 V c t.val (Nat.le_of_lt_succ t.isLt) from by dsimp only [dat2]]
  by_cases hz : t.val = 0
  · rw [PhiS2_zero V c _ _ hz]; unfold Pipeline.ΦA
    iintro ⟨Hp, Hr⟩
    isplitl [Hr]; · iexact Hr
    iexact Hp
  · rw [PhiS2_pos V c _ _ hz, scopedRest2_split]
    iintro ⟨⟨HS0, HR⟩, Hg⟩
    isplitl [Hg]; · iexact Hg
    isplitl [HS0]; · iexists _; iexact HS0
    iexact HR

/-! ## The buffer contents at each boundary: a fold through @main -/

/-- At launch. -/
abbrev W0b : Dev nD → Valuation τ sig (Elt F) := fun c b => (s₀ m ρ).mem ((c : Dev nD), b)
/-- After the first host stretch (the projection kernel's entry). -/
abbrev W1b (c : Dev nD) : Valuation τ sig (Elt F) := StableHlo.after hostOps0 (W0b m ρ c)
abbrev V1b : (c : Dev nD) → (b : Ref sig .tc) → Buf (Elt F) ((c : Thread nD τ).loc b) := fun c b => W1b m ρ c b

/-- After region 0: its arrays at what the pipeline leaves, every other buffer as entered. -/
def W2b (c : Dev nD) : Valuation τ sig (Elt F) :=
  Pipeline.withArrays spec0 c (W1b m ρ c) fun w => (dat0 (V1b m ρ) c).arrAt w cfg0.N
theorem W2b_arr (c : Dev nD) (w : Fin cfg0.W) :
    W2b m ρ c (Proc.devRef .tc (Pipeline.arrRef spec0 w)) = (dat0 (V1b m ρ) c).arrAt w cfg0.N := by
  unfold W2b; exact Pipeline.withArrays_arr spec0 launch0.win.arr_inj c _ _ w
theorem W2b_of_ne (c : Dev nD) (b : Ref sig .tc) (hb : ∀ w, Pipeline.arrRef spec0 w ≠ b) :
    W2b m ρ c (Proc.devRef .tc b) = W1b m ρ c (Proc.devRef .tc b) := by
  unfold W2b; exact Pipeline.withArrays_of_ne spec0 c _ _ b hb
/-- After the three reshapes (the attention kernel's entry). -/
abbrev W3b (c : Dev nD) : Valuation τ sig (Elt F) := StableHlo.after hostOps1 (W2b m ρ c)
abbrev V3b : (c : Dev nD) → (b : Ref sig .tc) → Buf (Elt F) ((c : Thread nD τ).loc b) := fun c b => W3b m ρ c b

/-- After region 1: its arrays at what the pipeline leaves, every other buffer as entered. -/
def W4b (c : Dev nD) : Valuation τ sig (Elt F) :=
  Pipeline.withArrays spec1 c (W3b m ρ c) fun w => (dat1 (V3b m ρ) c).arrAt w cfg1.N
theorem W4b_arr (c : Dev nD) (w : Fin cfg1.W) :
    W4b m ρ c (Proc.devRef .tc (Pipeline.arrRef spec1 w)) = (dat1 (V3b m ρ) c).arrAt w cfg1.N := by
  unfold W4b; exact Pipeline.withArrays_arr spec1 launch1.win.arr_inj c _ _ w
theorem W4b_of_ne (c : Dev nD) (b : Ref sig .tc) (hb : ∀ w, Pipeline.arrRef spec1 w ≠ b) :
    W4b m ρ c (Proc.devRef .tc b) = W3b m ρ c (Proc.devRef .tc b) := by
  unfold W4b; exact Pipeline.withArrays_of_ne spec1 c _ _ b hb
abbrev V4b : (c : Dev nD) → (b : Ref sig .tc) → Buf (Elt F) ((c : Thread nD τ).loc b) := fun c b => W4b m ρ c b

/-- After region 2: its arrays at what the pipeline leaves, every other buffer as entered. -/
def W5b (c : Dev nD) : Valuation τ sig (Elt F) :=
  Pipeline.withArrays spec2 c (W4b m ρ c) fun w => (dat2 (V4b m ρ) c).arrAt w cfg2.N
theorem W5b_arr (c : Dev nD) (w : Fin cfg2.W) :
    W5b m ρ c (Proc.devRef .tc (Pipeline.arrRef spec2 w)) = (dat2 (V4b m ρ) c).arrAt w cfg2.N := by
  unfold W5b; exact Pipeline.withArrays_arr spec2 launch2.win.arr_inj c _ _ w
theorem W5b_of_ne (c : Dev nD) (b : Ref sig .tc) (hb : ∀ w, Pipeline.arrRef spec2 w ≠ b) :
    W5b m ρ c (Proc.devRef .tc b) = W4b m ρ c (Proc.devRef .tc b) := by
  unfold W5b; exact Pipeline.withArrays_of_ne spec2 c _ _ b hb
/-- After the last reshape: the end. -/
abbrev W6b (c : Dev nD) : Valuation τ sig (Elt F) := StableHlo.after hostOps3 (W5b m ρ c)

theorem hF0 (c : Dev nD) (w : Fin cfg0.W) : (dat0 (V1b m ρ) c).arrAt w cfg0.N = W2b m ρ c (Pipeline.arrRef spec0 w) := (W2b_arr m ρ c w).symm
theorem hrest0 (c : Dev nD) : ∀ b, b ∉ Finset.univ.image (Pipeline.arrRef spec0) → W2b m ρ c b = V1b m ρ c b :=
  fun b hb => W2b_of_ne m ρ c b fun w e => hb (Finset.mem_image.mpr ⟨w, Finset.mem_univ _, e⟩)
theorem hF1 (c : Dev nD) (w : Fin cfg1.W) : (dat1 (V3b m ρ) c).arrAt w cfg1.N = W4b m ρ c (Pipeline.arrRef spec1 w) := (W4b_arr m ρ c w).symm
theorem hrest1 (c : Dev nD) : ∀ b, b ∉ Finset.univ.image (Pipeline.arrRef spec1) → W4b m ρ c b = V3b m ρ c b :=
  fun b hb => W4b_of_ne m ρ c b fun w e => hb (Finset.mem_image.mpr ⟨w, Finset.mem_univ _, e⟩)
theorem hF2 (c : Dev nD) (w : Fin cfg2.W) : (dat2 (V4b m ρ) c).arrAt w cfg2.N = W5b m ρ c (Pipeline.arrRef spec2 w) := (W5b_arr m ρ c w).symm
theorem hrest2 (c : Dev nD) : ∀ b, b ∉ Finset.univ.image (Pipeline.arrRef spec2) → W5b m ρ c b = V4b m ρ c b :=
  fun b hb => W5b_of_ne m ρ c b fun w e => hb (Finset.mem_image.mpr ⟨w, Finset.mem_univ _, e⟩)

/-! ## The proof data family and the thread state -/

def pdats : (p : Fin 3) → (c : Dev nD) → Dat τ (Elt F) Unit ℕ (Pipeline.UD sig nD τ) ℕ (Pipeline.pin (pcfgs (F := F)) adm p) c
  | ⟨0, _⟩ => fun c => dat0 (V1b m ρ) c
  | ⟨1, _⟩ => fun c => dat1 (V3b m ρ) c
  | ⟨2, _⟩ => fun c => dat2 (V4b m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6b m ρ c) ∗ ∃ r, prngReg c r)

/-! ## The regions as segments -/

set_option backward.isDefEq.respectTransparency.types false in
/-- Region 0 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1b m ρ) c).loose
  hwaits := Pipeline.hwaits_of_owed_zero _ _ _ _ L lv 0 fun _ _ => rfl
  pre c := iprop(StableHlo.held (c : Thread nD τ) (Pipeline.ucRefs τ sig) (W1b m ρ c) ∗ R c)
  post c := iprop(StableHlo.held (c : Thread nD τ) (Pipeline.ucRefs τ sig) (W2b m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1b m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1b m ρ c) (fun b => W2b m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3b m ρ) c).loose
  hwaits := Pipeline.hwaits_of_owed_zero _ _ _ _ L lv 1 fun _ _ => rfl
  pre c := iprop(StableHlo.held (c : Thread nD τ) (Pipeline.ucRefs τ sig) (W3b m ρ c) ∗ R c)
  post c := iprop(StableHlo.held (c : Thread nD τ) (Pipeline.ucRefs τ sig) (W4b m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3b m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_any (V3b m ρ) c (Fin.last _)).trans ?_
    iintro ⟨Hr, Hp⟩
    isplitl [Hr]; · iexact Hr
    isplitr; · iempintro
    iexact Hp
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3b m ρ c) (fun b => W4b m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's: its arrays split out of the unscoped buffers and put back at what the pipeline leaves, the generator
    register and the scoped buffers no window stages into the pipeline's invariant and out; nothing owed; no semaphore
    of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4b m ρ) c).loose
  hwaits := Pipeline.hwaits_of_owed_zero _ _ _ _ L lv 2 fun _ _ => rfl
  pre c := iprop(StableHlo.held (c : Thread nD τ) (Pipeline.ucRefs τ sig) (W4b m ρ c) ∗ R c)
  post c := iprop(StableHlo.held (c : Thread nD τ) (Pipeline.ucRefs τ sig) (W5b m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4b m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4b m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_any (V4b m ρ) c (Fin.last _)).trans ?_
    iintro ⟨Hr, Hp⟩
    isplitl [Hr]; · iexact Hr
    isplitr; · iempintro
    iexact Hp
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4b m ρ c) (fun b => W5b m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0b m ρ)),
    .region (reg0 m ρ),
    .host (hseg hostOps1 hostOps1_sub hostOps1_fresh (W2b m ρ)),
    .region (reg1 m ρ),
    .region (reg2 m ρ),
    .host (hseg hostOps3 hostOps3_sub hostOps3_fresh (W5b m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6b m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0b m ρ c) ∗ R c)) (Tₙ := Tₙ m ρ)
    (hch := ⟨fun _ => .rfl, fun _ => .rfl, fun _ => .rfl, fun _ => .rfl, fun _ => .rfl, fun _ => .rfl, fun c => (show (iprop(StableHlo.held (c : Thread nD τ) (Pipeline.ucRefs τ sig) (W6b m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0b m ρ c)
        from Pipeline.unscopedBufs_held c (W0b m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6b m ρ c b)
    (hfin := fun c s' => by
      iintro ⟨⟨Hh, -⟩, HSI⟩
      unfold StableHlo.held
      imodintro
      iapply (pointsTo_read_all (Pipeline.ucRefs τ sig) (fun b => (((c : Thread nD τ)).1, b)) (W6b m ρ c) s')
      isplitl [Hh] <;> iassumption)
    (hQ := fun s h c => h c)

end Cert.Kernel.Hand

end
-- ==== Proof.FrameB.Args.lean ====
/-
  The arguments end as launched: no host operation writes one and no kernel region has one as a window's array, so the
  fold of boundary contents read at an argument walks back to the launch memory; with the run this is the frame claim.
-/
import proofs.«181309_j90692529422468_2_alg».proof.Proof.FrameB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W6b_main_arg0 (c : Dev nD) : W6b m ρ c (Proc.devRef .tc main_arg0) = m ((c : Thread nD τ).loc main_arg0) :=
  calc W6b m ρ c (Proc.devRef .tc main_arg0)
    _ = W5b m ρ c (Proc.devRef .tc main_arg0) := StableHlo.after_of_writes_sub hostOps3 _ hostOps3_writes (by decide)
    _ = W4b m ρ c (Proc.devRef .tc main_arg0) := W5b_of_ne m ρ c main_arg0 (by decide)
    _ = W3b m ρ c (Proc.devRef .tc main_arg0) := W4b_of_ne m ρ c main_arg0 (by decide)
    _ = W2b m ρ c (Proc.devRef .tc main_arg0) := StableHlo.after_of_writes_sub hostOps1 _ hostOps1_writes (by decide)
    _ = W1b m ρ c (Proc.devRef .tc main_arg0) := W2b_of_ne m ρ c main_arg0 (by decide)
    _ = W0b m ρ c (Proc.devRef .tc main_arg0) := StableHlo.after_of_writes_sub hostOps0 _ hostOps0_writes (by decide)
    _ = m ((c : Thread nD τ).loc main_arg0) := rfl
theorem W6b_main_arg1 (c : Dev nD) : W6b m ρ c (Proc.devRef .tc main_arg1) = m ((c : Thread nD τ).loc main_arg1) :=
  calc W6b m ρ c (Proc.devRef .tc main_arg1)
    _ = W5b m ρ c (Proc.devRef .tc main_arg1) := StableHlo.after_of_writes_sub hostOps3 _ hostOps3_writes (by decide)
    _ = W4b m ρ c (Proc.devRef .tc main_arg1) := W5b_of_ne m ρ c main_arg1 (by decide)
    _ = W3b m ρ c (Proc.devRef .tc main_arg1) := W4b_of_ne m ρ c main_arg1 (by decide)
    _ = W2b m ρ c (Proc.devRef .tc main_arg1) := StableHlo.after_of_writes_sub hostOps1 _ hostOps1_writes (by decide)
    _ = W1b m ρ c (Proc.devRef .tc main_arg1) := W2b_of_ne m ρ c main_arg1 (by decide)
    _ = W0b m ρ c (Proc.devRef .tc main_arg1) := StableHlo.after_of_writes_sub hostOps0 _ hostOps0_writes (by decide)
    _ = m ((c : Thread nD τ).loc main_arg1) := rfl
theorem W6b_main_arg2 (c : Dev nD) : W6b m ρ c (Proc.devRef .tc main_arg2) = m ((c : Thread nD τ).loc main_arg2) :=
  calc W6b m ρ c (Proc.devRef .tc main_arg2)
    _ = W5b m ρ c (Proc.devRef .tc main_arg2) := StableHlo.after_of_writes_sub hostOps3 _ hostOps3_writes (by decide)
    _ = W4b m ρ c (Proc.devRef .tc main_arg2) := W5b_of_ne m ρ c main_arg2 (by decide)
    _ = W3b m ρ c (Proc.devRef .tc main_arg2) := W4b_of_ne m ρ c main_arg2 (by decide)
    _ = W2b m ρ c (Proc.devRef .tc main_arg2) := StableHlo.after_of_writes_sub hostOps1 _ hostOps1_writes (by decide)
    _ = W1b m ρ c (Proc.devRef .tc main_arg2) := W2b_of_ne m ρ c main_arg2 (by decide)
    _ = W0b m ρ c (Proc.devRef .tc main_arg2) := StableHlo.after_of_writes_sub hostOps0 _ hostOps0_writes (by decide)
    _ = m ((c : Thread nD τ).loc main_arg2) := rfl
theorem W6b_main_arg3 (c : Dev nD) : W6b m ρ c (Proc.devRef .tc main_arg3) = m ((c : Thread nD τ).loc main_arg3) :=
  calc W6b m ρ c (Proc.devRef .tc main_arg3)
    _ = W5b m ρ c (Proc.devRef .tc main_arg3) := StableHlo.after_of_writes_sub hostOps3 _ hostOps3_writes (by decide)
    _ = W4b m ρ c (Proc.devRef .tc main_arg3) := W5b_of_ne m ρ c main_arg3 (by decide)
    _ = W3b m ρ c (Proc.devRef .tc main_arg3) := W4b_of_ne m ρ c main_arg3 (by decide)
    _ = W2b m ρ c (Proc.devRef .tc main_arg3) := StableHlo.after_of_writes_sub hostOps1 _ hostOps1_writes (by decide)
    _ = W1b m ρ c (Proc.devRef .tc main_arg3) := W2b_of_ne m ρ c main_arg3 (by decide)
    _ = W0b m ρ c (Proc.devRef .tc main_arg3) := StableHlo.after_of_writes_sub hostOps0 _ hostOps0_writes (by decide)
    _ = m ((c : Thread nD τ).loc main_arg3) := rfl

/-- THE FRAME: every weakly fair execution of @main terminates, nothing faulting, and every final memory holds each
    argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6b_main_arg0 m ρ c),
     (h c _ (mem_uc main_arg1 (by decide))).trans (W6b_main_arg1 m ρ c),
     (h c _ (mem_uc main_arg2 (by decide))).trans (W6b_main_arg2 m ρ c),
     (h c _ (mem_uc main_arg3 (by decide))).trans (W6b_main_arg3 m ρ c)⟩) (run_all m ρ)

end Cert.Kernel.Hand

end
-- ==== Proof.Plumb.lean ====
/-
  The contents of the program's buffers at the boundaries between its items, read at an index: the host operations
  before the first kernel (a transpose and a change of format of each weight, three reshapes), the three reshapes
  between the first two kernels, and the last reshape; the arrays a kernel leaves; and the buffers an item does not
  write, which keep what they held.
-/
import proofs.«181309_j90692529422468_2_alg».proof.Proof.FrameI.Chain
import Idealize.ShloMosaic.Lib.ValueIdx
import Idealize.ShloMosaic.Lib.Pipeline.Value
import Idealize.ShloMosaic.Lib.ValueLayout

noncomputable section

namespace Cert.KernelIdeal.Plumb

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The arrays, typed -/

/-- The four arguments as launched. -/
abbrev a0 : S4x2048x1024.Idx → EReal := m ((c : Thread nD τ).loc main_arg0)
abbrev a1 : S3072x1024.Idx → EReal := m ((c : Thread nD τ).loc main_arg1)
abbrev a2 : S1024x1024.Idx → EReal := m ((c : Thread nD τ).loc main_arg2)
abbrev a3 : S1024.Idx → EReal := m ((c : Thread nD τ).loc main_arg3)
/-- What the first kernel finds: the flattened input, the transposed first weight; and what the last kernel's other
    operands hold from then on: the transposed second weight by heads, the bias as one row. -/
abbrev xin : S8192x1024.Idx → EReal := W1b m ρ c main_v6
abbrev wqkv : S1024x3072.Idx → EReal := W1b m ρ c main_v1
abbrev wout : S16x64x1024.Idx → EReal := W1b m ρ c main_v4
abbrev bias : S1x1024.Idx → EReal := W1b m ρ c main_v5

/-! ## The host operations before the first kernel -/

theorem e_v6 : xin m ρ c = shapeCast S8192x1024 (a0 m c) shapeCasts_S4x2048x1024_S8192x1024 := by
  show StableHlo.after hostOps0 _ (Proc.devRef .tc main_v6) = _
  after_results <;> rfl
theorem e_v1 : wqkv m ρ c
    = truncf .bf16 (transpose S1024x3072 [1, 0] (a1 m c) transposes_S3072x1024_S1024x3072_1_0 : FVec Ideal S1024x3072 .f32)
        bitsLt_bf16_f32 := by
  show StableHlo.after hostOps0 _ (Proc.devRef .tc main_v1) = _
  after_results <;> rfl
theorem e_v4 : wout m ρ c
    = shapeCast S16x64x1024
        (truncf .bf16 (transpose S1024x1024 [1, 0] (a2 m c) transposes_S1024x1024_S1024x1024_1_0 : FVec Ideal S1024x1024 .f32)
          bitsLt_bf16_f32 : FVec Ideal S1024x1024 .bf16)
        shapeCasts_S1024x1024_S16x64x1024 := by
  show StableHlo.after hostOps0 _ (Proc.devRef .tc main_v4) = _
  after_results <;> rfl
theorem e_v5 : bias m ρ c = shapeCast S1x1024 (a3 m c) shapeCasts_S1024_S1x1024 := by
  show StableHlo.after hostOps0 _ (Proc.devRef .tc main_v5) = _
  after_results <;> rfl

/-- The flattened input at row 2048·b + n is the input at (b, n). -/
theorem xin_apply (b : Fin 4) (n : Fin 2048) (k : Fin 1024) :
    W1b m ρ c main_v6 (ix2 ⟨b.val * 2048 + n.val, by omega⟩ k) = m ((c : Thread nD τ).loc main_arg0) (ix3 b n k) := by
  show xin m ρ c _ = a0 m c _
  rw [e_v6]
  exact shapeCast_apply _ _ _ _ (by
    rw [Shape.rowMajor_val_three, Shape.rowMajor_val_two]
    show (b.val * 2048 + n.val) * 1024 + k.val = (b.val * 2048 + n.val) * 1024 + k.val
    rfl)

/-- The first weight as the kernel reads it is the argument transposed. -/
theorem wqkv_apply (k : Fin 1024) (o : Fin 3072) :
    W1b m ρ c main_v1 (ix2 k o) = m ((c : Thread nD τ).loc main_arg1) (ix2 o k) := by
  show wqkv m ρ c _ = a1 m c _
  rw [e_v1]
  exact transpose_ix2_apply (a1 m c) transposes_S3072x1024_S1024x3072_1_0 k o

/-- The second weight as the kernel reads it, at head h, feature d and output o, is the argument at (o, 64·h + d). -/
theorem wout_apply (h : Fin 16) (d : Fin 64) (o : Fin 1024) :
    W1b m ρ c main_v4 (ix3 h d o) = m ((c : Thread nD τ).loc main_arg2) (ix2 o ⟨h.val * 64 + d.val, by omega⟩) := by
  show wout m ρ c _ = a2 m c _
  rw [e_v4]
  refine (shapeCast_apply _ _ (ix3 h d o) (ix2 (⟨h.val * 64 + d.val, by omega⟩ : Fin 1024) o) (by
    rw [Shape.rowMajor_val_two, Shape.rowMajor_val_three]
    show (h.val * 64 + d.val) * 1024 + o.val = (h.val * 64 + d.val) * 1024 + o.val
    rfl)).trans ?_
  exact transpose_ix2_apply (a2 m c) transposes_S1024x1024_S1024x1024_1_0 _ o

/-- The bias row is the argument. -/
theorem bias_apply (o : Fin 1024) :
    W1b m ρ c main_v5 (ix2 (0 : Fin 1) o) = m ((c : Thread nD τ).loc main_arg3) (ix1 o) := by
  show bias m ρ c _ = a3 m c _
  rw [e_v5]
  exact shapeCast_apply _ _ (ix2 (0 : Fin 1) o) (ix1 o) (by
    rw [Shape.rowMajor_val_one, Shape.rowMajor_val_two]
    show o.val = 0 * 1024 + o.val
    omega)

/-! ## Between the first two kernels: the three outputs regrouped -/

/-- What the first kernel leaves in its three outputs. -/
abbrev q0 : S16x4x2048x64.Idx → EReal := (dat0 (F := Ideal) (V1b m ρ) c).arrAt 2 cfg0.N
abbrev k0 : S16x4x2048x64.Idx → EReal := (dat0 (F := Ideal) (V1b m ρ) c).arrAt 3 cfg0.N
abbrev v0 : S16x4x2048x64.Idx → EReal := (dat0 (F := Ideal) (V1b m ρ) c).arrAt 4 cfg0.N
/-- The second kernel's three operands. -/
abbrev q1 : S64x2048x64.Idx → EReal := W3b m ρ c main_v8
abbrev k1 : S64x2048x64.Idx → EReal := W3b m ρ c main_v9
abbrev v1 : S64x2048x64.Idx → EReal := W3b m ρ c main_v10

theorem e_v8 : q1 m ρ c = shapeCast S64x2048x64 (q0 m ρ c) shapeCasts_S16x4x2048x64_S64x2048x64 := by
  have e : (W2b m ρ c main_v7_0 : S16x4x2048x64.Idx → EReal) = q0 m ρ c := W2b_arr m ρ c 2
  rw [← e]
  show StableHlo.after hostOps1 _ (Proc.devRef .tc main_v8) = _
  after_results <;> rfl
theorem e_v9 : k1 m ρ c = shapeCast S64x2048x64 (k0 m ρ c) shapeCasts_S16x4x2048x64_S64x2048x64 := by
  have e : (W2b m ρ c main_v7_1 : S16x4x2048x64.Idx → EReal) = k0 m ρ c := W2b_arr m ρ c 3
  rw [← e]
  show StableHlo.after hostOps1 _ (Proc.devRef .tc main_v9) = _
  after_results <;> rfl
theorem e_v10 : v1 m ρ c = shapeCast S64x2048x64 (v0 m ρ c) shapeCasts_S16x4x2048x64_S64x2048x64 := by
  have e : (W2b m ρ c main_v7_2 : S16x4x2048x64.Idx → EReal) = v0 m ρ c := W2b_arr m ρ c 4
  rw [← e]
  show StableHlo.after hostOps1 _ (Proc.devRef .tc main_v10) = _
  after_results <;> rfl

/-- A [16, 4, 2048, 64] array regrouped [64, 2048, 64] reads, at (4·h + b, n, e), the array at (h, b, n, e). -/
theorem regroup_apply (X : S16x4x2048x64.Idx → EReal) (hc : S16x4x2048x64.ShapeCasts S64x2048x64)
    (h : Fin 16) (b : Fin 4) (n : Fin 2048) (e : Fin 64) :
    shapeCast S64x2048x64 X hc (ix3 ⟨h.val * 4 + b.val, by omega⟩ n e) = X (ix4 h b n e) :=
  shapeCast_apply _ _ _ _ (by
    rw [Shape.rowMajor_val_four, Shape.rowMajor_val_three]
    show ((h.val * 4 + b.val) * 2048 + n.val) * 64 + e.val = ((h.val * 4 + b.val) * 2048 + n.val) * 64 + e.val
    rfl)

theorem q1_apply (h : Fin 16) (b : Fin 4) (n : Fin 2048) (e : Fin 64) :
    W3b m ρ c main_v8 (ix3 ⟨h.val * 4 + b.val, by omega⟩ n e)
      = (dat0 (F := Ideal) (V1b m ρ) c).arrAt 2 cfg0.N (ix4 h b n e) := by
  show q1 m ρ c _ = q0 m ρ c _
  rw [e_v8]
  exact regroup_apply _ _ h b n e
theorem k1_apply (h : Fin 16) (b : Fin 4) (n : Fin 2048) (e : Fin 64) :
    W3b m ρ c main_v9 (ix3 ⟨h.val * 4 + b.val, by omega⟩ n e)
      = (dat0 (F := Ideal) (V1b m ρ) c).arrAt 3 cfg0.N (ix4 h b n e) := by
  show k1 m ρ c _ = k0 m ρ c _
  rw [e_v9]
  exact regroup_apply _ _ h b n e
theorem v1_apply (h : Fin 16) (b : Fin 4) (n : Fin 2048) (e : Fin 64) :
    W3b m ρ c main_v10 (ix3 ⟨h.val * 4 + b.val, by omega⟩ n e)
      = (dat0 (F := Ideal) (V1b m ρ) c).arrAt 4 cfg0.N (ix4 h b n e) := by
  show v1 m ρ c _ = v0 m ρ c _
  rw [e_v10]
  exact regroup_apply _ _ h b n e

/-! ## After the second kernel -/

/-- The last kernel's first operand is what the second kernel leaves. -/
theorem attn_eq : W4b m ρ c main_v11 = (dat1 (F := Ideal) (V3b m ρ) c).arrAt 3 cfg1.N := W4b_arr m ρ c 3

/-- Its other two operands are still what the first host operations wrote. -/
theorem wout_kept : W4b m ρ c main_v4 = W1b m ρ c main_v4 :=
  (W4b_of_ne m ρ c main_v4 (by decide)).trans
    ((StableHlo.after_of_writes_sub hostOps1 _ hostOps1_writes (by decide)).trans (W2b_of_ne m ρ c main_v4 (by decide)))
theorem bias_kept : W4b m ρ c main_v5 = W1b m ρ c main_v5 :=
  (W4b_of_ne m ρ c main_v5 (by decide)).trans
    ((StableHlo.after_of_writes_sub hostOps1 _ hostOps1_writes (by decide)).trans (W2b_of_ne m ρ c main_v5 (by decide)))

/-! ## The result -/

/-- What the last kernel leaves in its output. -/
abbrev y2 : S8192x1024.Idx → EReal := (dat2 (F := Ideal) (V4b m ρ) c).arrAt 3 cfg2.N
/-- The program's result. -/
abbrev res : S4x2048x1024.Idx → EReal := W6b m ρ c main_v13

theorem e_v13 : res m ρ c = shapeCast S4x2048x1024 (y2 m ρ c) shapeCasts_S8192x1024_S4x2048x1024 := by
  have e : (W5b m ρ c main_v12 : S8192x1024.Idx → EReal) = y2 m ρ c := W5b_arr m ρ c 3
  rw [← e]
  show StableHlo.after hostOps3 _ (Proc.devRef .tc main_v13) = _
  after_results <;> rfl

/-- The result at (b, n, o) is the last kernel's output at row 2048·b + n. -/
theorem res_apply (b : Fin 4) (n : Fin 2048) (o : Fin 1024) :
    W6b m ρ c main_v13 (ix3 b n o)
      = (dat2 (F := Ideal) (V4b m ρ) c).arrAt 3 cfg2.N (ix2 ⟨b.val * 2048 + n.val, by omega⟩ o) := by
  show res m ρ c _ = y2 m ρ c _
  rw [e_v13]
  exact shapeCast_apply _ _ _ _ (by
    rw [Shape.rowMajor_val_two, Shape.rowMajor_val_three]
    show (b.val * 2048 + n.val) * 1024 + o.val = (b.val * 2048 + n.val) * 1024 + o.val
    rfl)

/-! ## The arguments end as launched -/

/-- A buffer no host operation writes and no kernel has as a window's array holds at the end what it held at launch. -/
theorem kept_of (r : Ref sig .tc) (h0 : r ∉ hostOps0_W) (h1 : r ∉ hostOps1_W) (h3 : r ∉ hostOps3_W)
    (hr0 : ∀ w, Pipeline.arrRef spec0 w ≠ r) (hr1 : ∀ w, Pipeline.arrRef spec1 w ≠ r) (hr2 : ∀ w, Pipeline.arrRef spec2 w ≠ r) :
    W6b m ρ c (Proc.devRef .tc r) = W0b m ρ c (Proc.devRef .tc r) :=
  (StableHlo.after_of_writes_sub hostOps3 _ hostOps3_writes h3).trans <|
    (W5b_of_ne m ρ c r hr2).trans <| (W4b_of_ne m ρ c r hr1).trans <|
      (StableHlo.after_of_writes_sub hostOps1 _ hostOps1_writes h1).trans <|
        (W2b_of_ne m ρ c r hr0).trans (StableHlo.after_of_writes_sub hostOps0 _ hostOps0_writes h0)

theorem arg0_kept : W6b m ρ c main_arg0 = m ((c : Thread nD τ).loc main_arg0) :=
  (kept_of m ρ c main_arg0 (by decide) (by decide) (by decide) (by decide) (by decide) (by decide)).trans rfl
theorem arg1_kept : W6b m ρ c main_arg1 = m ((c : Thread nD τ).loc main_arg1) :=
  (kept_of m ρ c main_arg1 (by decide) (by decide) (by decide) (by decide) (by decide) (by decide)).trans rfl
theorem arg2_kept : W6b m ρ c main_arg2 = m ((c : Thread nD τ).loc main_arg2) :=
  (kept_of m ρ c main_arg2 (by decide) (by decide) (by decide) (by decide) (by decide) (by decide)).trans rfl
theorem arg3_kept : W6b m ρ c main_arg3 = m ((c : Thread nD τ).loc main_arg3) :=
  (kept_of m ρ c main_arg3 (by decide) (by decide) (by decide) (by decide) (by decide) (by decide)).trans rfl

/-! ## The kernels' entry contents are the boundaries' -/

theorem V1b_eq (b : Ref sig .tc) : V1b m ρ c b = W1b m ρ c b := rfl
theorem V3b_eq (b : Ref sig .tc) : V3b m ρ c b = W3b m ρ c b := rfl
theorem V4b_eq (b : Ref sig .tc) : V4b m ρ c b = W4b m ρ c b := rfl

end Cert.KernelIdeal.Plumb

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.PayProj.lean ====
/-
  The payloads of the two projection kernels, read at an index at the ideal instance.

  The first kernel multiplies a [512, 1024] block of rows by the whole [1024, 3072] weight matrix into a zero
  accumulator, views the [512, 3072] product as [512, 3, 16, 64] (row-major: column s·1024 + h·64 + d is (s, h, d)),
  and stores, for each s, the slice at s with its first and third axes exchanged: at (h, 0, r, d) the stored value is
  the product's entry at row r and column s·1024 + h·64 + d, that is Σ_c x (r, c) · w (c, s·1024 + h·64 + d).

  The last kernel clears an accumulator, adds to it one head's [512, 64] × [64, 1024] product at a time, and last adds
  the bias row.
-/
import proofs.«181309_j90692529422468_2_alg».proof.Proof.Gen.KernelIdeal.Skeleton
import proofs.«181309_j90692529422468_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.PayProj

open Idealize.ShloMosaic Idealize.ShloMosaic.ValueIdx Cert.KernelIdeal Cert.KernelIdeal.Gen

/-- The [512, 3072] product viewed [512, 3, 16, 64], at (r, s, h, d): the sum over the 1024 shared positions. -/
theorem pay1_apply (x : Vec Ideal S512x1024 .f32) (w : Vec Ideal S1024x3072 .bf16)
    (r : Fin 512) (s : Fin 3) (h : Fin 16) (d : Fin 64) :
    k0_pay1 (F := Ideal) x w (ix4 r s h d)
      = ∑ c : Fin 1024, x (ix2 r c) * w (ix2 c ⟨s.val * 1024 + h.val * 64 + d.val, by omega⟩) := by
  unfold k0_pay1
  refine (shapeCast_apply _ _ (ix4 r s h d) (ix2 r ⟨s.val * 1024 + h.val * 64 + d.val, by omega⟩)
    (by rw [Shape.rowMajor_val_two, Shape.rowMajor_val_four]
        show r.val * 3072 + (s.val * 1024 + h.val * 64 + d.val) = ((r.val * 3 + s.val) * 16 + h.val) * 64 + d.val
        omega)).trans ?_
  refine (Cert.Lib.matmul_zero_apply _ none _ _ r _).trans ?_
  refine Finset.sum_congr rfl fun c _ => ?_
  rw [shapeCast_self, shapeCast_self]
  rfl

/-- One stored slice read at (h, 0, r, d): the slice of a [512, 3, 16, 64] value at offset o on its second axis, its
    unit axis dropped, its first two axes exchanged and a unit axis put back after the first, is the value at
    (r, o, h, d). -/
theorem store_apply (P : S512x3x16x64.Idx → EReal) (o : Nat) (hs : S512x3x16x64.Slices ![0, o, 0, 0] S512x1x16x64)
    (hc1 : S512x1x16x64.ShapeCasts S512x16x64) (ht : S512x16x64.Transposes [1, 0, 2] S16x512x64)
    (hc2 : S16x512x64.ShapeCasts S16x1x512x64)
    (s : Fin 3) (hso : s.val = o) (r : Fin 512) (h : Fin 16) (d : Fin 64) :
    shapeCast S16x1x512x64 (transpose S16x512x64 [1, 0, 2] (shapeCast S512x16x64
      (extractStridedSlice S512x1x16x64 ![0, o, 0, 0] P hs) hc1) ht) hc2 (ix4 h (0 : Fin 1) r d)
      = P (ix4 r s h d) := by
  refine (shapeCast_apply _ _ (ix4 h (0 : Fin 1) r d) (ix3 h r d) (by
    rw [Shape.rowMajor_val_three, Shape.rowMajor_val_four]
    show (h.val * 512 + r.val) * 64 + d.val = ((h.val * 1 + 0) * 512 + r.val) * 64 + d.val
    omega)).trans ?_
  refine (transpose_apply _ _ _ (ix3 h r d) (ix3 r h d)
    (fun b => match b with | ⟨0, _⟩ => rfl | ⟨1, _⟩ => rfl | ⟨2, _⟩ => rfl)).trans ?_
  refine (shapeCast_apply _ _ (ix3 r h d) (ix4 r (0 : Fin 1) h d) (by
    rw [Shape.rowMajor_val_four, Shape.rowMajor_val_three]
    show ((r.val * 1 + 0) * 16 + h.val) * 64 + d.val = (r.val * 16 + h.val) * 64 + d.val
    omega)).trans ?_
  exact slice4_axis1_apply o P hs r (0 : Fin 1) h d s (by rw [hso]; rfl)

/-- The first stored array at (h, 0, r, d): Σ_c x (r, c) · w (c, 0·1024 + h·64 + d). -/
theorem pay2_apply (x : Vec Ideal S512x1024 .f32) (w : Vec Ideal S1024x3072 .bf16)
    (r : Fin 512) (h : Fin 16) (d : Fin 64) :
    k0_pay2 (F := Ideal) x w (ix4 h 0 r d)
      = ∑ c : Fin 1024, x (ix2 r c) * w (ix2 c ⟨0 * 1024 + h.val * 64 + d.val, by omega⟩) := by
  unfold k0_pay2
  exact (store_apply (k0_pay1 (F := Ideal) x w) 0 _ _ _ _ 0 rfl r h d).trans (pay1_apply x w r 0 h d)

/-- The second stored array at (h, 0, r, d): Σ_c x (r, c) · w (c, 1·1024 + h·64 + d). -/
theorem pay3_apply (x : Vec Ideal S512x1024 .f32) (w : Vec Ideal S1024x3072 .bf16)
    (r : Fin 512) (h : Fin 16) (d : Fin 64) :
    k0_pay3 (F := Ideal) x w (ix4 h 0 r d)
      = ∑ c : Fin 1024, x (ix2 r c) * w (ix2 c ⟨1 * 1024 + h.val * 64 + d.val, by omega⟩) := by
  unfold k0_pay3
  exact (store_apply (k0_pay1 (F := Ideal) x w) 1 _ _ _ _ 1 rfl r h d).trans (pay1_apply x w r 1 h d)

/-- The third stored array at (h, 0, r, d): Σ_c x (r, c) · w (c, 2·1024 + h·64 + d). -/
theorem pay4_apply (x : Vec Ideal S512x1024 .f32) (w : Vec Ideal S1024x3072 .bf16)
    (r : Fin 512) (h : Fin 16) (d : Fin 64) :
    k0_pay4 (F := Ideal) x w (ix4 h 0 r d)
      = ∑ c : Fin 1024, x (ix2 r c) * w (ix2 c ⟨2 * 1024 + h.val * 64 + d.val, by omega⟩) := by
  unfold k0_pay4
  exact (store_apply (k0_pay1 (F := Ideal) x w) 2 _ _ _ _ 2 rfl r h d).trans (pay1_apply x w r 2 h d)

/-- The cleared accumulator is zero everywhere. -/
theorem k2pay1_apply (r : Fin 512) (c : Fin 1024) : k2_pay1 (F := Ideal) (ix2 r c) = 0 := by
  unfold k2_pay1
  rw [shapeCast_self]
  exact Ideal.ofBits_zero_f32

/-- One accumulation step at (r, c): the accumulator plus Σ_d a (0, r, d) · w (0, d, c). -/
theorem k2pay2_apply (acc : Vec Ideal S512x1024 .f32) (a : Vec Ideal S1x512x64 .bf16) (w : Vec Ideal S1x64x1024 .bf16)
    (r : Fin 512) (c : Fin 1024) :
    k2_pay2 (F := Ideal) acc a w (ix2 r c) = acc (ix2 r c) + ∑ d : Fin 64, a (ix3 0 r d) * w (ix3 0 d c) := by
  unfold k2_pay2
  rw [shapeCast_self]
  refine congrArg (acc (ix2 r c) + ·) ?_
  refine (Cert.Lib.matmul_zero_apply _ none _ _ r c).trans ?_
  refine Finset.sum_congr rfl fun d _ => ?_
  rw [shapeCast_1ab_ab_apply, shapeCast_1ab_ab_apply]

/-- The last step at (r, c): the accumulator plus the bias row at c. -/
theorem k2pay3_apply (bias : Vec Ideal S1x1024 .f32) (acc : Vec Ideal S512x1024 .f32) (r : Fin 512) (c : Fin 1024) :
    k2_pay3 (F := Ideal) bias acc (ix2 r c) = acc (ix2 r c) + bias (ix2 0 c) := by
  unfold k2_pay3
  refine congrArg (acc (ix2 r c) + ·) ?_
  rw [broadcastTo_1b_ab_apply, shapeCast_self, shapeCast_self]

end Cert.PayProj

end
-- ==== Proof.Val0.lean ====
/-
  What the first kernel's pipeline leaves in its three output arrays, at the ideal instance, whatever the region finds
  in memory. Grid point i takes rows 512·i … 512·i + 511 of the flattened input [8192, 1024] and the whole weight
  [1024, 3072], and writes block (0, i / 4, i % 4, 0) of each output [16, 4, 2048, 64] in blocks [16, 1, 512, 64]; every
  output block is written back at every point and the sixteen blocks tile the array. So output s holds, at
  (h, b, n, d), the entry of the product at row 2048·b + n and column 1024·s + 64·h + d.
-/
import proofs.«181309_j90692529422468_2_alg».proof.Proof.FrameI.R0
import proofs.«181309_j90692529422468_2_alg».proof.Proof.PayProj

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The arrays' contents as one function of the two inputs -/

/-- Output `s` of the projection, index by index: at (h, b, n, d), Σ_k a (2048·b + n, k) · wt (k, 1024·s + 64·h + d). -/
def proj (a : S8192x1024.Idx → EReal) (wt : S1024x3072.Idx → EReal) (s : Fin 3) : S16x4x2048x64.Idx → EReal :=
  fun i => ∑ k : Fin 1024,
    a (ix2 (⟨(i 1).val * 2048 + (i 2).val, by
        have h1 : (i 1).val < 4 := (i 1).isLt
        have h2 : (i 2).val < 2048 := (i 2).isLt
        omega⟩ : Fin 8192) k)
      * wt (ix2 k (⟨s.val * 1024 + (i 0).val * 64 + (i 3).val, by
        have h0 : (i 0).val < 16 := (i 0).isLt
        have h3 : (i 3).val < 64 := (i 3).isLt
        omega⟩ : Fin 3072))

/-- ONE POINT, ONE ELEMENT. A stored block whose value at (h, 0, r, d) is Σ_c x0 (r, c) · x1 (c, 1024·s + 64·h + d),
    over input blocks that are rows 512·p … of `a` and all of `wt`, holds at `y` the function `proj` at the array index
    under `y` in block (0, p / 4, p % 4, 0). -/
theorem point_eq (s : Fin 3)
    (pay : Vec Ideal S512x1024 .f32 → Vec Ideal S1024x3072 .bf16 → Vec Ideal S16x1x512x64 .bf16)
    (hpay : ∀ (x : Vec Ideal S512x1024 .f32) (w : Vec Ideal S1024x3072 .bf16) (r : Fin 512) (h : Fin 16) (d : Fin 64),
      pay x w (ix4 h 0 r d)
        = ∑ c : Fin 1024, x (ix2 r c) * w (ix2 c ⟨s.val * 1024 + h.val * 64 + d.val, by omega⟩))
    (a : S8192x1024.Idx → EReal) (wt : S1024x3072.Idx → EReal)
    (x0 : Vec Ideal S512x1024 .f32) (x1 : Vec Ideal S1024x3072 .bf16) (p : Nat) (hp : p < 16)
    (hx0 : ∀ (r : Fin 512) (c : Fin 1024), x0 (ix2 r c) = a (ix2 ⟨p * 512 + r.val, by omega⟩ c))
    (hx1 : x1 = wt)
    (y : S16x1x512x64.Idx) (i : S16x4x2048x64.Idx)
    (hi0 : (i 0).val = (y 0).val) (hi1 : (i 1).val = p / 4) (hi2 : (i 2).val = p % 4 * 512 + (y 2).val)
    (hi3 : (i 3).val = (y 3).val) :
    pay x0 x1 y = proj a wt s i := by
  have hy0 : (y 0).val < 16 := (y 0).isLt
  have hy1 : (y 1).val < 1 := (y 1).isLt
  have hy2 : (y 2).val < 512 := (y 2).isLt
  have hy3 : (y 3).val < 64 := (y 3).isLt
  have e : y = ix4 (⟨(y 0).val, hy0⟩ : Fin 16) (0 : Fin 1) (⟨(y 2).val, hy2⟩ : Fin 512) (⟨(y 3).val, hy3⟩ : Fin 64) := by
    funext ax
    match ax with
    | ⟨0, _⟩ => rfl
    | ⟨1, _⟩ => exact Fin.ext (by show (y 1).val = 0; omega)
    | ⟨2, _⟩ => rfl
    | ⟨3, _⟩ => rfl
  rw [e, hpay]
  unfold proj
  refine Finset.sum_congr rfl fun k _ => ?_
  rw [hx0, hx1]
  congr 2
  · congr 1
    exact Fin.ext (by show p * 512 + (y 2).val = (i 1).val * 2048 + (i 2).val; omega)
  · congr 1
    exact Fin.ext (by show s.val * 1024 + (y 0).val * 64 + (y 3).val = s.val * 1024 + (i 0).val * 64 + (i 3).val; omega)

/-- `proj` at an index given by coordinates. -/
theorem proj_apply (a : S8192x1024.Idx → EReal) (wt : S1024x3072.Idx → EReal) (s : Fin 3)
    (h : Fin 16) (b : Fin 4) (n : Fin 2048) (d : Fin 64) :
    proj a wt s (ix4 h b n d)
      = ∑ k : Fin 1024, a (ix2 ⟨b.val * 2048 + n.val, by omega⟩ k) * wt (ix2 k ⟨s.val * 1024 + h.val * 64 + d.val, by omega⟩) :=
  rfl

/-! ## The printed index maps, decided over the grid -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Point t reads row block t of the first input and the whole second input. -/
theorem idx_in : ∀ t : Fin cfg0.N,
    win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Point t writes block (0, t / 4, t % 4, 0) of each output. -/
theorem idx_out2 : ∀ t : Fin cfg0.N,
    win0_2.index t (0 : Fin 4) = 0 ∧ win0_2.index t (1 : Fin 4) = t.val / 4
    ∧ win0_2.index t (2 : Fin 4) = t.val % 4 ∧ win0_2.index t (3 : Fin 4) = 0 :=
  (by decide +kernel : ∀ t : Fin grid0.N, _)
theorem idx_out3 : ∀ t : Fin cfg0.N,
    win0_3.index t (0 : Fin 4) = 0 ∧ win0_3.index t (1 : Fin 4) = t.val / 4
    ∧ win0_3.index t (2 : Fin 4) = t.val % 4 ∧ win0_3.index t (3 : Fin 4) = 0 :=
  (by decide +kernel : ∀ t : Fin grid0.N, _)
theorem idx_out4 : ∀ t : Fin cfg0.N,
    win0_4.index t (0 : Fin 4) = 0 ∧ win0_4.index t (1 : Fin 4) = t.val / 4
    ∧ win0_4.index t (2 : Fin 4) = t.val % 4 ∧ win0_4.index t (3 : Fin 4) = 0 :=
  (by decide +kernel : ∀ t : Fin grid0.N, _)

theorem t_lt (t : Fin cfg0.N) : t.val < 16 := by have h := t.isLt; have e : cfg0.N = 16 := N_0; omega

variable (V : (c : Dev nD) → (b : Ref sig .tc) → Buf (Elt Ideal) ((c : Thread nD τ).loc b))

/-! ## The input blocks at a point -/

/-- The first input's block at point t is rows 512·t … of the array. -/
theorem iblk_in0 (c : Dev nD) (t : Fin cfg0.N) (r : Fin 512) (k : Fin 1024) :
    iblk0 V c 0 t (ix2 r k) = V c main_v6 (ix2 ⟨t.val * 512 + r.val, by have := t_lt t; omega⟩ k) := by
  obtain ⟨e0, e1, -, -⟩ := idx_in t
  show V c main_v6 (((cfg0.win 0).blk t).view.emb (ix2 r k)) = _
  congr 1
  funext a
  apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The second input's block at every point is the whole array. -/
theorem iblk_in1 (c : Dev nD) (t : Fin cfg0.N) : iblk0 V c 1 t = V c main_v1 := by
  obtain ⟨-, -, e0, e1⟩ := idx_in t
  funext j
  show V c main_v1 (((cfg0.win 1).blk t).view.emb j) = V c main_v1 j
  congr 1
  funext a
  apply Fin.ext
  match a with
  | ⟨0, _⟩ => show win0_1.index t (0 : Fin 2) * 1024 + 1 * (j 0).val = (j 0).val; omega
  | ⟨1, _⟩ => show win0_1.index t (1 : Fin 2) * 3072 + 1 * (j 1).val = (j 1).val; omega

/-! ## Output window 2 -/

/-- WHAT POINT t WRITES BACK to output 0 is block t of `proj … 0` of the two input arrays as the region finds them. -/
theorem flushed2_eq (c : Dev nD) (t : Fin cfg0.N) :
    (dat0 (F := Ideal) V c).flushed 2 t
      = ((cfg0.win 2).blk t).view.read (Elt Ideal) (proj (V c main_v6) (V c main_v1) 0) := by
  show (cfg0.win 2).cut (grid0.coords t) ((dat0 V c).after 2 t) = _
  rw [after0_2]
  unfold out0_2
  rw [View.canon_unit_zero hz4]
  simp only [View.ld_unit_zero (S := S512x1024) hz2, View.ld_unit_zero (S := S1024x3072) hz2]
  obtain ⟨e0, e1, e2, e3⟩ := idx_out2 t
  have ht := t_lt t
  funext y
  show k0_pay2 (F := Ideal) (iblk0 V c 0 t) (iblk0 V c 1 t) y
    = proj (V c main_v6) (V c main_v1) 0 (((cfg0.win 2).blk t).view.emb y)
  refine point_eq 0 (k0_pay2 (F := Ideal)) Cert.PayProj.pay2_apply (V c main_v6) (V c main_v1)
    (iblk0 V c 0 t) (iblk0 V c 1 t) t.val ht (iblk_in0 V c t) (iblk_in1 V c t) y _ ?_ ?_ ?_ ?_
  · show win0_2.index t (0 : Fin 4) * 16 + 1 * (y 0).val = (y 0).val; omega
  · show win0_2.index t (1 : Fin 4) * 1 + 1 * (y 1).val = t.val / 4
    have hy1 : (y 1).val < 1 := (y 1).isLt
    omega
  · show win0_2.index t (2 : Fin 4) * 512 + 1 * (y 2).val = t.val % 4 * 512 + (y 2).val; omega
  · show win0_2.index t (3 : Fin 4) * 64 + 1 * (y 3).val = (y 3).val; omega

/-- An index of the array is in point t's block iff each coordinate is in the block's range on its axis. -/
theorem mem_blk2 (t : Fin cfg0.N) (i : S16x4x2048x64.Idx) :
    i ∈ ((cfg0.win 2).blk t).view.set
      ↔ ∀ a : Fin 4, win0_2.index t a * S16x1x512x64.size a ≤ (i a).val
          ∧ (i a).val < win0_2.index t a * S16x1x512x64.size a + S16x1x512x64.size a := by
  show i ∈ ((View.whole main_v7_0).slice (win0_2.rect t)).set ↔ _
  rw [View.set_slice_whole, Rect.mem_set_unit]
  exact Iff.rfl

/-- The sixteen blocks tile the array: (h, b, n, d) is in the block of point 4·b + n / 512. -/
theorem cover2 (i : S16x4x2048x64.Idx) :
    ∃ t : Fin cfg0.N, (cfg0.win 2).flush t = true ∧ i ∈ ((cfg0.win 2).blk t).view.set := by
  have h0 : (i 0).val < 16 := (i 0).isLt
  have h1 : (i 1).val < 4 := (i 1).isLt
  have h2 : (i 2).val < 2048 := (i 2).isLt
  have h3 : (i 3).val < 64 := (i 3).isLt
  have hN : cfg0.N = 16 := N_0
  let t : Fin cfg0.N := ⟨(i 1).val * 4 + (i 2).val / 512, by omega⟩
  have htv : t.val = (i 1).val * 4 + (i 2).val / 512 := rfl
  obtain ⟨e0, e1, e2, e3⟩ := idx_out2 t
  refine ⟨t, flush0_2 t, ?_⟩
  rw [mem_blk2]
  intro a
  match a with
  | ⟨0, _⟩ => show win0_2.index t (0 : Fin 4) * 16 ≤ (i 0).val ∧ (i 0).val < win0_2.index t (0 : Fin 4) * 16 + 16; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

/-- THE ARRAY after the pipeline: output 0 of the projection. -/
theorem array2 (c : Dev nD) :
    (dat0 (F := Ideal) V c).arrAt 2 cfg0.N = proj (V c main_v6) (V c main_v1) 0 :=
  (dat0 (F := Ideal) V c).arrAt_eq_of_cover 2 (proj (V c main_v6) (V c main_v1) 0)
    (fun t _ => flushed2_eq V c t) cover2

/-- … at (h, b, n, d): Σ_k x (2048·b + n, k) · w (k, 0·1024 + 64·h + d), where x and w are the flattened input and the
    transposed weight as the region finds them. -/
theorem final0_2 (c : Dev nD) (x : S8192x1024.Idx → EReal) (w : S1024x3072.Idx → EReal)
    (hx : x = V c main_v6) (hw : w = V c main_v1) (h : Fin 16) (b : Fin 4) (n : Fin 2048) (d : Fin 64) :
    (dat0 (F := Ideal) V c).arrAt 2 cfg0.N (ix4 h b n d)
      = ∑ k : Fin 1024, x (ix2 ⟨b.val * 2048 + n.val, by omega⟩ k) * w (ix2 k ⟨0 * 1024 + h.val * 64 + d.val, by omega⟩) := by
  subst hx hw
  exact (congrFun (array2 V c) (ix4 h b n d)).trans rfl

/-! ## Output window 3 -/

/-- WHAT POINT t WRITES BACK to output 1 is block t of `proj … 1` of the two input arrays as the region finds them. -/
theorem flushed3_eq (c : Dev nD) (t : Fin cfg0.N) :
    (dat0 (F := Ideal) V c).flushed 3 t
      = ((cfg0.win 3).blk t).view.read (Elt Ideal) (proj (V c main_v6) (V c main_v1) 1) := by
  show (cfg0.win 3).cut (grid0.coords t) ((dat0 V c).after 3 t) = _
  rw [after0_3]
  unfold out0_3
  rw [View.canon_unit_zero hz4]
  simp only [View.ld_unit_zero (S := S512x1024) hz2, View.ld_unit_zero (S := S1024x3072) hz2]
  obtain ⟨e0, e1, e2, e3⟩ := idx_out3 t
  have ht := t_lt t
  funext y
  show k0_pay3 (F := Ideal) (iblk0 V c 0 t) (iblk0 V c 1 t) y
    = proj (V c main_v6) (V c main_v1) 1 (((cfg0.win 3).blk t).view.emb y)
  refine point_eq 1 (k0_pay3 (F := Ideal)) Cert.PayProj.pay3_apply (V c main_v6) (V c main_v1)
    (iblk0 V c 0 t) (iblk0 V c 1 t) t.val ht (iblk_in0 V c t) (iblk_in1 V c t) y _ ?_ ?_ ?_ ?_
  · show win0_3.index t (0 : Fin 4) * 16 + 1 * (y 0).val = (y 0).val; omega
  · show win0_3.index t (1 : Fin 4) * 1 + 1 * (y 1).val = t.val / 4
    have hy1 : (y 1).val < 1 := (y 1).isLt
    omega
  · show win0_3.index t (2 : Fin 4) * 512 + 1 * (y 2).val = t.val % 4 * 512 + (y 2).val; omega
  · show win0_3.index t (3 : Fin 4) * 64 + 1 * (y 3).val = (y 3).val; omega

/-- An index of the array is in point t's block iff each coordinate is in the block's range on its axis. -/
theorem mem_blk3 (t : Fin cfg0.N) (i : S16x4x2048x64.Idx) :
    i ∈ ((cfg0.win 3).blk t).view.set
      ↔ ∀ a : Fin 4, win0_3.index t a * S16x1x512x64.size a ≤ (i a).val
          ∧ (i a).val < win0_3.index t a * S16x1x512x64.size a + S16x1x512x64.size a := by
  show i ∈ ((View.whole main_v7_1).slice (win0_3.rect t)).set ↔ _
  rw [View.set_slice_whole, Rect.mem_set_unit]
  exact Iff.rfl

/-- The sixteen blocks tile the array: (h, b, n, d) is in the block of point 4·b + n / 512. -/
theorem cover3 (i : S16x4x2048x64.Idx) :
    ∃ t : Fin cfg0.N, (cfg0.win 3).flush t = true ∧ i ∈ ((cfg0.win 3).blk t).view.set := by
  have h0 : (i 0).val < 16 := (i 0).isLt
  have h1 : (i 1).val < 4 := (i 1).isLt
  have h2 : (i 2).val < 2048 := (i 2).isLt
  have h3 : (i 3).val < 64 := (i 3).isLt
  have hN : cfg0.N = 16 := N_0
  let t : Fin cfg0.N := ⟨(i 1).val * 4 + (i 2).val / 512, by omega⟩
  have htv : t.val = (i 1).val * 4 + (i 2).val / 512 := rfl
  obtain ⟨e0, e1, e2, e3⟩ := idx_out3 t
  refine ⟨t, flush0_3 t, ?_⟩
  rw [mem_blk3]
  intro a
  match a with
  | ⟨0, _⟩ => show win0_3.index t (0 : Fin 4) * 16 ≤ (i 0).val ∧ (i 0).val < win0_3.index t (0 : Fin 4) * 16 + 16; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE ARRAY after the pipeline: output 1 of the projection. -/
theorem array3 (c : Dev nD) :
    (dat0 (F := Ideal) V c).arrAt 3 cfg0.N = proj (V c main_v6) (V c main_v1) 1 :=
  (dat0 (F := Ideal) V c).arrAt_eq_of_cover 3 (proj (V c main_v6) (V c main_v1) 1)
    (fun t _ => flushed3_eq V c t) cover3

/-- … at (h, b, n, d): Σ_k x (2048·b + n, k) · w (k, 1·1024 + 64·h + d), where x and w are the flattened input and the
    transposed weight as the region finds them. -/
theorem final0_3 (c : Dev nD) (x : S8192x1024.Idx → EReal) (w : S1024x3072.Idx → EReal)
    (hx : x = V c main_v6) (hw : w = V c main_v1) (h : Fin 16) (b : Fin 4) (n : Fin 2048) (d : Fin 64) :
    (dat0 (F := Ideal) V c).arrAt 3 cfg0.N (ix4 h b n d)
      = ∑ k : Fin 1024, x (ix2 ⟨b.val * 2048 + n.val, by omega⟩ k) * w (ix2 k ⟨1 * 1024 + h.val * 64 + d.val, by omega⟩) := by
  subst hx hw
  exact (congrFun (array3 V c) (ix4 h b n d)).trans rfl

/-! ## Output window 4 -/

/-- WHAT POINT t WRITES BACK to output 2 is block t of `proj … 2` of the two input arrays as the region finds them. -/
theorem flushed4_eq (c : Dev nD) (t : Fin cfg0.N) :
    (dat0 (F := Ideal) V c).flushed 4 t
      = ((cfg0.win 4).blk t).view.read (Elt Ideal) (proj (V c main_v6) (V c main_v1) 2) := by
  show (cfg0.win 4).cut (grid0.coords t) ((dat0 V c).after 4 t) = _
  rw [after0_4]
  unfold out0_4
  rw [View.canon_unit_zero hz4]
  simp only [View.ld_unit_zero (S := S512x1024) hz2, View.ld_unit_zero (S := S1024x3072) hz2]
  obtain ⟨e0, e1, e2, e3⟩ := idx_out4 t
  have ht := t_lt t
  funext y
  show k0_pay4 (F := Ideal) (iblk0 V c 0 t) (iblk0 V c 1 t) y
    = proj (V c main_v6) (V c main_v1) 2 (((cfg0.win 4).blk t).view.emb y)
  refine point_eq 2 (k0_pay4 (F := Ideal)) Cert.PayProj.pay4_apply (V c main_v6) (V c main_v1)
    (iblk0 V c 0 t) (iblk0 V c 1 t) t.val ht (iblk_in0 V c t) (iblk_in1 V c t) y _ ?_ ?_ ?_ ?_
  · show win0_4.index t (0 : Fin 4) * 16 + 1 * (y 0).val = (y 0).val; omega
  · show win0_4.index t (1 : Fin 4) * 1 + 1 * (y 1).val = t.val / 4
    have hy1 : (y 1).val < 1 := (y 1).isLt
    omega
  · show win0_4.index t (2 : Fin 4) * 512 + 1 * (y 2).val = t.val % 4 * 512 + (y 2).val; omega
  · show win0_4.index t (3 : Fin 4) * 64 + 1 * (y 3).val = (y 3).val; omega

/-- An index of the array is in point t's block iff each coordinate is in the block's range on its axis. -/
theorem mem_blk4 (t : Fin cfg0.N) (i : S16x4x2048x64.Idx) :
    i ∈ ((cfg0.win 4).blk t).view.set
      ↔ ∀ a : Fin 4, win0_4.index t a * S16x1x512x64.size a ≤ (i a).val
          ∧ (i a).val < win0_4.index t a * S16x1x512x64.size a + S16x1x512x64.size a := by
  show i ∈ ((View.whole main_v7_2).slice (win0_4.rect t)).set ↔ _
  rw [View.set_slice_whole, Rect.mem_set_unit]
  exact Iff.rfl

/-- The sixteen blocks tile the array: (h, b, n, d) is in the block of point 4·b + n / 512. -/
theorem cover4 (i : S16x4x2048x64.Idx) :
    ∃ t : Fin cfg0.N, (cfg0.win 4).flush t = true ∧ i ∈ ((cfg0.win 4).blk t).view.set := by
  have h0 : (i 0).val < 16 := (i 0).isLt
  have h1 : (i 1).val < 4 := (i 1).isLt
  have h2 : (i 2).val < 2048 := (i 2).isLt
  have h3 : (i 3).val < 64 := (i 3).isLt
  have hN : cfg0.N = 16 := N_0
  let t : Fin cfg0.N := ⟨(i 1).val * 4 + (i 2).val / 512, by omega⟩
  have htv : t.val = (i 1).val * 4 + (i 2).val / 512 := rfl
  obtain ⟨e0, e1, e2, e3⟩ := idx_out4 t
  refine ⟨t, flush0_4 t, ?_⟩
  rw [mem_blk4]
  intro a
  match a with
  | ⟨0, _⟩ => show win0_4.index t (0 : Fin 4) * 16 ≤ (i 0).val ∧ (i 0).val < win0_4.index t (0 : Fin 4) * 16 + 16; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE ARRAY after the pipeline: output 2 of the projection. -/
theorem array4 (c : Dev nD) :
    (dat0 (F := Ideal) V c).arrAt 4 cfg0.N = proj (V c main_v6) (V c main_v1) 2 :=
  (dat0 (F := Ideal) V c).arrAt_eq_of_cover 4 (proj (V c main_v6) (V c main_v1) 2)
    (fun t _ => flushed4_eq V c t) cover4

/-- … at (h, b, n, d): Σ_k x (2048·b + n, k) · w (k, 2·1024 + 64·h + d), where x and w are the flattened input and the
    transposed weight as the region finds them. -/
theorem final0_4 (c : Dev nD) (x : S8192x1024.Idx → EReal) (w : S1024x3072.Idx → EReal)
    (hx : x = V c main_v6) (hw : w = V c main_v1) (h : Fin 16) (b : Fin 4) (n : Fin 2048) (d : Fin 64) :
    (dat0 (F := Ideal) V c).arrAt 4 cfg0.N (ix4 h b n d)
      = ∑ k : Fin 1024, x (ix2 ⟨b.val * 2048 + n.val, by omega⟩ k) * w (ix2 k ⟨2 * 1024 + h.val * 64 + d.val, by omega⟩) := by
  subst hx hw
  exact (congrFun (array4 V c) (ix4 h b n d)).trans rfl

end Cert.KernelIdeal.Val0

end
-- ==== Proof.Val2.lean ====
/-
  The output-projection kernel's result array. Over the heads of a row tile the accumulator starts from zero and
  gains one head's product of its attention tile with its slice of the output weight; at the last head the bias row
  is added and the block is written back. Sums of extended reals may be regrouped and reordered, so the block is the
  sum over the heads plus the bias, and the row blocks tile the array.
-/
import proofs.«181309_j90692529422468_2_alg».proof.Proof.FrameI.R2
import proofs.«181309_j90692529422468_2_alg».proof.Proof.PayProj
import Idealize.ShloMosaic.Lib.Pipeline.Value
import Idealize.ShloMosaic.Lib.ValueIdx
import Idealize.ShloMosaic.Lib.Tactic

set_option maxRecDepth 16384

noncomputable section

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

/-! ## What each case's stores leave, as payloads -/

section Pieces
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle head the accumulator gains this head's product. -/
theorem soutB_eq (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1x1024 .f32) (xs0 : Vec F S512x1024 .f32) :
    sout2_B_0 c i arg2 harg2 arg3 harg3 arg4 harg4 arg5 harg5 arg6 harg6 hc0 hc1 x0 x1 x2 xs0 = k2_pay2 xs0 x0 x1 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  rw [View.canon_unit_zero hz2]
  simp only [View.readAt_eq_ld, harg6.read_unread, harg2.read_unread, harg3.read_unread,
    View.ld_unit_zero (S := S512x1024) hz2, View.ld_unit_zero (S := S1x512x64) hz3, View.ld_unit_zero (S := S1x64x1024) hz3]

/-- At head 0 the accumulator is cleared first. -/
theorem soutA_eq (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1x1024 .f32) :
    sout2_A_0 c i arg2 harg2 arg3 harg3 arg4 harg4 arg5 harg5 arg6 harg6 hc0 hc1 x0 x1 x2 = k2_pay2 (k2_pay1 (F := F)) x0 x1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S512x1024) hz2, View.readCov_unit_zero (S := S512x1024) _ hz2]
  simp only [View.readAt_eq_ld, harg2.read_unread, harg3.read_unread,
    View.ld_unit_zero (S := S1x512x64) hz3, View.ld_unit_zero (S := S1x64x1024) hz3]

/-- At the last head the accumulator gains this head's product … -/
theorem soutC_eq (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) :
    sout2_C_0 c i arg2 harg2 arg3 harg3 arg4 harg4 arg5 harg5 arg6 harg6 hc0 hc1 x0 x1 x2 xs0 = k2_pay2 xs0 x0 x1 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero (S := S512x1024) hz2]
  simp only [View.readAt_eq_ld, harg6.read_unread, harg2.read_unread, harg3.read_unread,
    View.ld_unit_zero (S := S512x1024) hz2, View.ld_unit_zero (S := S1x512x64) hz3, View.ld_unit_zero (S := S1x64x1024) hz3]

/-- … and the output block is that accumulator plus the bias row. -/
theorem outC_eq (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1x1024 .f32) (xs0 : Vec F S512x1024 .f32) :
    out2_C_3 c i arg2 harg2 arg3 harg3 arg4 harg4 arg5 harg5 arg6 harg6 hc0 hc1 x0 x1 x2 xs0 = k2_pay3 x2 (k2_pay2 xs0 x0 x1) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero (S := S512x1024) hz2, View.readCov_unit_zero (S := S512x1024) _ hz2]
  simp only [View.readAt_eq_ld, harg4.read_unread, harg6.read_unread, harg2.read_unread, harg3.read_unread,
    View.ld_unit_zero (S := S1x1024) hz2, View.ld_unit_zero (S := S512x1024) hz2, View.ld_unit_zero (S := S1x512x64) hz3,
    View.ld_unit_zero (S := S1x64x1024) hz3]

end Pieces

/-! ## The accumulator, point by point -/

section Acc
variable (V : (c : Dev nD) → (b : Ref sig .tc) → Buf (Elt Ideal) ((c : Thread nD τ).loc b))

/-- The three input blocks of a point, at their literal shapes. -/
abbrev blk0 (c : Dev nD) (t : Fin cfg2.N) : Vec Ideal S1x512x64 .bf16 := iblk2 V c 0 t
abbrev blk1 (c : Dev nD) (t : Fin cfg2.N) : Vec Ideal S1x64x1024 .bf16 := iblk2 V c 1 t
abbrev blk2 (c : Dev nD) (t : Fin cfg2.N) : Vec Ideal S1x1024 .f32 := iblk2 V c 2 t

/-- One head's product at (r, o), at grid point m: Σ_d a (0, r, d) · w (0, d, o) of the point's two input blocks
    (zero beyond the grid: never read). -/
def headProd (c : Dev nD) (m : ℕ) (r : Fin 512) (o : Fin 1024) : EReal :=
  if h : m < cfg2.N then ∑ d : Fin 64, blk0 V c ⟨m, h⟩ (ix3 0 r d) * blk1 V c ⟨m, h⟩ (ix3 0 d o) else 0

/-- One accumulation step at a point. -/
theorem acc_step (c : Dev nD) (t : Fin cfg2.N) (acc : Vec Ideal S512x1024 .f32) (r : Fin 512) (o : Fin 1024) :
    k2_pay2 (F := Ideal) acc (iblk2 V c 0 t) (iblk2 V c 1 t) (ix2 r o) = acc (ix2 r o) + headProd V c t.val r o := by
  refine (Cert.PayProj.k2pay2_apply acc (iblk2 V c 0 t) (iblk2 V c 1 t) r o).trans ?_
  unfold headProd
  rw [dif_pos t.isLt]

/-- At head 0 the accumulator holds that head's product. -/
theorem acc_A (c : Dev nD) (t : Fin cfg2.N) (h0 : t.val % 16 = 0) (r : Fin 512) (o : Fin 1024) :
    (outsAt2 V c t.val t.isLt).2 (ix2 r o) = headProd V c t.val r o := by
  have h1 : ¬t.val % 16 = 15 := by omega
  rw [outsAt2_A V c t h0 h1]
  unfold stepA2
  dsimp only
  rw [soutA_eq]
  refine (acc_step V c t (k2_pay1 (F := Ideal)) r o).trans ?_
  rw [Cert.PayProj.k2pay1_apply, zero_add]

/-- At any other head it gains that head's product. -/
theorem acc_BC (c : Dev nD) (t : Fin cfg2.N) (h0 : ¬t.val % 16 = 0) (r : Fin 512) (o : Fin 1024) :
    (outsAt2 V c t.val t.isLt).2 (ix2 r o)
      = (outsAt2 V c (t.val - 1) (Nat.lt_of_le_of_lt (Nat.sub_le _ _) t.isLt)).2 (ix2 r o) + headProd V c t.val r o := by
  by_cases h1 : t.val % 16 = 15
  · rw [outsAt2_C V c t h0 h1]
    unfold stepC2
    dsimp only
    rw [soutC_eq]
    exact acc_step V c t _ r o
  · rw [outsAt2_B V c t h0 h1]
    unfold stepB2
    dsimp only
    rw [soutB_eq]
    exact acc_step V c t _ r o

/-- So after point n the accumulator holds the products of the heads of n's row tile up to n's own. -/
theorem acc_eq (c : Dev nD) : ∀ (n : ℕ) (hn : n < cfg2.N) (r : Fin 512) (o : Fin 1024),
    (outsAt2 V c n hn).2 (ix2 r o) = ∑ s ∈ Finset.range (n % 16 + 1), headProd V c (n - n % 16 + s) r o
  | 0, hn, r, o => by
    rw [show (0 : ℕ) % 16 + 1 = 1 from rfl, Finset.sum_range_one]
    exact acc_A V c ⟨0, hn⟩ rfl r o
  | n + 1, hn, r, o => by
    by_cases h0 : (n + 1) % 16 = 0
    · rw [h0, Nat.zero_add, Finset.sum_range_one]
      exact acc_A V c ⟨n + 1, hn⟩ h0 r o
    · have ih := acc_eq c n (Nat.lt_of_succ_lt hn) r o
      have e1 : (n + 1) % 16 = n % 16 + 1 := by omega
      have e2 : n + 1 - (n + 1) % 16 = n - n % 16 := by omega
      have e3 : n - n % 16 + (n % 16 + 1) = n + 1 := by omega
      rw [acc_BC V c ⟨n + 1, hn⟩ h0 r o, e2, e1, Finset.sum_range_succ _ (n % 16 + 1), e3]
      exact congrArg (· + headProd V c (n + 1) r o) ih

/-- At the last head the output block is the accumulator plus the bias row. -/
theorem out_acc (c : Dev nD) (t : Fin cfg2.N) (h1 : t.val % 16 = 15) (r : Fin 512) (o : Fin 1024) :
    (outsAt2 V c t.val t.isLt).1 (ix2 r o)
      = (outsAt2 V c t.val t.isLt).2 (ix2 r o) + blk2 V c t (ix2 0 o) := by
  have h0 : ¬t.val % 16 = 0 := by omega
  rw [outsAt2_C V c t h0 h1]
  unfold stepC2
  dsimp only
  rw [outC_eq, soutC_eq]
  exact Cert.PayProj.k2pay3_apply (iblk2 V c 2 t) _ r o

end Acc

/-! ## From blocks to the array -/

section Blocks
variable (V : (c : Dev nD) → (b : Ref sig .tc) → Buf (Elt Ideal) ((c : Thread nD τ).loc b))

/-- The printed index maps over the grid, point t = (row tile t / 16, head t % 16). -/
theorem idx_facts : ∀ t : Fin cfg2.N,
    win2_0.index t (0 : Fin 3) = t.val % 16 * 4 + t.val / 16 / 4 ∧ win2_0.index t (1 : Fin 3) = t.val / 16 % 4
    ∧ win2_0.index t (2 : Fin 3) = 0
    ∧ win2_1.index t (0 : Fin 3) = t.val % 16 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val / 16 ∧ win2_3.index t (1 : Fin 2) = 0 :=
  (by decide +kernel : ∀ t : Fin grid2.N,
    win2_0.index t (0 : Fin 3) = t.val % 16 * 4 + t.val / 16 / 4 ∧ win2_0.index t (1 : Fin 3) = t.val / 16 % 4
    ∧ win2_0.index t (2 : Fin 3) = 0
    ∧ win2_1.index t (0 : Fin 3) = t.val % 16 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val / 16 ∧ win2_3.index t (1 : Fin 2) = 0)

/-- The three arrays the region finds, at their literal shapes. -/
abbrev att (c : Dev nD) : Vec Ideal S64x2048x64 .bf16 := V c main_v11
abbrev wgt (c : Dev nD) : Vec Ideal S16x64x1024 .bf16 := V c main_v4
abbrev bia (c : Dev nD) : Vec Ideal S1x1024 .f32 := V c main_v5

/-- A point's attention block is rows of slab (head · 4 + batch) of the attention array. -/
theorem blk0_apply (c : Dev nD) (t : Fin cfg2.N) (r : Fin 512) (d : Fin 64) (p : Fin 64) (q : Fin 2048)
    (hp : p.val = t.val % 16 * 4 + t.val / 16 / 4) (hq : q.val = t.val / 16 % 4 * 512 + r.val) :
    blk0 V c t (ix3 0 r d) = att V c (ix3 p q d) := by
  obtain ⟨e0, e1, e2, -⟩ := idx_facts t
  show V c main_v11 (((cfg2.win 0).blk t).view.emb (ix3 0 r d)) = V c main_v11 (ix3 p q d)
  refine congrArg (V c main_v11) (funext fun a => Fin.ext ?_)
  match a with
  | ⟨0, _⟩ => show win2_0.index t (0 : Fin 3) * 1 + 1 * 0 = p.val; omega
  | ⟨1, _⟩ => show win2_0.index t (1 : Fin 3) * 512 + 1 * r.val = q.val; omega
  | ⟨2, _⟩ => show win2_0.index t (2 : Fin 3) * 64 + 1 * d.val = d.val; omega

/-- A point's weight block is its head's slice. -/
theorem blk1_apply (c : Dev nD) (t : Fin cfg2.N) (d : Fin 64) (o : Fin 1024) (h : Fin 16) (hh : h.val = t.val % 16) :
    blk1 V c t (ix3 0 d o) = wgt V c (ix3 h d o) := by
  obtain ⟨-, -, -, e0, e1, e2, -⟩ := idx_facts t
  show V c main_v4 (((cfg2.win 1).blk t).view.emb (ix3 0 d o)) = V c main_v4 (ix3 h d o)
  refine congrArg (V c main_v4) (funext fun a => Fin.ext ?_)
  match a with
  | ⟨0, _⟩ => show win2_1.index t (0 : Fin 3) * 1 + 1 * 0 = h.val; omega
  | ⟨1, _⟩ => show win2_1.index t (1 : Fin 3) * 64 + 1 * d.val = d.val; omega
  | ⟨2, _⟩ => show win2_1.index t (2 : Fin 3) * 1024 + 1 * o.val = o.val; omega

/-- Every point's bias block is the bias row. -/
theorem blk2_apply (c : Dev nD) (t : Fin cfg2.N) (o : Fin 1024) : blk2 V c t (ix2 0 o) = bia V c (ix2 0 o) := by
  obtain ⟨-, -, -, -, -, -, e0, e1, -⟩ := idx_facts t
  show V c main_v5 (((cfg2.win 2).blk t).view.emb (ix2 0 o)) = V c main_v5 (ix2 0 o)
  refine congrArg (V c main_v5) (funext fun a => Fin.ext ?_)
  match a with
  | ⟨0, _⟩ => show win2_2.index t (0 : Fin 2) * 1 + 1 * 0 = 0; omega
  | ⟨1, _⟩ => show win2_2.index t (1 : Fin 2) * 1024 + 1 * o.val = o.val; omega

end Blocks

/-! ## The result array -/

section Final
variable (V : (c : Dev nD) → (b : Ref sig .tc) → Buf (Elt Ideal) ((c : Thread nD τ).loc b))

/-- Row M = batch · 2048 + position of the result, at feature o: the sum over the heads of the head's attention row
    against its weight slice, plus the bias. -/
def outAt (c : Dev nD) (M : Fin 8192) (o : Fin 1024) : EReal :=
  (∑ h : Fin 16, ∑ d : Fin 64,
      att V c (ix3 (⟨h.val * 4 + M.val / 2048, by have := h.isLt; have := M.isLt; omega⟩ : Fin 64)
        (⟨M.val % 2048, Nat.mod_lt _ (by decide)⟩ : Fin 2048) d) * wgt V c (ix3 h d o))
    + bia V c (ix2 0 o)

/-- The whole result array. -/
def G (c : Dev nD) : Buf (Elt Ideal) ((cfg2.win 3).arr.view.loc (c.tc : Thread nD τ)) :=
  fun j => outAt V c ⟨(j 0).val, (j 0).isLt⟩ ⟨(j 1).val, (j 1).isLt⟩

theorem G_apply (c : Dev nD) (j : S8192x1024.Idx) (M : Fin 8192) (o : Fin 1024) (h0 : (j 0).val = M.val)
    (h1 : (j 1).val = o.val) : G V c j = outAt V c M o := by
  unfold G
  exact congrArg₂ (outAt V c) (Fin.ext h0) (Fin.ext h1)

/-- The sixteen head products of a row tile, as the sum over the heads of the arrays' entries. -/
theorem heads_sum (c : Dev nD) (t : Fin cfg2.N) (h1 : t.val % 16 = 15) (r : Fin 512) (o : Fin 1024) (M : Fin 8192)
    (hM : M.val = t.val / 16 * 512 + r.val) :
    ∑ s ∈ Finset.range (15 + 1), headProd V c (t.val - 15 + s) r o
      = ∑ h : Fin 16, ∑ d : Fin 64,
          att V c (ix3 (⟨h.val * 4 + M.val / 2048, by have := h.isLt; have := M.isLt; omega⟩ : Fin 64)
            (⟨M.val % 2048, Nat.mod_lt _ (by decide)⟩ : Fin 2048) d) * wgt V c (ix3 h d o) := by
  have hN : cfg2.N = 256 := N_2
  have ht := t.isLt
  rw [Finset.sum_range]
  refine Finset.sum_congr rfl fun h _ => ?_
  have hh := h.isLt
  have hr := r.isLt
  have hm : t.val - 15 + h.val < cfg2.N := by omega
  unfold headProd
  rw [dif_pos hm]
  refine Finset.sum_congr rfl fun d _ => ?_
  rw [blk0_apply V c ⟨t.val - 15 + h.val, hm⟩ r d ⟨h.val * 4 + M.val / 2048, by have := M.isLt; omega⟩
      ⟨M.val % 2048, Nat.mod_lt _ (by decide)⟩ (by show h.val * 4 + M.val / 2048 = (t.val - 15 + h.val) % 16 * 4 + (t.val - 15 + h.val) / 16 / 4; omega)
      (by show M.val % 2048 = (t.val - 15 + h.val) / 16 % 4 * 512 + r.val; omega),
    blk1_apply V c ⟨t.val - 15 + h.val, hm⟩ d o h (by show h.val = (t.val - 15 + h.val) % 16; omega)]

/-- An index of the array is in a point's output block iff each coordinate is in the block's range. -/
theorem mem_blk (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v12).slice (win2_3.rect t)).set ↔ _
  rw [View.set_slice_whole, Rect.mem_set_unit]
  exact Iff.rfl

/-- What the last head of a row tile writes back is that tile's rows of the result. -/
theorem flushed_eq (c : Dev nD) (t : Fin cfg2.N) (hf : (cfg2.win 3).flush t = true) :
    (dat2 V c).flushed 3 t = ((cfg2.win 3).blk t).view.read (Elt Ideal) (G V c) := by
  have h1 : t.val % 16 = 15 := (flush2_3 t).mp hf
  have hN : cfg2.N = 256 := N_2
  have ht := t.isLt
  obtain ⟨-, -, -, -, -, -, -, -, e0, e1⟩ := idx_facts t
  show (cfg2.win 3).cut (grid2.coords t) ((dat2 V c).after 3 t) = _
  rw [after2_3]
  funext y
  obtain ⟨r, o, rfl⟩ : ∃ (r : Fin 512) (o : Fin 1024), y = ix2 r o := ⟨y 0, y 1, eq_ix2 y⟩
  have hr := r.isLt
  have hM : t.val / 16 * 512 + r.val < 8192 := by omega
  show (outsAt2 V c t.val t.isLt).1 (ix2 r o) = G V c (((cfg2.win 3).blk t).view.emb (ix2 r o))
  rw [out_acc V c t h1 r o, acc_eq V c t.val t.isLt r o, h1, blk2_apply V c t o,
    heads_sum V c t h1 r o ⟨t.val / 16 * 512 + r.val, hM⟩ rfl]
  refine Eq.trans ?_ (G_apply V c _ ⟨t.val / 16 * 512 + r.val, hM⟩ o
    (by show win2_3.index t (0 : Fin 2) * 512 + 1 * r.val = t.val / 16 * 512 + r.val; omega)
    (by show win2_3.index t (1 : Fin 2) * 1024 + 1 * o.val = o.val; omega)).symm
  rfl

/-- Every row of the array is in the block its row tile's last head writes back. -/
theorem cover (i : S8192x1024.Idx) :
    ∃ t : Fin cfg2.N, (cfg2.win 3).flush t = true ∧ i ∈ ((cfg2.win 3).blk t).view.set := by
  have hN : cfg2.N = 256 := N_2
  have hi0 : (i 0).val < 8192 := (i 0).isLt
  have hi1 : (i 1).val < 1024 := (i 1).isLt
  have hlt : (i 0).val / 512 * 16 + 15 < cfg2.N := by omega
  obtain ⟨-, -, -, -, -, -, -, -, e0, e1⟩ := idx_facts ⟨(i 0).val / 512 * 16 + 15, hlt⟩
  refine ⟨⟨(i 0).val / 512 * 16 + 15, hlt⟩, (flush2_3 _).mpr (by show ((i 0).val / 512 * 16 + 15) % 16 = 15; omega), ?_⟩
  rw [mem_blk]
  intro a
  match a with
  | ⟨0, _⟩ =>
    show win2_3.index ⟨(i 0).val / 512 * 16 + 15, hlt⟩ (0 : Fin 2) * 512 ≤ (i 0).val
      ∧ (i 0).val < win2_3.index ⟨(i 0).val / 512 * 16 + 15, hlt⟩ (0 : Fin 2) * 512 + 512
    rw [e0]
    show ((i 0).val / 512 * 16 + 15) / 16 * 512 ≤ (i 0).val ∧ (i 0).val < ((i 0).val / 512 * 16 + 15) / 16 * 512 + 512
    omega
  | ⟨1, _⟩ =>
    show win2_3.index ⟨(i 0).val / 512 * 16 + 15, hlt⟩ (1 : Fin 2) * 1024 ≤ (i 1).val
      ∧ (i 1).val < win2_3.index ⟨(i 0).val / 512 * 16 + 15, hlt⟩ (1 : Fin 2) * 1024 + 1024
    rw [e1]
    omega

/-- The array after the pipeline. -/
theorem final_G (c : Dev nD) : (dat2 V c).arrAt 3 cfg2.N = G V c :=
  (dat2 V c).arrAt_eq_of_cover 3 (G V c) (flushed_eq V c) fun i => cover i

/-- THE RESULT ARRAY at (batch b, position n, feature o): the sum over the heads of the head's attention row against
    its slice of the output weight, plus the bias. -/
theorem final2_3 (c : Dev nD) (b : Fin 4) (n : Fin 2048) (o : Fin 1024) :
    (dat2 (F := Ideal) V c).arrAt 3 cfg2.N (ix2 (⟨b.val * 2048 + n.val, by have := b.isLt; have := n.isLt; omega⟩ : Fin 8192) o)
      = (∑ h : Fin 16, ∑ d : Fin 64,
          att V c (ix3 (⟨h.val * 4 + b.val, by have := h.isLt; have := b.isLt; omega⟩ : Fin 64) n d) * wgt V c (ix3 h d o))
        + bia V c (ix2 0 o) := by
  have hb := b.isLt
  have hn := n.isLt
  rw [final_G V c, G_apply V c _ ⟨b.val * 2048 + n.val, by omega⟩ o rfl rfl]
  unfold outAt
  refine congrArg (· + bia V c (ix2 0 o)) (Finset.sum_congr rfl fun h _ => Finset.sum_congr rfl fun d _ => ?_)
  refine congrArg (· * wgt V c (ix3 h d o)) (congrArg (att V c) ?_)
  funext a
  match a with
  | ⟨0, _⟩ => exact Fin.ext (by show h.val * 4 + (b.val * 2048 + n.val) / 2048 = h.val * 4 + b.val; omega)
  | ⟨1, _⟩ => exact Fin.ext (by show (b.val * 2048 + n.val) % 2048 = n.val; omega)
  | ⟨2, _⟩ => rfl

end Final

end Cert.KernelIdeal.Val2

end
-- ==== Proof.LibOnlineSoftmax.lean ====
/-
  Softmax-weighted pooling of the rows of a bag, and its computation in one pass with a running shift (the running
  maximum, sum and weighted sum of an online softmax). Independent of any program: it imports only the extended reals'
  operations.

  For logits z and features h over rows n, the pooled value is (Σ e^(z n − μ) · h n) / (Σ e^(z n − μ)); it does not
  depend on the shift μ, because changing μ to μ' multiplies numerator and denominator by the same e^(μ − μ') > 0.
  A one-pass computation keeps a shift μ and the two sums over the rows seen so far; taking in a further block of rows
  with a new shift μ' rescales the old sums by e^(μ − μ') and adds the block's terms. Two such partial states over
  disjoint row ranges are merged the same way. All of this is arithmetic of real numbers; the last part of the file
  carries sums, maxima and the exponential between the reals and the extended reals.
-/
import Idealize.ShloMosaic.PureOps.Ideal

noncomputable section

namespace Cert.Pool

open Idealize.ShloMosaic

/-! ## Partial sums over a range of rows, with a shift -/

/-- Σ over rows a ≤ n < b of e^(z n − μ). -/
def lsum (z : ℕ → ℝ) (a b : ℕ) (μ : ℝ) : ℝ := ∑ n ∈ Finset.Ico a b, Real.exp (z n - μ)

/-- Σ over rows a ≤ n < b of e^(z n − μ) · h n. -/
def wsum (z h : ℕ → ℝ) (a b : ℕ) (μ : ℝ) : ℝ := ∑ n ∈ Finset.Ico a b, Real.exp (z n - μ) * h n

theorem lsum_rescale (z : ℕ → ℝ) (a b : ℕ) (μ μ' : ℝ) : Real.exp (μ - μ') * lsum z a b μ = lsum z a b μ' := by
  unfold lsum
  rw [Finset.mul_sum]
  refine Finset.sum_congr rfl fun n _ => ?_
  rw [← Real.exp_add]
  congr 1
  ring

theorem wsum_rescale (z h : ℕ → ℝ) (a b : ℕ) (μ μ' : ℝ) : Real.exp (μ - μ') * wsum z h a b μ = wsum z h a b μ' := by
  unfold wsum
  rw [Finset.mul_sum]
  refine Finset.sum_congr rfl fun n _ => ?_
  rw [← mul_assoc, ← Real.exp_add]
  congr 2
  ring

theorem lsum_pos (z : ℕ → ℝ) {a b : ℕ} (hab : a < b) (μ : ℝ) : 0 < lsum z a b μ :=
  Finset.sum_pos (fun _ _ => Real.exp_pos _) ⟨a, Finset.mem_Ico.mpr ⟨le_refl a, hab⟩⟩

/-- A block of B rows b, b+1, …, b+B−1 as a sum over the block's own positions. -/
theorem block_sum (g : ℕ → ℝ) (b B : ℕ) : ∑ r : Fin B, g (b + r.val) = ∑ n ∈ Finset.Ico b (b + B), g n := by
  rw [Finset.sum_Ico_eq_sum_range, Nat.add_sub_cancel_left, Finset.sum_range]

/-- ONE STEP: the sums over rows a ≤ n < b at shift μ, rescaled to the shift μ', plus the block of B rows from b. -/
theorem lsum_step (z : ℕ → ℝ) {a b : ℕ} (hab : a ≤ b) (B : ℕ) (μ μ' : ℝ) :
    Real.exp (μ - μ') * lsum z a b μ + ∑ r : Fin B, Real.exp (z (b + r.val) - μ') = lsum z a (b + B) μ' := by
  rw [lsum_rescale, block_sum (fun n => Real.exp (z n - μ')) b B]
  exact Finset.sum_Ico_consecutive _ hab (Nat.le_add_right b B)

theorem wsum_step (z h : ℕ → ℝ) {a b : ℕ} (hab : a ≤ b) (B : ℕ) (μ μ' : ℝ) :
    Real.exp (μ - μ') * wsum z h a b μ + ∑ r : Fin B, Real.exp (z (b + r.val) - μ') * h (b + r.val)
      = wsum z h a (b + B) μ' := by
  rw [wsum_rescale, block_sum (fun n => Real.exp (z n - μ') * h n) b B]
  exact Finset.sum_Ico_consecutive _ hab (Nat.le_add_right b B)

/-- The first block: nothing before it. -/
theorem lsum_first (z : ℕ → ℝ) (b B : ℕ) (μ' : ℝ) :
    ∑ r : Fin B, Real.exp (z (b + r.val) - μ') = lsum z b (b + B) μ' :=
  block_sum (fun n => Real.exp (z n - μ')) b B

theorem wsum_first (z h : ℕ → ℝ) (b B : ℕ) (μ' : ℝ) :
    ∑ r : Fin B, Real.exp (z (b + r.val) - μ') * h (b + r.val) = wsum z h b (b + B) μ' :=
  block_sum (fun n => Real.exp (z n - μ') * h n) b B

/-- MERGING two partial states over adjacent ranges, each at its own shift, at a common shift μ. -/
theorem lsum_merge (z : ℕ → ℝ) {a b c : ℕ} (hab : a ≤ b) (hbc : b ≤ c) (μ₀ μ₁ μ : ℝ) :
    Real.exp (μ₀ - μ) * lsum z a b μ₀ + Real.exp (μ₁ - μ) * lsum z b c μ₁ = lsum z a c μ := by
  rw [lsum_rescale, lsum_rescale]
  exact Finset.sum_Ico_consecutive _ hab hbc

theorem wsum_merge (z h : ℕ → ℝ) {a b c : ℕ} (hab : a ≤ b) (hbc : b ≤ c) (μ₀ μ₁ μ : ℝ) :
    Real.exp (μ₀ - μ) * wsum z h a b μ₀ + Real.exp (μ₁ - μ) * wsum z h b c μ₁ = wsum z h a c μ := by
  rw [wsum_rescale, wsum_rescale]
  exact Finset.sum_Ico_consecutive _ hab hbc

/-- The pooled value does not depend on the shift. -/
theorem pool_shift (z h : ℕ → ℝ) (a b : ℕ) (μ μ' : ℝ) :
    wsum z h a b μ / lsum z a b μ = wsum z h a b μ' / lsum z a b μ' := by
  rw [← wsum_rescale z h a b μ μ', ← lsum_rescale z a b μ μ', mul_div_mul_left _ _ (Real.exp_pos _).ne']

/-- Normalizing each weight first and summing afterwards gives the same pooled value. -/
theorem pool_normalized (z h : ℕ → ℝ) (a b : ℕ) (μ : ℝ) :
    ∑ n ∈ Finset.Ico a b, Real.exp (z n - μ) / lsum z a b μ * h n = wsum z h a b μ / lsum z a b μ := by
  unfold wsum
  rw [Finset.sum_div]
  refine Finset.sum_congr rfl fun n _ => ?_
  ring

/-! ## Between the reals and the extended reals -/

theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The running maximum, started from −∞, of finitely many real numbers — at least one — is a real number. -/
theorem exists_real_fold_max {ι : Type} (s : Finset ι) (hs : s.Nonempty) (f : ι → ℝ) :
    ∃ r : ℝ, s.fold max (⊥ : EReal) (fun k => (f k : EReal)) = (r : EReal) := by
  classical
  have key : ∀ t : Finset ι, (t = ∅ ∧ t.fold max (⊥ : EReal) (fun k => (f k : EReal)) = ⊥)
      ∨ ∃ r : ℝ, t.fold max (⊥ : EReal) (fun k => (f k : EReal)) = (r : EReal) := by
    intro t
    induction t using Finset.induction_on with
    | empty => exact Or.inl ⟨rfl, Finset.fold_empty⟩
    | insert a t ha ih =>
      refine Or.inr ?_
      rw [Finset.fold_insert ha]
      rcases ih with ⟨_, h⟩ | ⟨r, h⟩
      · exact ⟨f a, by rw [h, max_bot_right]⟩
      · exact ⟨max (f a) r, by rw [h, coe_max]⟩
  rcases key s with ⟨h, _⟩ | h
  · exact absurd h hs.ne_empty
  · exact h

/-- A quotient of real numbers by a nonzero real, taken on the extended reals, is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  ring

end Cert.Pool

end
-- ==== Proof.LibFlashRow.lean ====
/-
  One query row of a causal attention, computed a block of keys at a time with a running maximum and two running sums,
  and the same row computed in one piece as a masked softmax. Independent of any program: extended reals only.

  A row has logits z n and, per feature, values h n over the keys n = 0, 1, 2, …; causality allows the keys n < L
  (L = the row's own position plus one). A block of B keys starting at key b presents its scores with the
  disallowed keys set to −∞ ("masked"). One block step replaces the running maximum m by m' = max m (the block's
  maximum), rescales the running sums by e^(m − m') and adds the block's terms e^(score − m') and e^(score − m') · h.
  A disallowed key contributes e^(−∞) = 0, so after the blocks covering the keys below L the state holds, at some real
  shift μ, the sums Σ_{n<L} e^(z n − μ) and Σ_{n<L} e^(z n − μ) · h n; their quotient is the softmax-weighted mean of
  h over the allowed keys and does not depend on μ. The one-piece computation — mask with −∞, subtract the maximum,
  exponentiate, divide by the sum, then sum against h — is the same mean.
-/
import proofs.«181309_j90692529422468_2_alg».proof.Proof.LibOnlineSoftmax

noncomputable section

namespace Cert.FlashRow

open Idealize.ShloMosaic Cert.Pool

/-- The scores of the block of `B` keys starting at key `b`, as a row whose allowed keys are those below `L`
    sees them: an allowed key at its logit, any other at −∞. -/
def masked (z : ℕ → ℝ) (L b B : ℕ) (c : Fin B) : EReal :=
  if b + c.val < L then (z (b + c.val) : EReal) else ⊥

/-- The block's maximum, started from −∞. -/
def blockMax (z : ℕ → ℝ) (L b B : ℕ) : EReal := Finset.univ.fold max ⊥ (masked z L b B)

/-- e^(score − μ) of a masked score: the real exponential at an allowed key, zero at any other. -/
theorem exp_masked_sub (z : ℕ → ℝ) (L b B : ℕ) (c : Fin B) (μ : ℝ) :
    Ideal.exp (masked z L b B c - (μ : EReal))
      = ((if b + c.val < L then Real.exp (z (b + c.val) - μ) else 0 : ℝ) : EReal) := by
  unfold masked
  split_ifs with hc
  · rw [← EReal.coe_sub, Ideal.exp_coe]
  · rw [EReal.bot_sub, Ideal.exp_bot, EReal.coe_zero]

/-- A block whose first key is allowed has a real maximum. -/
theorem blockMax_real (z : ℕ → ℝ) {L b B : ℕ} (hB : 0 < B) (hb : b < L) : ∃ r : ℝ, blockMax z L b B = (r : EReal) := by
  have htop : blockMax z L b B ≠ ⊤ := by
    refine ne_of_lt ?_
    unfold blockMax
    rw [Finset.fold_max_lt]
    refine ⟨bot_lt_top, fun c _ => ?_⟩
    unfold masked
    split_ifs
    · exact EReal.coe_lt_top _
    · exact bot_lt_top
  have hbot : blockMax z L b B ≠ ⊥ := by
    refine ne_of_gt (lt_of_lt_of_le (EReal.bot_lt_coe (z b)) ?_)
    unfold blockMax
    rw [Finset.le_fold_max]
    refine Or.inr ⟨⟨0, hB⟩, Finset.mem_univ _, ?_⟩
    unfold masked
    rw [if_pos (by simpa using hb)]
    simp
  exact ⟨(blockMax z L b B).toReal, (EReal.coe_toReal htop hbot).symm⟩

/-- The allowed keys of a block, as a range. -/
theorem filter_block (L b B : ℕ) : (Finset.Ico b (b + B)).filter (· < L) = Finset.Ico b (min (b + B) L) := by
  ext n
  simp only [Finset.mem_filter, Finset.mem_Ico, lt_min_iff]
  tauto

/-- A block's terms, the disallowed keys contributing zero, are the terms of its allowed keys. -/
theorem block_masked_sum (g : ℕ → ℝ) (L b B : ℕ) :
    ∑ c : Fin B, (if b + c.val < L then g (b + c.val) else 0) = ∑ n ∈ Finset.Ico b (min (b + B) L), g n := by
  rw [block_sum (fun n => if n < L then g n else 0) b B, ← Finset.sum_filter, filter_block]

/-! ## The state the blocks maintain -/

/-- What the running maximum `m`, running sum `l` and running weighted sum `a` hold once the keys below `n` have
    been taken in: nothing yet (−∞, 0, 0), or, at some real shift μ, the two sums over those keys. -/
def Seen (z h : ℕ → ℝ) (n : ℕ) (m l a : EReal) : Prop :=
  (n = 0 ∧ m = ⊥ ∧ l = 0 ∧ a = 0)
    ∨ (0 < n ∧ ∃ μ : ℝ, m = (μ : EReal) ∧ l = ((lsum z 0 n μ : ℝ) : EReal) ∧ a = ((wsum z h 0 n μ : ℝ) : EReal))

theorem lsum_empty (z : ℕ → ℝ) (μ : ℝ) : lsum z 0 0 μ = 0 := by unfold lsum; simp
theorem wsum_empty (z h : ℕ → ℝ) (μ : ℝ) : wsum z h 0 0 μ = 0 := by unfold wsum; simp

/-- Rescaling the sums seen so far from the old maximum to a new real shift μ': nothing, when nothing was seen. -/
theorem rescale_seen (z h : ℕ → ℝ) {n : ℕ} {m l a : EReal} (hs : Seen z h n m l a) (μ' : ℝ) :
    Ideal.exp (m - (μ' : EReal)) * l = ((lsum z 0 n μ' : ℝ) : EReal)
      ∧ Ideal.exp (m - (μ' : EReal)) * a = ((wsum z h 0 n μ' : ℝ) : EReal) := by
  rcases hs with ⟨rfl, rfl, rfl, rfl⟩ | ⟨_, μ, rfl, rfl, rfl⟩
  · rw [lsum_empty, wsum_empty, mul_zero, EReal.coe_zero]
    exact ⟨rfl, rfl⟩
  · rw [← EReal.coe_sub, Ideal.exp_coe, ← EReal.coe_mul, ← EReal.coe_mul, lsum_rescale, wsum_rescale]
    exact ⟨rfl, rfl⟩

/-- ONE BLOCK STEP. From the keys below `b` seen, a block of `B` keys from `b` whose first key is allowed: the new
    maximum is real, and the rescaled sums plus the block's terms are the sums over the keys below
    `min (b + B) L` at that maximum. -/
theorem step (z h : ℕ → ℝ) {L b B : ℕ} (hB : 0 < B) (hb : b < L) {m l a : EReal} (hs : Seen z h b m l a) :
    Seen z h (min (b + B) L) (max m (blockMax z L b B))
      (Ideal.exp (m - max m (blockMax z L b B)) * l
        + ∑ c : Fin B, Ideal.exp (masked z L b B c - max m (blockMax z L b B)))
      (Ideal.exp (m - max m (blockMax z L b B)) * a
        + ∑ c : Fin B, Ideal.exp (masked z L b B c - max m (blockMax z L b B)) * ((h (b + c.val) : ℝ) : EReal)) := by
  obtain ⟨r, hr⟩ := blockMax_real z hB hb
  -- the new maximum is a real
  obtain ⟨μ', hμ'⟩ : ∃ μ' : ℝ, max m (blockMax z L b B) = (μ' : EReal) := by
    rcases hs with ⟨_, rfl, _, _⟩ | ⟨_, μ, rfl, _, _⟩
    · exact ⟨r, by rw [hr, max_bot_left]⟩
    · exact ⟨max μ r, by rw [hr, coe_max]⟩
  have hpos : 0 < min (b + B) L := lt_min (by omega) (by omega)
  obtain ⟨hl, ha⟩ := rescale_seen z h hs μ'
  refine Or.inr ⟨hpos, μ', hμ', ?_, ?_⟩
  · rw [hμ', hl]
    simp only [exp_masked_sub]
    rw [← coe_sum, block_masked_sum (fun n => Real.exp (z n - μ')) L b B, ← EReal.coe_add]
    congr 1
    exact Finset.sum_Ico_consecutive _ (Nat.zero_le b) (le_min (Nat.le_add_right b B) hb.le)
  · rw [hμ', ha]
    simp only [exp_masked_sub, ← EReal.coe_mul]
    rw [← coe_sum]
    have : ∀ c : Fin B, (if b + c.val < L then Real.exp (z (b + c.val) - μ') else 0) * h (b + c.val)
        = if b + c.val < L then Real.exp (z (b + c.val) - μ') * h (b + c.val) else 0 := by
      intro c; split_ifs <;> simp
    simp only [this]
    rw [block_masked_sum (fun n => Real.exp (z n - μ') * h n) L b B, ← EReal.coe_add]
    congr 1
    exact Finset.sum_Ico_consecutive _ (Nat.zero_le b) (le_min (Nat.le_add_right b B) hb.le)

/-- THE QUOTIENT. Once every allowed key has been seen, the weighted sum divided by the sum is the softmax-weighted
    mean of `h` over the allowed keys — at any shift. -/
theorem quotient (z h : ℕ → ℝ) {L : ℕ} (hL : 0 < L) {m l a : EReal} (hs : Seen z h L m l a) (μ₀ : ℝ) :
    Ideal.div a l = ((wsum z h 0 L μ₀ / lsum z 0 L μ₀ : ℝ) : EReal) := by
  rcases hs with ⟨rfl, _⟩ | ⟨_, μ, _, rfl, rfl⟩
  · exact absurd hL (lt_irrefl 0)
  · rw [div_coe_coe _ (lsum_pos z hL μ).ne', pool_shift z h 0 L μ μ₀]

/-! ## The same row in one piece -/

/-- The masked softmax row against the values: with the disallowed keys of all `N` at −∞, the maximum `M` real,
    each e^(score − M) divided by their sum and then summed against `h` is the same mean. The maximum enters only
    through being the row's maximum started from −∞. -/
theorem softmax_row (z h : ℕ → ℝ) {L N : ℕ} (hL : 0 < L) (hLN : L ≤ N) (μ₀ : ℝ) :
    ∑ n : Fin N, Ideal.div (Ideal.exp (masked z L 0 N n - blockMax z L 0 N))
        (∑ k : Fin N, Ideal.exp (masked z L 0 N k - blockMax z L 0 N)) * ((h n.val : ℝ) : EReal)
      = ((wsum z h 0 L μ₀ / lsum z 0 L μ₀ : ℝ) : EReal) := by
  obtain ⟨M, hM⟩ := blockMax_real z (lt_of_lt_of_le hL hLN) hL
  have hmin : min (0 + N) L = L := by rw [Nat.zero_add]; exact min_eq_right hLN
  have hS : ∑ k : Fin N, Ideal.exp (masked z L 0 N k - blockMax z L 0 N) = ((lsum z 0 L M : ℝ) : EReal) := by
    rw [hM]
    simp only [exp_masked_sub]
    rw [← coe_sum, block_masked_sum (fun n => Real.exp (z n - M)) L 0 N, hmin]
    rfl
  rw [hS, hM]
  simp only [exp_masked_sub, div_coe_coe _ (lsum_pos z hL M).ne', ← EReal.coe_mul]
  rw [← coe_sum]
  have : ∀ n : Fin N, (if 0 + n.val < L then Real.exp (z (0 + n.val) - M) else 0) / lsum z 0 L M * h n.val
      = if 0 + n.val < L then Real.exp (z (0 + n.val) - M) / lsum z 0 L M * h (0 + n.val) else 0 := by
    intro n; split_ifs <;> simp
  simp only [this]
  rw [block_masked_sum (fun n => Real.exp (z n - M) / lsum z 0 L M * h n) L 0 N, hmin, pool_normalized,
    pool_shift z h 0 L M μ₀]

/-! ## Block after block -/

/-- The running maximum, sum and weighted sum after the first `j` blocks of `B` keys each; a block none of whose
    keys is allowed (its first key is at or beyond `L`) leaves them as they are. -/
def blocks (z h : ℕ → ℝ) (L B : ℕ) : ℕ → EReal × EReal × EReal
  | 0 => (⊥, 0, 0)
  | j + 1 =>
    if j * B < L then
      (max (blocks z h L B j).1 (blockMax z L (j * B) B),
        Ideal.exp ((blocks z h L B j).1 - max (blocks z h L B j).1 (blockMax z L (j * B) B)) * (blocks z h L B j).2.1
          + ∑ c : Fin B, Ideal.exp (masked z L (j * B) B c - max (blocks z h L B j).1 (blockMax z L (j * B) B)),
        Ideal.exp ((blocks z h L B j).1 - max (blocks z h L B j).1 (blockMax z L (j * B) B)) * (blocks z h L B j).2.2
          + ∑ c : Fin B, Ideal.exp (masked z L (j * B) B c - max (blocks z h L B j).1 (blockMax z L (j * B) B))
              * ((h (j * B + c.val) : ℝ) : EReal))
    else blocks z h L B j

/-- After `j` blocks the keys below `min (j · B) L` have been seen. -/
theorem blocks_seen (z h : ℕ → ℝ) {L B : ℕ} (hB : 0 < B) (j : ℕ) :
    Seen z h (min (j * B) L) (blocks z h L B j).1 (blocks z h L B j).2.1 (blocks z h L B j).2.2 := by
  induction j with
  | zero => exact Or.inl ⟨by simp, rfl, rfl, rfl⟩
  | succ j ih =>
    rw [blocks]
    split_ifs with hj
    · rw [min_eq_left hj.le] at ih
      have hstep := step z h hB hj ih
      rwa [show j * B + B = (j + 1) * B by ring] at hstep
    · have hle : L ≤ j * B := not_lt.mp hj
      rw [min_eq_right hle] at ih
      rw [min_eq_right (le_trans hle (Nat.mul_le_mul_right B (Nat.le_succ j)))]
      exact ih

/-- Once the blocks reach past the last allowed key, the quotient of the two running sums is the softmax-weighted
    mean of `h` over the allowed keys. -/
theorem blocks_quotient (z h : ℕ → ℝ) {L B : ℕ} (hB : 0 < B) (hL : 0 < L) {J : ℕ} (hJ : L ≤ J * B) (μ₀ : ℝ) :
    Ideal.div (blocks z h L B J).2.2 (blocks z h L B J).2.1 = ((wsum z h 0 L μ₀ / lsum z 0 L μ₀ : ℝ) : EReal) := by
  have hs := blocks_seen z h hB (L := L) J
  rw [min_eq_right hJ] at hs
  exact quotient z h hL hs μ₀

/-- Block by block and in one piece: the same row. -/
theorem blocks_eq_softmax_row (z h : ℕ → ℝ) {L B N : ℕ} (hB : 0 < B) (hL : 0 < L) {J : ℕ} (hJ : L ≤ J * B) (hLN : L ≤ N) :
    Ideal.div (blocks z h L B J).2.2 (blocks z h L B J).2.1
      = ∑ n : Fin N, Ideal.div (Ideal.exp (masked z L 0 N n - blockMax z L 0 N))
          (∑ k : Fin N, Ideal.exp (masked z L 0 N k - blockMax z L 0 N)) * ((h n.val : ℝ) : EReal) := by
  rw [blocks_quotient z h hB hL hJ 0, softmax_row z h hL hLN 0]

end Cert.FlashRow

end
-- ==== Proof.Spec.lean ====
/-
  The layer both programs compute, as one real-valued formula of real arrays: x [4, 2048, 1024], the joint
  query/key/value weight [3072, 1024], the output weight [1024, 1024] and its bias [1024]; 16 heads of 64 features.

  proj s b h n d   = Σ_c x[b, n, c] · Wqkv[s·1024 + h·64 + d, c]            (s = 0, 1, 2: query, key, value)
  score b h R n    = (Σ_d proj 0 b h R d · proj 1 b h n d) · (1/8)           (1/8 = 64^(-1/2))
  attn b h R d     = (Σ_{n ≤ R} e^(score R n) · proj 2 b h n d) / (Σ_{n ≤ R} e^(score R n))    (causal: keys n ≤ R)
  out b n o        = (Σ_{c'} attn b (c' / 64) n (c' % 64) · Wproj[o, c']) + bproj[o]

  The attention row is written with the shift-carrying sums of the pooled-row file at shift 0; any other shift gives
  the same quotient.
-/
import proofs.«181309_j90692529422468_2_alg».proof.Proof.LibFlashRow

noncomputable section

namespace Cert.Attn

open Cert.Pool

variable (X : Fin 4 → Fin 2048 → Fin 1024 → ℝ) (Wq : Fin 3072 → Fin 1024 → ℝ)
  (Wp : Fin 1024 → Fin 1024 → ℝ) (bp : Fin 1024 → ℝ)

/-- Row `s·1024 + h·64 + d` of the joint weight. -/
def qkvRow (s : Fin 3) (h : Fin 16) (d : Fin 64) : Fin 3072 := ⟨s.val * 1024 + h.val * 64 + d.val, by omega⟩

/-- The projected query (s = 0), key (s = 1) or value (s = 2) of batch `b`, head `h`, position `n`, feature `d`. -/
def proj (s : Fin 3) (b : Fin 4) (h : Fin 16) (n : Fin 2048) (d : Fin 64) : ℝ :=
  ∑ c : Fin 1024, X b n c * Wq (qkvRow s h d) c

/-- The scaled score of query row `R` against key `n` (zero beyond the last key: never read). -/
def score (b : Fin 4) (h : Fin 16) (R : Fin 2048) (n : ℕ) : ℝ :=
  if hn : n < 2048 then (∑ d : Fin 64, proj X Wq 0 b h R d * proj X Wq 1 b h ⟨n, hn⟩ d) * (1 / 8) else 0

/-- Feature `d` of the value at key `n` (zero beyond the last key: never read). -/
def value (b : Fin 4) (h : Fin 16) (d : Fin 64) (n : ℕ) : ℝ :=
  if hn : n < 2048 then proj X Wq 2 b h ⟨n, hn⟩ d else 0

/-- The causal attention output: the softmax-weighted mean of the values over the keys `n ≤ R`. -/
def attn (b : Fin 4) (h : Fin 16) (R : Fin 2048) (d : Fin 64) : ℝ :=
  wsum (score X Wq b h R) (value X Wq b h d) 0 (R.val + 1) 0 / lsum (score X Wq b h R) 0 (R.val + 1) 0

/-- Head `c' / 64`, feature `c' % 64` of a merged feature index. -/
def headOf (c' : Fin 1024) : Fin 16 := ⟨c'.val / 64, by omega⟩
def featOf (c' : Fin 1024) : Fin 64 := ⟨c'.val % 64, by omega⟩

/-- The layer's output. -/
def out (b : Fin 4) (n : Fin 2048) (o : Fin 1024) : ℝ :=
  (∑ c' : Fin 1024, attn X Wq b (headOf c') n (featOf c') * Wp o c') + bp o

end Cert.Attn

end
-- ==== Proof.OutAlg.lean ====
/-
  The closing algebra, over real arrays only. A projection entry written as a sum of products of extended reals is
  the real projection; the sum over 16 heads and 64 features of a head-indexed array against a row indexed by
  head · 64 + feature is the sum over the 1024 merged features c' of the array at (c' / 64, c' % 64) against the row;
  with the bias added it is the layer's output. The scores and values written from three per-head matrices are the
  specification's.
-/
import proofs.«181309_j90692529422468_2_alg».proof.Proof.Spec
import proofs.«181309_j90692529422468_2_alg».proof.Proof.LibOnlineSoftmax

noncomputable section

namespace Cert.OutAlg

open Cert.Pool Cert.Attn

/-- A projection entry as a sum of products of extended reals is the real projection. -/
theorem proj_coe (X : Fin 4 → Fin 2048 → Fin 1024 → ℝ) (Wq : Fin 3072 → Fin 1024 → ℝ) (s : Fin 3) (b : Fin 4)
    (h : Fin 16) (n : Fin 2048) (d : Fin 64) :
    ∑ k : Fin 1024, ((X b n k : ℝ) : EReal) * ((Wq (qkvRow s h d) k : ℝ) : EReal)
      = ((proj X Wq s b h n d : ℝ) : EReal) := by
  unfold proj
  rw [coe_sum]
  exact Finset.sum_congr rfl fun k _ => (EReal.coe_mul _ _).symm

/-- (head, feature) ↦ head · 64 + feature, with inverse c' ↦ (c' / 64, c' % 64). -/
def hdEquiv : Fin 16 × Fin 64 ≃ Fin 1024 where
  toFun p := ⟨p.1.val * 64 + p.2.val, by have := p.1.isLt; have := p.2.isLt; omega⟩
  invFun c' := (headOf c', featOf c')
  left_inv p := by
    have h1 := p.1.isLt
    have h2 := p.2.isLt
    refine Prod.ext (Fin.ext ?_) (Fin.ext ?_)
    · show (p.1.val * 64 + p.2.val) / 64 = p.1.val
      omega
    · show (p.1.val * 64 + p.2.val) % 64 = p.2.val
      omega
  right_inv c' := Fin.ext (by
    show c'.val / 64 * 64 + c'.val % 64 = c'.val
    omega)

/-- The double sum over heads and features is the single sum over the merged features. -/
theorem sum_heads (A : Fin 16 → Fin 64 → ℝ) (Wrow : Fin 1024 → ℝ) :
    ∑ h : Fin 16, ∑ d : Fin 64, A h d * Wrow ⟨h.val * 64 + d.val, by have := h.isLt; have := d.isLt; omega⟩
      = ∑ c' : Fin 1024, A (headOf c') (featOf c') * Wrow c' := by
  rw [← Fintype.sum_prod_type' (f := fun (h : Fin 16) (d : Fin 64) =>
      A h d * Wrow ⟨h.val * 64 + d.val, by have := h.isLt; have := d.isLt; omega⟩),
    ← Equiv.sum_comp hdEquiv (fun c' => A (headOf c') (featOf c') * Wrow c')]
  refine Finset.sum_congr rfl fun p _ => ?_
  have e := hdEquiv.left_inv p
  have e1 : headOf (hdEquiv p) = p.1 := congrArg Prod.fst e
  have e2 : featOf (hdEquiv p) = p.2 := congrArg Prod.snd e
  rw [e1, e2]
  rfl

/-- The same over the extended reals, with the bias. -/
theorem out_sum (A : Fin 16 → Fin 64 → ℝ) (Wrow : Fin 1024 → ℝ) (bias : ℝ) :
    (∑ h : Fin 16, ∑ d : Fin 64, ((A h d : ℝ) : EReal) * ((Wrow ⟨h.val * 64 + d.val, by omega⟩ : ℝ) : EReal))
        + ((bias : ℝ) : EReal)
      = (((∑ c' : Fin 1024, A (headOf c') (featOf c') * Wrow c') + bias : ℝ) : EReal) := by
  have inner : ∀ h : Fin 16,
      ∑ d : Fin 64, ((A h d : ℝ) : EReal) * ((Wrow ⟨h.val * 64 + d.val, by omega⟩ : ℝ) : EReal)
        = ((∑ d : Fin 64, A h d * Wrow ⟨h.val * 64 + d.val, by omega⟩ : ℝ) : EReal) := fun h => by
    rw [coe_sum]
    exact Finset.sum_congr rfl fun d _ => (EReal.coe_mul _ _).symm
  rw [Finset.sum_congr rfl fun h _ => inner h, ← coe_sum, ← EReal.coe_add]
  exact congrArg (fun x : ℝ => ((x + bias : ℝ) : EReal)) (sum_heads A Wrow)

/-- The layer's output from the heads' attention outputs. -/
theorem out_eq (X : Fin 4 → Fin 2048 → Fin 1024 → ℝ) (Wq : Fin 3072 → Fin 1024 → ℝ) (Wp : Fin 1024 → Fin 1024 → ℝ)
    (bp : Fin 1024 → ℝ) (b : Fin 4) (n : Fin 2048) (o : Fin 1024) :
    (∑ h : Fin 16, ∑ d : Fin 64,
        ((attn X Wq b h n d : ℝ) : EReal) * ((Wp o ⟨h.val * 64 + d.val, by omega⟩ : ℝ) : EReal))
        + ((bp o : ℝ) : EReal)
      = ((out X Wq Wp bp b n o : ℝ) : EReal) := by
  unfold out
  exact out_sum (fun h d => attn X Wq b h n d) (Wp o) (bp o)

/-- The scaled scores of a query row from a query and a key matrix (zero beyond the last key). -/
def zOf (Qr Kr : Fin 2048 → Fin 64 → ℝ) (R : Fin 2048) (n : ℕ) : ℝ :=
  if hn : n < 2048 then (∑ e : Fin 64, Qr R e * Kr ⟨n, hn⟩ e) * (1 / 8) else 0

/-- Feature d of the values from a value matrix (zero beyond the last key). -/
def hOf (Vr : Fin 2048 → Fin 64 → ℝ) (d : Fin 64) (n : ℕ) : ℝ :=
  if hn : n < 2048 then Vr ⟨n, hn⟩ d else 0

theorem score_eq (X : Fin 4 → Fin 2048 → Fin 1024 → ℝ) (Wq : Fin 3072 → Fin 1024 → ℝ) (b : Fin 4) (h : Fin 16)
    (R : Fin 2048) : zOf (proj X Wq 0 b h) (proj X Wq 1 b h) R = score X Wq b h R := by
  funext n
  unfold zOf score
  rfl

theorem value_eq (X : Fin 4 → Fin 2048 → Fin 1024 → ℝ) (Wq : Fin 3072 → Fin 1024 → ℝ) (b : Fin 4) (h : Fin 16)
    (d : Fin 64) : hOf (proj X Wq 2 b h) d = value X Wq b h d := by
  funext n
  unfold hOf value
  rfl

/-- The softmax-weighted mean written from the three per-head matrices is the specification's attention output. -/
theorem attn_eq (X : Fin 4 → Fin 2048 → Fin 1024 → ℝ) (Wq : Fin 3072 → Fin 1024 → ℝ) (b : Fin 4) (h : Fin 16)
    (R : Fin 2048) (d : Fin 64) :
    wsum (zOf (proj X Wq 0 b h) (proj X Wq 1 b h) R) (hOf (proj X Wq 2 b h) d) 0 (R.val + 1) 0
        / lsum (zOf (proj X Wq 0 b h) (proj X Wq 1 b h) R) 0 (R.val + 1) 0
      = attn X Wq b h R d := by
  rw [score_eq, value_eq]
  rfl

end Cert.OutAlg

end
-- ==== Proof.KernelOut.lean ====
/-
  The kernel program's result, entry by entry, over real arguments. When the four arguments hold real numbers, the
  three arrays the first kernel leaves, regrouped by head, hold the specification's query, key and value projections;
  and if the second kernel leaves the specification's attention outputs, the result holds the layer's output.
-/
import proofs.«181309_j90692529422468_2_alg».proof.Proof.Plumb
import proofs.«181309_j90692529422468_2_alg».proof.Proof.Val0
import proofs.«181309_j90692529422468_2_alg».proof.Proof.Val2
import proofs.«181309_j90692529422468_2_alg».proof.Proof.OutAlg

noncomputable section

namespace Cert.KernelIdeal.KernelOut

open Cert.KernelIdeal Cert.KernelIdeal.Gen Cert.KernelIdeal.Hand Cert.KernelIdeal.Plumb
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)
variable (X : Fin 4 → Fin 2048 → Fin 1024 → ℝ) (Wq : Fin 3072 → Fin 1024 → ℝ) (Wp : Fin 1024 → Fin 1024 → ℝ)
  (bp : Fin 1024 → ℝ)

/-! ## The projections -/

/-- An array that is, at (h, b, n, e), the sum over k of the flattened input at row 2048·b + n against the transposed
    weight at column 1024·s + 64·h + e holds the specification's projection s. -/
theorem proj_real (h0 : ∀ b n k, a0 m c (ix3 b n k) = ((X b n k : ℝ) : EReal))
    (h1 : ∀ o k, a1 m c (ix2 o k) = ((Wq o k : ℝ) : EReal)) (s : Fin 3) (A : S16x4x2048x64.Idx → EReal)
    (hA : ∀ (h : Fin 16) (b : Fin 4) (n : Fin 2048) (e : Fin 64), A (ix4 h b n e)
      = ∑ k : Fin 1024, xin m ρ c (ix2 ⟨b.val * 2048 + n.val, by omega⟩ k)
          * wqkv m ρ c (ix2 k ⟨s.val * 1024 + h.val * 64 + e.val, by omega⟩))
    (h : Fin 16) (b : Fin 4) (n : Fin 2048) (e : Fin 64) :
    A (ix4 h b n e) = ((Cert.Attn.proj X Wq s b h n e : ℝ) : EReal) := by
  rw [hA, ← Cert.OutAlg.proj_coe X Wq s b h n e]
  refine Finset.sum_congr rfl fun k _ => ?_
  have ex : xin m ρ c (ix2 ⟨b.val * 2048 + n.val, by omega⟩ k) = ((X b n k : ℝ) : EReal) :=
    (xin_apply m ρ c b n k).trans (h0 b n k)
  have ew : wqkv m ρ c (ix2 k ⟨s.val * 1024 + h.val * 64 + e.val, by omega⟩)
      = ((Wq (Cert.Attn.qkvRow s h e) k : ℝ) : EReal) :=
    (wqkv_apply m ρ c k _).trans (h1 (Cert.Attn.qkvRow s h e) k)
  rw [ex, ew]

/-- The second kernel's query operand holds the query projection. -/
theorem q1_real (h0 : ∀ b n k, a0 m c (ix3 b n k) = ((X b n k : ℝ) : EReal))
    (h1 : ∀ o k, a1 m c (ix2 o k) = ((Wq o k : ℝ) : EReal)) (h : Fin 16) (b : Fin 4) (n : Fin 2048) (e : Fin 64) :
    q1 m ρ c (ix3 ⟨h.val * 4 + b.val, by omega⟩ n e) = ((Cert.Attn.proj X Wq 0 b h n e : ℝ) : EReal) :=
  (q1_apply m ρ c h b n e).trans
    (proj_real m ρ c X Wq h0 h1 0 (q0 m ρ c)
      (fun h b n e => Val0.final0_2 (V1b m ρ) c (xin m ρ c) (wqkv m ρ c) rfl rfl h b n e) h b n e)

/-- Its key operand holds the key projection. -/
theorem k1_real (h0 : ∀ b n k, a0 m c (ix3 b n k) = ((X b n k : ℝ) : EReal))
    (h1 : ∀ o k, a1 m c (ix2 o k) = ((Wq o k : ℝ) : EReal)) (h : Fin 16) (b : Fin 4) (n : Fin 2048) (e : Fin 64) :
    k1 m ρ c (ix3 ⟨h.val * 4 + b.val, by omega⟩ n e) = ((Cert.Attn.proj X Wq 1 b h n e : ℝ) : EReal) :=
  (k1_apply m ρ c h b n e).trans
    (proj_real m ρ c X Wq h0 h1 1 (k0 m ρ c)
      (fun h b n e => Val0.final0_3 (V1b m ρ) c (xin m ρ c) (wqkv m ρ c) rfl rfl h b n e) h b n e)

/-- Its value operand holds the value projection. -/
theorem v1_real (h0 : ∀ b n k, a0 m c (ix3 b n k) = ((X b n k : ℝ) : EReal))
    (h1 : ∀ o k, a1 m c (ix2 o k) = ((Wq o k : ℝ) : EReal)) (h : Fin 16) (b : Fin 4) (n : Fin 2048) (e : Fin 64) :
    v1 m ρ c (ix3 ⟨h.val * 4 + b.val, by omega⟩ n e) = ((Cert.Attn.proj X Wq 2 b h n e : ℝ) : EReal) :=
  (v1_apply m ρ c h b n e).trans
    (proj_real m ρ c X Wq h0 h1 2 (v0 m ρ c)
      (fun h b n e => Val0.final0_4 (V1b m ρ) c (xin m ρ c) (wqkv m ρ c) rfl rfl h b n e) h b n e)

/-! ## The result -/

/-- If the second kernel leaves the specification's attention outputs, the program's result is the layer's output. -/
theorem kernel_out_of (h2 : ∀ o k, a2 m c (ix2 o k) = ((Wp o k : ℝ) : EReal))
    (h3 : ∀ o, a3 m c (ix1 o) = ((bp o : ℝ) : EReal))
    (hattn : ∀ (b : Fin 4) (h : Fin 16) (n : Fin 2048) (d : Fin 64),
      (dat1 (F := Ideal) (V3b m ρ) c).arrAt 3 cfg1.N (ix3 ⟨h.val * 4 + b.val, by omega⟩ n d)
        = ((Cert.Attn.attn X Wq b h n d : ℝ) : EReal))
    (b : Fin 4) (n : Fin 2048) (o : Fin 1024) :
    W6b m ρ c main_v13 (ix3 b n o) = ((Cert.Attn.out X Wq Wp bp b n o : ℝ) : EReal) := by
  refine (res_apply m ρ c b n o).trans ?_
  refine (Val2.final2_3 (V4b m ρ) c b n o).trans ?_
  rw [← Cert.OutAlg.out_eq X Wq Wp bp b n o]
  have ea : ∀ (h : Fin 16) (d : Fin 64), Val2.att (V4b m ρ) c (ix3 ⟨h.val * 4 + b.val, by omega⟩ n d)
      = ((Cert.Attn.attn X Wq b h n d : ℝ) : EReal) := fun h d =>
    (congrFun (attn_eq m ρ c) _).trans (hattn b h n d)
  have ew : ∀ (h : Fin 16) (d : Fin 64), Val2.wgt (V4b m ρ) c (ix3 h d o)
      = ((Wp o ⟨h.val * 64 + d.val, by omega⟩ : ℝ) : EReal) := fun h d =>
    (congrFun (wout_kept m ρ c) _).trans ((wout_apply m ρ c h d o).trans (h2 o _))
  have eb : Val2.bia (V4b m ρ) c (ix2 (0 : Fin 1) o) = ((bp o : ℝ) : EReal) :=
    (congrFun (bias_kept m ρ c) _).trans ((bias_apply m ρ c o).trans (h3 o))
  rw [eb]
  refine congrArg (· + ((bp o : ℝ) : EReal)) (Finset.sum_congr rfl fun h _ => Finset.sum_congr rfl fun d _ => ?_)
  rw [ea, ew]

end Cert.KernelIdeal.KernelOut

end
-- ==== Proof.Val1Pieces.lean ====
/-
  The attention kernel's stores, case by case, as the kernel's arithmetic of the values it loaded.

  At a key tile taken in, the three scratch buffers are left at the new running maximum, the rescaled running sum plus
  the tile's weights, and the rescaled running weighted sum plus the tile's weighted values — computed from what the
  buffers held before (at key tile 0: from the reset values −∞, 0, 0 stored just before). At the last key tile the
  output block is left at the quotient of the weighted sum by the sum, both as this point leaves them.
-/
import proofs.«181309_j90692529422468_2_alg».proof.Proof.FrameI.R1
import Idealize.ShloMosaic.Lib.Pipeline.Value
import Idealize.ShloMosaic.Lib.ValueIdx
import Idealize.ShloMosaic.Lib.Tactic

set_option maxRecDepth 16384

noncomputable section

namespace Cert.KernelIdeal.Val1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Key tile 0: reset, then the tile taken in -/

/-- The running maximum after key tile 0: −∞ joined with the tile's row maxima. -/
theorem soutA0_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) :
    sout1_A_0 c i arg3 harg3 arg4 harg4 arg5 harg5 arg6 harg6 arg7 harg7 arg8 harg8 arg9 harg9 hc0 hc1 hc2 x0 x1 x2
      = k1_pay5 (k1_pay8 (BitVec.ofNat 32 (i 1).val) (BitVec.ofNat 32 (i 2).val) x0 x1 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S512x1) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running sum after key tile 0: 0 rescaled plus the tile's weights. -/
theorem soutA1_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) :
    sout1_A_1 c i arg3 harg3 arg4 harg4 arg5 harg5 arg6 harg6 arg7 harg7 arg8 harg8 arg9 harg9 hc0 hc1 hc2 x0 x1 x2
      = k1_pay11 (BitVec.ofNat 32 (i 1).val) (BitVec.ofNat 32 (i 2).val) x0 x1 (k1_pay1 (F := F)) (k1_pay1 (F := F)) (k1_pay2 (F := F)) := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S512x1) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running weighted sum after key tile 0: 0 rescaled plus the tile's weighted values. -/
theorem soutA2_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i) (x0 : Vec F S1x512x64 .bf16) (x1 : Vec F S1x512x64 .bf16) (x2 : Vec F S1x512x64 .bf16) :
    sout1_A_2 c i arg3 harg3 arg4 harg4 arg5 harg5 arg6 harg6 arg7 harg7 arg8 harg8 arg9 harg9 hc0 hc1 hc2 x0 x1 x2
      = k1_pay4 (k1_pay9 (BitVec.ofNat 32 (i 1).val) (BitVec.ofNat 32 (i 2).val) x0 x1 (k1_pay1 (F := F)) (k1_pay1 (F := F))) (k1_pay10 (BitVec.ofNat 32 (i 1).val) (BitVec.ofNat 32 (i 2).val) x0 x1 (k1_pay1 (F := F))) x2 (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero (S := S512x64) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-! ## A later key tile not above the diagonal, before the last: the tile taken in -/

/-- The running maximum: the old one joined with the tile's row maxima. -/
theorem soutB0_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_B_0 c i arg3 harg3 arg4 harg4 arg5 harg5 arg6 harg6 arg7 harg7 arg8 harg8 arg9 harg9 hc0 hc1 hc2 x0 x1 x2 xs0 xs1 xs2
      = k1_pay5 (k1_pay8 (BitVec.ofNat 32 (i 1).val) (BitVec.ofNat 32 (i 2).val) x0 x1 xs0) := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running sum: the old one rescaled plus the tile's weights. -/
theorem soutB1_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_B_1 c i arg3 harg3 arg4 harg4 arg5 harg5 arg6 harg6 arg7 harg7 arg8 harg8 arg9 harg9 hc0 hc1 hc2 x0 x1 x2 xs0 xs1 xs2
      = k1_pay11 (BitVec.ofNat 32 (i 1).val) (BitVec.ofNat 32 (i 2).val) x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running weighted sum: the old one rescaled plus the tile's weighted values. -/
theorem soutB2_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_B_2 c i arg3 harg3 arg4 harg4 arg5 harg5 arg6 harg6 arg7 harg7 arg8 harg8 arg9 harg9 hc0 hc1 hc2 x0 x1 x2 xs0 xs1 xs2
      = k1_pay4 (k1_pay9 (BitVec.ofNat 32 (i 1).val) (BitVec.ofNat 32 (i 2).val) x0 x1 xs0 xs0) (k1_pay10 (BitVec.ofNat 32 (i 1).val) (BitVec.ofNat 32 (i 2).val) x0 x1 xs0) x2 xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero (S := S512x64) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-! ## The last key tile on the diagonal: the tile taken in, then the quotient stored -/

/-- The running maximum: the old one joined with the tile's row maxima. -/
theorem soutC0_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_C_0 c i arg3 harg3 arg4 harg4 arg5 harg5 arg6 harg6 arg7 harg7 arg8 harg8 arg9 harg9 hc0 hc1 hc2 x0 x1 x2 xs0 xs1 xs2
      = k1_pay5 (k1_pay8 (BitVec.ofNat 32 (i 1).val) (BitVec.ofNat 32 (i 2).val) x0 x1 xs0) := by
  unfold sout1_C_0
  rw [View.read_writes_eq_canon _ _ _ (scover1_C_0 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running sum: the old one rescaled plus the tile's weights. -/
theorem soutC1_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_C_1 c i arg3 harg3 arg4 harg4 arg5 harg5 arg6 harg6 arg7 harg7 arg8 harg8 arg9 harg9 hc0 hc1 hc2 x0 x1 x2 xs0 xs1 xs2
      = k1_pay11 (BitVec.ofNat 32 (i 1).val) (BitVec.ofNat 32 (i 2).val) x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The running weighted sum: the old one rescaled plus the tile's weighted values. -/
theorem soutC2_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    sout1_C_2 c i arg3 harg3 arg4 harg4 arg5 harg5 arg6 harg6 arg7 harg7 arg8 harg8 arg9 harg9 hc0 hc1 hc2 x0 x1 x2 xs0 xs1 xs2
      = k1_pay4 (k1_pay9 (BitVec.ofNat 32 (i 1).val) (BitVec.ofNat 32 (i 2).val) x0 x1 xs0 xs0) (k1_pay10 (BitVec.ofNat 32 (i 1).val) (BitVec.ofNat 32 (i 2).val) x0 x1 xs0) x2 xs2 := by
  unfold sout1_C_2
  rw [View.read_writes_eq_canon _ _ _ (scover1_C_2 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_unit_zero (S := S512x64) hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-- The output block: the quotient of the weighted sum by the sum, both as this point has just left them. -/
theorem outC3_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    out1_C_3 c i arg3 harg3 arg4 harg4 arg5 harg5 arg6 harg6 arg7 harg7 arg8 harg8 arg9 harg9 hc0 hc1 hc2 x0 x1 x2 xs0 xs1 xs2
      = k1_pay6 (k1_pay4 (k1_pay9 (BitVec.ofNat 32 (i 1).val) (BitVec.ofNat 32 (i 2).val) x0 x1 xs0 xs0) (k1_pay10 (BitVec.ofNat 32 (i 1).val) (BitVec.ofNat 32 (i 2).val) x0 x1 xs0) x2 xs2) (k1_pay11 (BitVec.ofNat 32 (i 1).val) (BitVec.ofNat 32 (i 2).val) x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_unit_zero (S := S1x512x64) hz3, View.readCov_unit_zero (S := S512x64) _ hz2, View.readCov_unit_zero (S := S512x1) _ hz2]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

/-! ## The last key tile above the diagonal: nothing taken in, the quotient stored -/

/-- The output block: the quotient of the carried weighted sum by the carried sum. -/
theorem outE3_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i) (x0 : Vec F S1x512x64 .bf16) (x1 : Vec F S1x512x64 .bf16) (x2 : Vec F S1x512x64 .bf16) (xs0 : Vec F S512x1 .f32) (xs1 : Vec F S512x1 .f32) (xs2 : Vec F S512x64 .f32) :
    out1_E_3 c i arg3 harg3 arg4 harg4 arg5 harg5 arg6 harg6 arg7 harg7 arg8 harg8 arg9 harg9 hc0 hc1 hc2 x0 x1 x2 xs0 xs1 xs2
      = k1_pay6 xs2 xs1 := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  rw [View.canon_unit_zero (S := S1x512x64) hz3]
  simp only [View.readAt_eq_ld, harg3.read_unread, harg4.read_unread, harg5.read_unread, harg7.read_unread, harg8.read_unread, harg9.read_unread,
    View.ld_unit_zero (S := S512x1) hz2, View.ld_unit_zero (S := S512x64) hz2, View.ld_unit_zero (S := S1x512x64) hz3]

end Cert.KernelIdeal.Val1

end
-- ==== Proof.LibRowRowDot.lean ====
/-
  A matrix product contracted on the LAST axis of both operands: [M, K] × [N, K] → [M, N] (rows against rows, the
  product with the second operand transposed), accumulated into zero. Over the extended reals its entry (p, c) is
  the sum over k of l(p, k) · r(c, k).

  The dimension record is any one whose operand indices have the four evident coordinates (a concrete record
  supplies them by computation): the left index at output (p, c) and contraction index k is (p, k), the right one
  is (c, k).
-/
import Idealize.ShloMosaic.Lib.ValueIdx
import Idealize.ShloMosaic.PureOps.Ideal.Laws

noncomputable section

namespace Cert.Lib

open Idealize.ShloMosaic Idealize.ShloMosaic.ValueIdx

/-- A `tpu.matmul` of an `[M, K]` and an `[N, K]` operand contracted on their last axes, into the zero accumulator,
    read at `(p, c)` over the extended reals: `∑ k, l (p, k) * r (c, k)`. -/
theorem matmul_zero_rows_rows {M N K : ℕ} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (j 1).val)
    (hr1 : ∀ (j : (⟨2, ![M, N]⟩ : Shape).Idx) (q : d.contr.Idx), (d.rhsIdx j q 1).val = (q ⟨0, by omega⟩).val)
    (prec : Option ContractPrecision) (l : FVec Ideal ⟨2, ![M, K]⟩ φ₁) (r : FVec Ideal ⟨2, ![N, K]⟩ φ₂)
    (p : Fin M) (c : Fin N) :
    FloatOps.matmul d prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 c k := funext fun a => Fin.ext (by
    match a with
    | ⟨0, _⟩ => exact hr0 _ _
    | ⟨1, _⟩ => exact (hr1 _ _).trans hk)
  rw [el, er]

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.PayAttn.lean ====
/-
  The values the attention kernel stores, read at an index over the extended reals.

  One grid step of the kernel handles a block of 512 query rows (block qi) against a block of 512 key rows (block ki)
  of one head. It forms the scaled scores (q · k) / 8, sets the scores of the keys a query may not see (key position
  above the query's) to −∞, takes the row maxima into the running maximum, rescales the running sum and the running
  weighted sum by e^(old maximum − new maximum) and adds the block's terms e^(score − new maximum) and
  e^(score − new maximum) · v. The first key block starts the running values at −∞, 0, 0; the last one divides the
  weighted sum by the sum. Each stored value is stated here as a formula of the loaded values at one index.
-/
import proofs.«181309_j90692529422468_2_alg».proof.Proof.Gen.KernelIdeal.Skeleton
import proofs.«181309_j90692529422468_2_alg».proof.Proof.LibRowRowDot
import proofs.«181309_j90692529422468_2_alg».proof.Proof.LibPlainDot
import proofs.«181309_j90692529422468_2_alg».proof.Proof.LibAxisMax
import proofs.«181309_j90692529422468_2_alg».proof.Proof.LibAxisSums
import proofs.«181309_j90692529422468_2_alg».proof.Proof.LibColumnBroadcast
import proofs.«181309_j90692529422468_2_alg».proof.Proof.LibColumnCast
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import Idealize.ShloMosaic.Lib.Affine

noncomputable section

namespace Cert.PayAttn

open Cert.KernelIdeal Cert.KernelIdeal.Gen Idealize.ShloMosaic Idealize.ShloMosaic.ValueIdx Cert.Lib

/-! ## The constants -/

/-- The pattern of +0.0 denotes 0. -/
theorem ofBits_zero : Ideal.ofBits .f32 0x00000000#32 = 0 := by
  simp [Ideal.ofBits, Ideal.ieee]

/-- The pattern of −∞ denotes −∞. -/
theorem ofBits_neg_inf : Ideal.ofBits .f32 0xFF800000#32 = ⊥ := by
  simp [Ideal.ofBits, Ideal.ieee]

/-- The pattern of 0.125 denotes 1/8. -/
theorem ofBits_eighth : Ideal.ofBits .f32 0x3E000000#32 = ((1 / 8 : ℝ) : EReal) := by
  simp [Ideal.ofBits, Ideal.ieee, -EReal.coe_mul]; norm_num

/-! ## The first key block's starting values -/

theorem pay1_apply (r : Fin 512) : k1_pay1 (F := Ideal) (ix2 r 0) = ⊥ := by
  unfold k1_pay1
  rw [shapeCast_self]
  exact ofBits_neg_inf

theorem pay2_apply (r : Fin 512) : k1_pay2 (F := Ideal) (ix2 r 0) = 0 := by
  unfold k1_pay2
  rw [shapeCast_self]
  exact ofBits_zero

theorem pay3_apply (r : Fin 512) (d : Fin 64) : k1_pay3 (F := Ideal) (ix2 r d) = 0 := by
  unfold k1_pay3
  rw [shapeCast_self]
  exact ofBits_zero

/-- The running maximum is stored as it is. -/
theorem pay5_apply (m : FVec Ideal S512x1 .f32) : k1_pay5 m = m := by
  unfold k1_pay5
  exact shapeCast_self m _

/-! ## A unit axis dropped or added -/

/-- A [1, 512, 64] array viewed as [512, 64] reads (0, p, e) at (p, e). -/
theorem cast_drop {α : Type} (x : S1x512x64.Idx → α) (h : S1x512x64.ShapeCasts S512x64) (p : Fin 512) (e : Fin 64) :
    shapeCast S512x64 x h (ix2 p e) = x (ix3 0 p e) :=
  shapeCast_apply x h _ _ (by
    rw [Shape.rowMajor_val_three, Shape.rowMajor_val_two]
    show (0 * 512 + p.val) * 64 + e.val = p.val * 64 + e.val
    omega)

/-- A [512, 64] array viewed as [1, 512, 64] reads (p, e) at (0, p, e). -/
theorem cast_add {α : Type} (x : S512x64.Idx → α) (h : S512x64.ShapeCasts S1x512x64) (p : Fin 512) (e : Fin 64) :
    shapeCast S1x512x64 x h (ix3 0 p e) = x (ix2 p e) :=
  shapeCast_apply x h _ _ (by
    rw [Shape.rowMajor_val_three, Shape.rowMajor_val_two]
    show p.val * 64 + e.val = (0 * 512 + p.val) * 64 + e.val
    omega)

/-! ## The last key block's quotient -/

theorem pay6_apply (acc : Vec Ideal S512x64 .f32) (l : Vec Ideal S512x1 .f32) (r : Fin 512) (d : Fin 64) :
    k1_pay6 acc l (ix3 0 r d) = Ideal.div (acc (ix2 r d)) (l (ix2 r 0)) := by
  unfold k1_pay6
  refine (cast_add _ _ r d).trans ?_
  rw [truncf_apply, divf_apply, broadcastTo_a1_ab_apply]

/-! ## The running weighted sum -/

theorem pay4_apply (α : FVec Ideal S512x1 .f32) (p : FVec Ideal S512x512 .f32) (v : Vec Ideal S1x512x64 .bf16)
    (acc : Vec Ideal S512x64 .f32) (r : Fin 512) (d : Fin 64) :
    k1_pay4 α p v acc (ix2 r d) = α (ix2 r 0) * acc (ix2 r d) + ∑ c : Fin 512, p (ix2 r c) * v (ix3 0 c d) := by
  unfold k1_pay4
  rw [shapeCast_self, addf_apply, mulf_apply, broadcastTo_a1_ab_apply]
  congr 1
  refine (matmul_zero_apply dot_S512x512_S512x64_S512x64_1_0_0_1_n_n_wf none _ _ r d).trans ?_
  refine Finset.sum_congr rfl fun c _ => ?_
  rw [truncf_apply, cast_drop]

/-! ## The masked scores -/

/-- The masking constant is −∞ over the extended reals. -/
theorem neg_big : Named.named (F := Ideal) κ "neg_big" (φ := .f32) 0xFF333333#32 = ⊥ :=
  IdealRules.named_const.ideal_named_scalar _ _ _ _ rfl

/-- The causal comparison on 32-bit words: with block numbers below 4 and positions below 512 nothing wraps, so
    "query position ≥ key position", signed, is the comparison of the natural numbers. -/
theorem mask_word (qi ki : Fin 4) (r c : Fin 512) :
    IntOp.cmpi .sge (IntOp.addi (BitVec.ofNat 32 r.val) (Scalar.muli (BitVec.ofNat 32 qi.val) 512#32))
        (IntOp.addi (BitVec.ofNat 32 c.val) (Scalar.muli (BitVec.ofNat 32 ki.val) 512#32)) = 1#1
      ↔ ki.val * 512 + c.val ≤ qi.val * 512 + r.val := by
  have hq := qi.isLt
  have hk := ki.isLt
  have hr := r.isLt
  have hc := c.isLt
  have h1 : Affine.IsInt (Scalar.addi (BitVec.ofNat 32 r.val) (Scalar.muli (BitVec.ofNat 32 qi.val) 512#32))
      ((r.val : Int) + (qi.val : Int) * 512) :=
    Affine.addi (Affine.ofNat r.val ⟨rfl, by omega⟩)
      (Affine.muli (Affine.ofNat qi.val ⟨rfl, by omega⟩) (Affine.ofNat 512 ⟨rfl, by omega⟩) ⟨rfl, by omega, by omega⟩)
      ⟨rfl, by omega, by omega⟩
  have h2 : Affine.IsInt (Scalar.addi (BitVec.ofNat 32 c.val) (Scalar.muli (BitVec.ofNat 32 ki.val) 512#32))
      ((c.val : Int) + (ki.val : Int) * 512) :=
    Affine.addi (Affine.ofNat c.val ⟨rfl, by omega⟩)
      (Affine.muli (Affine.ofNat ki.val ⟨rfl, by omega⟩) (Affine.ofNat 512 ⟨rfl, by omega⟩) ⟨rfl, by omega, by omega⟩)
      ⟨rfl, by omega, by omega⟩
  constructor
  · intro h
    by_contra hn
    exact Affine.sge_fails h1 h2 (by omega) h
  · intro h
    exact Affine.sge_holds h1 h2 (by omega)

/-- The unscaled scores: query row p against key row c, summed over the 64 features. -/
theorem scores_apply (q k : Vec Ideal S1x512x64 .bf16) (p c : Fin 512) :
    FloatOps.matmul (F := Ideal) (φ₁ := .bf16) (φ₂ := .bf16) dot_S512x64_S512x64_S512x512_1_1_0_0_n_n none
        (shapeCast S512x64 q shapeCasts_S1x512x64_S512x64) (shapeCast S512x64 k shapeCasts_S1x512x64_S512x64)
        (constant (F := Ideal) S512x512 .f32 0x00000000#32) (ix2 p c)
      = ∑ d : Fin 64, q (ix3 0 p d) * k (ix3 0 c d) := by
  refine (matmul_zero_rows_rows dot_S512x64_S512x64_S512x512_1_1_0_0_n_n rfl rfl
    (fun j x => rfl) (fun j x => DotDims.lhsIdx_val_of_single _ rfl j x)
    (fun j x => rfl) (fun j x => DotDims.rhsIdx_val_of_single _ rfl j x) none _ _ p c).trans ?_
  refine Finset.sum_congr rfl fun d _ => ?_
  rw [cast_drop, cast_drop]

theorem pay7_apply (qi ki : Fin 4) (q k : Vec Ideal S1x512x64 .bf16) (r c : Fin 512) :
    k1_pay7 (BitVec.ofNat 32 qi.val) (BitVec.ofNat 32 ki.val) q k (ix2 r c)
      = if ki.val * 512 + c.val ≤ qi.val * 512 + r.val
        then (∑ d : Fin 64, q (ix3 0 r d) * k (ix3 0 c d)) * ((1 / 8 : ℝ) : EReal) else ⊥ := by
  unfold k1_pay7
  show Scalar.select
      (IntOp.cmpi .sge
        (IntOp.addi (iota .tc S512x512 32 [0] iota_S512x512_d0_w32 (ix2 r c)) (Scalar.muli (BitVec.ofNat 32 qi.val) 512#32))
        (IntOp.addi (iota .tc S512x512 32 [1] iota_S512x512_d1_w32 (ix2 r c)) (Scalar.muli (BitVec.ofNat 32 ki.val) 512#32)))
      (FloatOps.matmul dot_S512x64_S512x64_S512x512_1_1_0_0_n_n none
          (shapeCast S512x64 q shapeCasts_S1x512x64_S512x64) (shapeCast S512x64 k shapeCasts_S1x512x64_S512x64)
          (constant (F := Ideal) S512x512 .f32 0x00000000#32) (ix2 r c) * Ideal.ofBits .f32 0x3E000000#32)
      (Named.named (F := Ideal) κ "neg_big" (φ := .f32) 0xFF333333#32) = _
  rw [iota_single_apply, iota_single_apply, scores_apply, ofBits_eighth, neg_big]
  unfold Scalar.select
  by_cases hP : ki.val * 512 + c.val ≤ qi.val * 512 + r.val
  · rw [if_pos hP]
    exact if_pos ((mask_word qi ki r c).mpr hP)
  · rw [if_neg hP]
    exact if_neg (fun h => hP ((mask_word qi ki r c).mp h))

/-! ## The running maximum, the rescaling factor, the block's weights, the running sum -/

theorem pay8_apply (a1 a2 : BitVec 32) (q k : Vec Ideal S1x512x64 .bf16) (m : Vec Ideal S512x1 .f32) (r : Fin 512) :
    k1_pay8 a1 a2 q k m (ix2 r 0)
      = max (m (ix2 r 0)) (Finset.univ.fold max (⊥ : EReal) fun c : Fin 512 => k1_pay7 a1 a2 q k (ix2 r c)) := by
  unfold k1_pay8
  rw [maximumf_apply]
  refine congrArg (max (m (ix2 r 0))) ?_
  refine (shapeCast_a_a1_apply _ _ r 0).trans ?_
  refine (rowMax_apply _ _ _ _ _ r).trans ?_
  rw [ofBits_neg_inf]

theorem pay9_apply (a1 a2 : BitVec 32) (q k : Vec Ideal S1x512x64 .bf16) (m m' : Vec Ideal S512x1 .f32) (r : Fin 512) :
    k1_pay9 a1 a2 q k m m' (ix2 r 0) = Ideal.exp (m' (ix2 r 0) - k1_pay8 a1 a2 q k m (ix2 r 0)) := rfl

theorem pay10_apply (a1 a2 : BitVec 32) (q k : Vec Ideal S1x512x64 .bf16) (m : Vec Ideal S512x1 .f32)
    (r c : Fin 512) :
    k1_pay10 a1 a2 q k m (ix2 r c)
      = Ideal.exp (k1_pay7 a1 a2 q k (ix2 r c) - k1_pay8 a1 a2 q k m (ix2 r 0)) := by
  unfold k1_pay10
  show Ideal.exp (k1_pay7 a1 a2 q k (ix2 r c)
    - broadcastTo S512x512 (k1_pay8 a1 a2 q k m) broadcasts_S512x1_S512x512 (ix2 r c)) = _
  rw [broadcastTo_a1_ab_apply]

theorem pay11_apply (a1 a2 : BitVec 32) (q k : Vec Ideal S1x512x64 .bf16) (m m' l : Vec Ideal S512x1 .f32)
    (r : Fin 512) :
    k1_pay11 a1 a2 q k m m' l (ix2 r 0)
      = k1_pay9 a1 a2 q k m m' (ix2 r 0) * l (ix2 r 0) + ∑ c : Fin 512, k1_pay10 a1 a2 q k m (ix2 r c) := by
  unfold k1_pay11
  rw [shapeCast_self, addf_apply, mulf_apply]
  congr 1
  refine (shapeCast_a_a1_apply _ _ r 0).trans ?_
  exact rowSum_apply _ _ _ _ _ r

end Cert.PayAttn

end
-- ==== Proof.PointStep.lean ====
/-
  One grid point of the attention kernel, for one query row and one feature, as one block step of the row's running
  maximum, sum and weighted sum.

  The grid point (qi, ki) takes the 512 query rows of block qi against the 512 keys of tile ki. Query row r of the block
  is the global row R = qi · 512 + r, whose allowed keys are those below L = R + 1. The kernel's masked scores of that
  row are the tile's logits with the keys at or beyond L at −∞; so the stored running maximum is the old one joined
  with the tile's maximum, and the stored sum and weighted sum are the old ones rescaled plus the tile's terms: one
  block step with first key b = ki · 512 and B = 512 keys. The first key block starts the running values at −∞, 0, 0
  (nothing seen); the last one stores the quotient, the softmax-weighted mean of the values over the allowed keys; a
  tile wholly beyond L leaves what has been seen as it is.
-/
import proofs.«181309_j90692529422468_2_alg».proof.Proof.PayAttn
import proofs.«181309_j90692529422468_2_alg».proof.Proof.LibFlashRow

noncomputable section

namespace Cert.PointStep

open Cert.KernelIdeal Cert.KernelIdeal.Gen Idealize.ShloMosaic Idealize.ShloMosaic.ValueIdx Cert.PayAttn

/-- The kernel's masked scores of query row r against key tile ki are the row's logits over that tile with the keys
    beyond the row's own position at −∞: key ki · 512 + c is at most the row's position qi · 512 + r exactly when it
    is below qi · 512 + r + 1. -/
theorem masked_row (qi ki : Fin 4) (Q K : Vec Ideal S1x512x64 .bf16) (r : Fin 512) (z : ℕ → ℝ)
    (hz : ∀ c : Fin 512, (∑ e : Fin 64, Q (ix3 0 r e) * K (ix3 0 c e)) * ((1 / 8 : ℝ) : EReal)
      = ((z (ki.val * 512 + c.val) : ℝ) : EReal)) (c : Fin 512) :
    k1_pay7 (BitVec.ofNat 32 qi.val) (BitVec.ofNat 32 ki.val) Q K (ix2 r c)
      = Cert.FlashRow.masked z (qi.val * 512 + r.val + 1) (ki.val * 512) 512 c := by
  rw [pay7_apply]
  unfold Cert.FlashRow.masked
  by_cases hc : ki.val * 512 + c.val ≤ qi.val * 512 + r.val
  · rw [if_pos hc, if_pos (by omega), hz c]
  · rw [if_neg hc, if_neg (by omega)]

/-- The stored running maximum: the old one joined with the tile's maximum. -/
theorem max_row (qi ki : Fin 4) (Q K : Vec Ideal S1x512x64 .bf16) (m : Vec Ideal S512x1 .f32) (r : Fin 512) (z : ℕ → ℝ)
    (hz : ∀ c : Fin 512, (∑ e : Fin 64, Q (ix3 0 r e) * K (ix3 0 c e)) * ((1 / 8 : ℝ) : EReal)
      = ((z (ki.val * 512 + c.val) : ℝ) : EReal)) :
    k1_pay8 (BitVec.ofNat 32 qi.val) (BitVec.ofNat 32 ki.val) Q K m (ix2 r 0)
      = max (m (ix2 r 0)) (Cert.FlashRow.blockMax z (qi.val * 512 + r.val + 1) (ki.val * 512) 512) := by
  rw [pay8_apply]
  unfold Cert.FlashRow.blockMax
  refine congrArg (max (m (ix2 r 0))) ?_
  exact congrArg (fun f => (Finset.univ : Finset (Fin 512)).fold max (⊥ : EReal) f) (funext (masked_row qi ki Q K r z hz))

/-- ONE GRID POINT IS ONE BLOCK STEP of row r, feature d. -/
theorem point_step (qi ki : Fin 4) (hk : ki.val ≤ qi.val) (Q K Vb : Vec Ideal S1x512x64 .bf16)
    (m l : Vec Ideal S512x1 .f32) (acc : Vec Ideal S512x64 .f32) (r : Fin 512) (d : Fin 64) (z h : ℕ → ℝ)
    (hz : ∀ c : Fin 512, (∑ e : Fin 64, Q (ix3 0 r e) * K (ix3 0 c e)) * ((1 / 8 : ℝ) : EReal)
      = ((z (ki.val * 512 + c.val) : ℝ) : EReal))
    (hv : ∀ c : Fin 512, Vb (ix3 0 c d) = ((h (ki.val * 512 + c.val) : ℝ) : EReal))
    (hs : Cert.FlashRow.Seen z h (ki.val * 512) (m (ix2 r 0)) (l (ix2 r 0)) (acc (ix2 r d))) :
    Cert.FlashRow.Seen z h (min (ki.val * 512 + 512) (qi.val * 512 + r.val + 1))
      (k1_pay8 (BitVec.ofNat 32 qi.val) (BitVec.ofNat 32 ki.val) Q K m (ix2 r 0))
      (k1_pay11 (BitVec.ofNat 32 qi.val) (BitVec.ofNat 32 ki.val) Q K m m l (ix2 r 0))
      (k1_pay4 (k1_pay9 (BitVec.ofNat 32 qi.val) (BitVec.ofNat 32 ki.val) Q K m m)
        (k1_pay10 (BitVec.ofNat 32 qi.val) (BitVec.ofNat 32 ki.val) Q K m) Vb acc (ix2 r d)) := by
  have hr := r.isLt
  have key := Cert.FlashRow.step z h (L := qi.val * 512 + r.val + 1) (b := ki.val * 512) (B := 512)
    (by norm_num) (by omega) hs
  rw [pay11_apply, pay4_apply, pay9_apply]
  simp only [pay10_apply, masked_row qi ki Q K r z hz, max_row qi ki Q K m r z hz, hv]
  exact key

/-- The first key block's starting values: nothing seen. -/
theorem point_init (r : Fin 512) (d : Fin 64) (z h : ℕ → ℝ) :
    Cert.FlashRow.Seen z h 0 (k1_pay1 (F := Ideal) (ix2 r 0)) (k1_pay2 (F := Ideal) (ix2 r 0))
      (k1_pay3 (F := Ideal) (ix2 r d)) :=
  Or.inl ⟨rfl, pay1_apply r, pay2_apply r, pay3_apply r d⟩

/-- The last key block's stored quotient: once every allowed key has been seen, the softmax-weighted mean. -/
theorem point_final (acc : Vec Ideal S512x64 .f32) (l : Vec Ideal S512x1 .f32) (m : EReal) (r : Fin 512) (d : Fin 64)
    (z h : ℕ → ℝ) {L : ℕ} (hL : 0 < L) (hs : Cert.FlashRow.Seen z h L m (l (ix2 r 0)) (acc (ix2 r d))) (μ₀ : ℝ) :
    k1_pay6 acc l (ix3 0 r d) = ((Cert.Pool.wsum z h 0 L μ₀ / Cert.Pool.lsum z 0 L μ₀ : ℝ) : EReal) := by
  rw [pay6_apply]
  exact Cert.FlashRow.quotient z h hL hs μ₀

/-- A tile wholly beyond the last allowed key changes nothing: before and after it the keys seen are those below L. -/
theorem seen_skip (z h : ℕ → ℝ) {L b B : ℕ} (hb : L ≤ b) {m l a : EReal}
    (hs : Cert.FlashRow.Seen z h (min b L) m l a) : Cert.FlashRow.Seen z h (min (b + B) L) m l a := by
  rw [min_eq_right hb] at hs
  rw [min_eq_right (le_trans hb (Nat.le_add_right b B))]
  exact hs

end Cert.PointStep

end
-- ==== Proof.Val1Rows.lean ====
/-
  The attention kernel along one row of key tiles: for each query row of a query tile, what the three scratch buffers
  hold after each key tile, and what the output block holds after the last.

  Fix a (head, batch) slab whose projected queries, keys and values are real arrays Qr, Kr, Vr. Query row r of query
  tile qi is the slab's row R = qi · 512 + r; its logits against the keys are z n = (Σ_e Qr R e · Kr n e) / 8 and its
  allowed keys are n ≤ R. After key tile ki the running maximum, sum and weighted sum of (row r, feature d) have seen
  the keys below min ((ki + 1) · 512) (R + 1): key tile 0 starts from nothing seen, a tile not above the diagonal is one
  block step, a tile above it changes nothing and has nothing left to show. After key tile 3 every allowed key has been
  seen, and the stored quotient is the softmax-weighted mean of the values over the keys n ≤ R.
-/
import proofs.«181309_j90692529422468_2_alg».proof.Proof.Val1Pieces
import proofs.«181309_j90692529422468_2_alg».proof.Proof.PointStep

set_option maxRecDepth 16384

noncomputable section

namespace Cert.KernelIdeal.Val1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

/-! ## The row's logits and values as real functions of the key -/

/-- The scaled score of query row R against key n (zero beyond the last key: never read). -/
def zOf (Qr Kr : Fin 2048 → Fin 64 → ℝ) (R : Fin 2048) (n : ℕ) : ℝ :=
  if hn : n < 2048 then (∑ e : Fin 64, Qr R e * Kr ⟨n, hn⟩ e) * (1 / 8) else 0

/-- Feature d of the value at key n (zero beyond the last key: never read). -/
def hOf (Vr : Fin 2048 → Fin 64 → ℝ) (d : Fin 64) (n : ℕ) : ℝ :=
  if hn : n < 2048 then Vr ⟨n, hn⟩ d else 0

/-- A scaled dot product of real rows, taken on the extended reals, is the real one. -/
theorem score_real (Qr Kr : Fin 2048 → Fin 64 → ℝ) (R : Fin 2048) (n : ℕ) (hn : n < 2048) (f g : Fin 64 → EReal)
    (hf : ∀ e, f e = ((Qr R e : ℝ) : EReal)) (hg : ∀ e, g e = ((Kr ⟨n, hn⟩ e : ℝ) : EReal)) :
    (∑ e : Fin 64, f e * g e) * ((1 / 8 : ℝ) : EReal) = ((zOf Qr Kr R n : ℝ) : EReal) := by
  unfold zOf
  rw [dif_pos hn, EReal.coe_mul, Cert.Pool.coe_sum]
  refine congrArg (· * ((1 / 8 : ℝ) : EReal)) (Finset.sum_congr rfl fun e _ => ?_)
  rw [hf e, hg e, EReal.coe_mul]

/-! ## The grid, decided once -/

/-- Point t is (slab t / 16, query tile t / 4 % 4, key tile t % 4). -/
theorem coords_facts : ∀ t : Fin cfg1.N,
    (grid1.coords t (0 : Fin 3)).val = t.val / 16 ∧ (grid1.coords t (1 : Fin 3)).val = t.val / 4 % 4
      ∧ (grid1.coords t (2 : Fin 3)).val = t.val % 4 :=
  (by decide +kernel : ∀ t : Fin grid1.N,
    (grid1.coords t (0 : Fin 3)).val = t.val / 16 ∧ (grid1.coords t (1 : Fin 3)).val = t.val / 4 % 4
      ∧ (grid1.coords t (2 : Fin 3)).val = t.val % 4)

/-- The printed index maps over the grid: the query and output blocks are (slab, query tile); the key and value blocks
    are (slab, the smaller of the key tile and the query tile). -/
theorem idx_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4)
    ∧ win1_1.index t (2 : Fin 3) = 0
    ∧ win1_2.index t (0 : Fin 3) = t.val / 16 ∧ win1_2.index t (1 : Fin 3) = min (t.val % 4) (t.val / 4 % 4)
    ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4)
    ∧ win1_1.index t (2 : Fin 3) = 0
    ∧ win1_2.index t (0 : Fin 3) = t.val / 16 ∧ win1_2.index t (1 : Fin 3) = min (t.val % 4) (t.val / 4 % 4)
    ∧ win1_2.index t (2 : Fin 3) = 0
    ∧ win1_3.index t (0 : Fin 3) = t.val / 16 ∧ win1_3.index t (1 : Fin 3) = t.val / 4 % 4 ∧ win1_3.index t (2 : Fin 3) = 0)

/-! ## The input blocks read at coordinates -/

section Blocks
variable (V : (c : Dev nD) → (b : Ref sig .tc) → Buf (Elt Ideal) ((c : Thread nD τ).loc b))

/-- The three input blocks of a point, at their literal shape. -/
abbrev blkQ (c : Dev nD) (t : Fin cfg1.N) : Vec Ideal S1x512x64 .bf16 := iblk1 V c 0 t
abbrev blkK (c : Dev nD) (t : Fin cfg1.N) : Vec Ideal S1x512x64 .bf16 := iblk1 V c 1 t
abbrev blkV (c : Dev nD) (t : Fin cfg1.N) : Vec Ideal S1x512x64 .bf16 := iblk1 V c 2 t

/-- The three arrays the region finds, at their literal shape. -/
abbrev arrQ (c : Dev nD) : Vec Ideal S64x2048x64 .bf16 := V c main_v8
abbrev arrK (c : Dev nD) : Vec Ideal S64x2048x64 .bf16 := V c main_v9
abbrev arrV (c : Dev nD) : Vec Ideal S64x2048x64 .bf16 := V c main_v10

/-- A point's query block is rows qi · 512 … of its slab. -/
theorem blkQ_apply (c : Dev nD) (t : Fin cfg1.N) (r : Fin 512) (e : Fin 64) (p : Fin 64) (n : Fin 2048)
    (hp : p.val = t.val / 16) (hn : n.val = t.val / 4 % 4 * 512 + r.val) :
    blkQ V c t (ix3 0 r e) = arrQ V c (ix3 p n e) := by
  obtain ⟨e0, e1, e2, -⟩ := idx_facts t
  show V c main_v8 (((cfg1.win 0).blk t).view.emb (ix3 0 r e)) = V c main_v8 (ix3 p n e)
  refine congrArg (V c main_v8) (funext fun a => Fin.ext ?_)
  match a with
  | ⟨0, _⟩ => show win1_0.index t (0 : Fin 3) * 1 + 1 * 0 = p.val; omega
  | ⟨1, _⟩ => show win1_0.index t (1 : Fin 3) * 512 + 1 * r.val = n.val; omega
  | ⟨2, _⟩ => show win1_0.index t (2 : Fin 3) * 64 + 1 * e.val = e.val; omega

/-- At a key tile not above the diagonal, a point's key block is keys ki · 512 … of its slab. -/
theorem blkK_apply (c : Dev nD) (t : Fin cfg1.N) (hle : t.val % 4 ≤ t.val / 4 % 4) (s : Fin 512) (e : Fin 64) (p : Fin 64)
    (n : Fin 2048) (hp : p.val = t.val / 16) (hn : n.val = t.val % 4 * 512 + s.val) :
    blkK V c t (ix3 0 s e) = arrK V c (ix3 p n e) := by
  obtain ⟨-, -, -, e0, e1, e2, -⟩ := idx_facts t
  show V c main_v9 (((cfg1.win 1).blk t).view.emb (ix3 0 s e)) = V c main_v9 (ix3 p n e)
  refine congrArg (V c main_v9) (funext fun a => Fin.ext ?_)
  match a with
  | ⟨0, _⟩ => show win1_1.index t (0 : Fin 3) * 1 + 1 * 0 = p.val; omega
  | ⟨1, _⟩ => show win1_1.index t (1 : Fin 3) * 512 + 1 * s.val = n.val; rw [e1, min_eq_left hle]; omega
  | ⟨2, _⟩ => show win1_1.index t (2 : Fin 3) * 64 + 1 * e.val = e.val; omega

/-- … and its value block the values at those keys. -/
theorem blkV_apply (c : Dev nD) (t : Fin cfg1.N) (hle : t.val % 4 ≤ t.val / 4 % 4) (s : Fin 512) (e : Fin 64) (p : Fin 64)
    (n : Fin 2048) (hp : p.val = t.val / 16) (hn : n.val = t.val % 4 * 512 + s.val) :
    blkV V c t (ix3 0 s e) = arrV V c (ix3 p n e) := by
  obtain ⟨-, -, -, -, -, -, e0, e1, e2, -⟩ := idx_facts t
  show V c main_v10 (((cfg1.win 2).blk t).view.emb (ix3 0 s e)) = V c main_v10 (ix3 p n e)
  refine congrArg (V c main_v10) (funext fun a => Fin.ext ?_)
  match a with
  | ⟨0, _⟩ => show win1_2.index t (0 : Fin 3) * 1 + 1 * 0 = p.val; omega
  | ⟨1, _⟩ => show win1_2.index t (1 : Fin 3) * 512 + 1 * s.val = n.val; rw [e1, min_eq_left hle]; omega
  | ⟨2, _⟩ => show win1_2.index t (2 : Fin 3) * 64 + 1 * e.val = e.val; omega

end Blocks

/-! ## One point of a row of key tiles -/

section Points
variable (V : (c : Dev nD) → (b : Ref sig .tc) → Buf (Elt Ideal) ((c : Thread nD τ).loc b))

open Cert.PayAttn Cert.PointStep

/-- One block step, with the tile numbers as the point's grid coordinates. -/
theorem point_step_at (t : Fin cfg1.N) (hle : t.val % 4 ≤ t.val / 4 % 4) (Q K Vb : Vec Ideal S1x512x64 .bf16)
    (m l : Vec Ideal S512x1 .f32) (acc : Vec Ideal S512x64 .f32) (r : Fin 512) (d : Fin 64) (z h : ℕ → ℝ)
    (hz : ∀ s : Fin 512, (∑ e : Fin 64, Q (ix3 0 r e) * K (ix3 0 s e)) * ((1 / 8 : ℝ) : EReal)
      = ((z (t.val % 4 * 512 + s.val) : ℝ) : EReal))
    (hv : ∀ s : Fin 512, Vb (ix3 0 s d) = ((h (t.val % 4 * 512 + s.val) : ℝ) : EReal))
    (hs : Cert.FlashRow.Seen z h (t.val % 4 * 512) (m (ix2 r 0)) (l (ix2 r 0)) (acc (ix2 r d))) :
    Cert.FlashRow.Seen z h (min (t.val % 4 * 512 + 512) (t.val / 4 % 4 * 512 + r.val + 1))
      (k1_pay8 (BitVec.ofNat 32 (grid1.coords t (1 : Fin 3)).val) (BitVec.ofNat 32 (grid1.coords t (2 : Fin 3)).val) Q K m (ix2 r 0))
      (k1_pay11 (BitVec.ofNat 32 (grid1.coords t (1 : Fin 3)).val) (BitVec.ofNat 32 (grid1.coords t (2 : Fin 3)).val) Q K m m l (ix2 r 0))
      (k1_pay4 (k1_pay9 (BitVec.ofNat 32 (grid1.coords t (1 : Fin 3)).val) (BitVec.ofNat 32 (grid1.coords t (2 : Fin 3)).val) Q K m m)
        (k1_pay10 (BitVec.ofNat 32 (grid1.coords t (1 : Fin 3)).val) (BitVec.ofNat 32 (grid1.coords t (2 : Fin 3)).val) Q K m) Vb acc (ix2 r d)) := by
  obtain ⟨-, e1, e2⟩ := coords_facts t
  rw [e1, e2]
  exact point_step ⟨t.val / 4 % 4, Nat.mod_lt _ (by decide)⟩ ⟨t.val % 4, Nat.mod_lt _ (by decide)⟩ hle Q K Vb m l acc r d z h hz hv hs

/-- Key tile 0: from nothing seen, one block step. -/
theorem seen_A (c : Dev nD) (t : Fin cfg1.N) (h0 : t.val % 4 = 0) (r : Fin 512) (d : Fin 64) (z h : ℕ → ℝ)
    (hz : ∀ s : Fin 512, (∑ e : Fin 64, blkQ V c t (ix3 0 r e) * blkK V c t (ix3 0 s e)) * ((1 / 8 : ℝ) : EReal)
      = ((z (t.val % 4 * 512 + s.val) : ℝ) : EReal))
    (hv : ∀ s : Fin 512, blkV V c t (ix3 0 s d) = ((h (t.val % 4 * 512 + s.val) : ℝ) : EReal)) :
    Cert.FlashRow.Seen z h (min (t.val % 4 * 512 + 512) (t.val / 4 % 4 * 512 + r.val + 1))
      ((outsAt1 V c t.val t.isLt).2.1 (ix2 r 0)) ((outsAt1 V c t.val t.isLt).2.2.1 (ix2 r 0))
      ((outsAt1 V c t.val t.isLt).2.2.2 (ix2 r d)) := by
  have h1 : t.val % 4 ≤ t.val / 4 % 4 := by omega
  have h2 : ¬t.val % 4 = 3 := by omega
  rw [outsAt1_A V c t h0 h1 h2]
  unfold stepA1
  dsimp only
  rw [soutA0_eq, soutA1_eq, soutA2_eq, pay5_apply]
  refine point_step_at t h1 (blkQ V c t) (blkK V c t) (blkV V c t) (k1_pay1 (F := Ideal)) (k1_pay2 (F := Ideal))
    (k1_pay3 (F := Ideal)) r d z h hz hv ?_
  rw [h0]
  exact point_init r d z h

/-- A later key tile not above the diagonal: from what the point before left, one block step. -/
theorem seen_BC (c : Dev nD) (t : Fin cfg1.N) (h0 : ¬t.val % 4 = 0) (h1 : t.val % 4 ≤ t.val / 4 % 4) (r : Fin 512)
    (d : Fin 64) (z h : ℕ → ℝ)
    (hz : ∀ s : Fin 512, (∑ e : Fin 64, blkQ V c t (ix3 0 r e) * blkK V c t (ix3 0 s e)) * ((1 / 8 : ℝ) : EReal)
      = ((z (t.val % 4 * 512 + s.val) : ℝ) : EReal))
    (hv : ∀ s : Fin 512, blkV V c t (ix3 0 s d) = ((h (t.val % 4 * 512 + s.val) : ℝ) : EReal))
    (hs : Cert.FlashRow.Seen z h (t.val % 4 * 512)
      ((outsAt1 V c (t.val - 1) (Nat.lt_of_le_of_lt (Nat.sub_le _ _) t.isLt)).2.1 (ix2 r 0))
      ((outsAt1 V c (t.val - 1) (Nat.lt_of_le_of_lt (Nat.sub_le _ _) t.isLt)).2.2.1 (ix2 r 0))
      ((outsAt1 V c (t.val - 1) (Nat.lt_of_le_of_lt (Nat.sub_le _ _) t.isLt)).2.2.2 (ix2 r d))) :
    Cert.FlashRow.Seen z h (min (t.val % 4 * 512 + 512) (t.val / 4 % 4 * 512 + r.val + 1))
      ((outsAt1 V c t.val t.isLt).2.1 (ix2 r 0)) ((outsAt1 V c t.val t.isLt).2.2.1 (ix2 r 0))
      ((outsAt1 V c t.val t.isLt).2.2.2 (ix2 r d)) := by
  by_cases h2 : t.val % 4 = 3
  · rw [outsAt1_C V c t h0 h1 h2]
    unfold stepC1
    dsimp only
    rw [soutC0_eq, soutC1_eq, soutC2_eq, pay5_apply]
    exact point_step_at t h1 (blkQ V c t) (blkK V c t) (blkV V c t) _ _ _ r d z h hz hv hs
  · rw [outsAt1_B V c t h0 h1 h2]
    unfold stepB1
    dsimp only
    rw [soutB0_eq, soutB1_eq, soutB2_eq, pay5_apply]
    exact point_step_at t h1 (blkQ V c t) (blkK V c t) (blkV V c t) _ _ _ r d z h hz hv hs

/-- A key tile above the diagonal leaves the three running quantities as the point before left them. -/
theorem scratch_DE (c : Dev nD) (t : Fin cfg1.N) (h0 : ¬t.val % 4 = 0) (h1 : ¬t.val % 4 ≤ t.val / 4 % 4) :
    (outsAt1 V c t.val t.isLt).2 = (outsAt1 V c (t.val - 1) (Nat.lt_of_le_of_lt (Nat.sub_le _ _) t.isLt)).2 := by
  by_cases h2 : t.val % 4 = 3
  · rw [outsAt1_E V c t h0 h1 h2]
    rfl
  · rw [outsAt1_D V c t h0 h1 h2]
    rfl

/-- At key tile 3 the output block is the quotient of the running weighted sum by the running sum, both as the
    point leaves them. -/
theorem out_last (c : Dev nD) (t : Fin cfg1.N) (h2 : t.val % 4 = 3) :
    (outsAt1 V c t.val t.isLt).1
      = k1_pay6 (outsAt1 V c t.val t.isLt).2.2.2 (outsAt1 V c t.val t.isLt).2.2.1 := by
  have h0 : ¬t.val % 4 = 0 := by omega
  by_cases h1 : t.val % 4 ≤ t.val / 4 % 4
  · rw [outsAt1_C V c t h0 h1 h2]
    unfold stepC1
    dsimp only
    rw [outC3_eq, soutC1_eq, soutC2_eq]
  · rw [outsAt1_E V c t h0 h1 h2]
    unfold stepE1
    dsimp only
    rw [outE3_eq]

end Points

/-! ## Along a row of key tiles -/

section Row
variable (V : (c : Dev nD) → (b : Ref sig .tc) → Buf (Elt Ideal) ((c : Thread nD τ).loc b))

open Cert.PayAttn Cert.PointStep

/-- At a key tile not above the diagonal, the tile's scaled scores of row r are the row's logits at the tile's keys. -/
theorem scores_of (c : Dev nD) (q k : S64x2048x64.Idx → EReal) (hq : q = V c main_v8) (hk : k = V c main_v9) (bh : Fin 64)
    (Qr Kr : Fin 2048 → Fin 64 → ℝ) (hQ : ∀ n e, q (ix3 bh n e) = ((Qr n e : ℝ) : EReal))
    (hK : ∀ n e, k (ix3 bh n e) = ((Kr n e : ℝ) : EReal)) (t : Fin cfg1.N) (hb : t.val / 16 = bh.val)
    (hle : t.val % 4 ≤ t.val / 4 % 4) (r : Fin 512) (R : Fin 2048) (hR : R.val = t.val / 4 % 4 * 512 + r.val) (s : Fin 512) :
    (∑ e : Fin 64, blkQ V c t (ix3 0 r e) * blkK V c t (ix3 0 s e)) * ((1 / 8 : ℝ) : EReal)
      = ((zOf Qr Kr R (t.val % 4 * 512 + s.val) : ℝ) : EReal) := by
  have hs := s.isLt
  have hn : t.val % 4 * 512 + s.val < 2048 := by omega
  exact score_real Qr Kr R _ hn _ _
    (fun e => (blkQ_apply V c t r e bh R hb.symm hR).trans ((congrFun hq.symm _).trans (hQ R e)))
    (fun e => (blkK_apply V c t hle s e bh ⟨_, hn⟩ hb.symm rfl).trans ((congrFun hk.symm _).trans (hK ⟨_, hn⟩ e)))

/-- … and the tile's values, at feature d, are the row's values at the tile's keys. -/
theorem values_of (c : Dev nD) (v : S64x2048x64.Idx → EReal) (hv : v = V c main_v10) (bh : Fin 64)
    (Vr : Fin 2048 → Fin 64 → ℝ) (hV : ∀ n e, v (ix3 bh n e) = ((Vr n e : ℝ) : EReal)) (t : Fin cfg1.N)
    (hb : t.val / 16 = bh.val) (hle : t.val % 4 ≤ t.val / 4 % 4) (d : Fin 64) (s : Fin 512) :
    blkV V c t (ix3 0 s d) = ((hOf Vr d (t.val % 4 * 512 + s.val) : ℝ) : EReal) := by
  have hs := s.isLt
  have hn : t.val % 4 * 512 + s.val < 2048 := by omega
  unfold hOf
  rw [dif_pos hn]
  exact (blkV_apply V c t hle s d bh ⟨_, hn⟩ hb.symm rfl).trans ((congrFun hv.symm _).trans (hV ⟨_, hn⟩ d))

/-- ONE POINT: if, unless this is key tile 0, the point before left the keys below min (ki · 512) (R + 1) seen, this
    point leaves the keys below min ((ki + 1) · 512) (R + 1) seen. -/
theorem row_step (c : Dev nD) (q k v : S64x2048x64.Idx → EReal) (hq : q = V c main_v8) (hk : k = V c main_v9)
    (hv : v = V c main_v10) (bh : Fin 64) (Qr Kr Vr : Fin 2048 → Fin 64 → ℝ)
    (hQ : ∀ n e, q (ix3 bh n e) = ((Qr n e : ℝ) : EReal)) (hK : ∀ n e, k (ix3 bh n e) = ((Kr n e : ℝ) : EReal))
    (hV : ∀ n e, v (ix3 bh n e) = ((Vr n e : ℝ) : EReal)) (t : Fin cfg1.N) (hb : t.val / 16 = bh.val) (r : Fin 512)
    (d : Fin 64) (R : Fin 2048) (hR : R.val = t.val / 4 % 4 * 512 + r.val)
    (hprev : ¬t.val % 4 = 0 → Cert.FlashRow.Seen (zOf Qr Kr R) (hOf Vr d) (min (t.val % 4 * 512) (R.val + 1))
      ((outsAt1 V c (t.val - 1) (Nat.lt_of_le_of_lt (Nat.sub_le _ _) t.isLt)).2.1 (ix2 r 0))
      ((outsAt1 V c (t.val - 1) (Nat.lt_of_le_of_lt (Nat.sub_le _ _) t.isLt)).2.2.1 (ix2 r 0))
      ((outsAt1 V c (t.val - 1) (Nat.lt_of_le_of_lt (Nat.sub_le _ _) t.isLt)).2.2.2 (ix2 r d))) :
    Cert.FlashRow.Seen (zOf Qr Kr R) (hOf Vr d) (min (t.val % 4 * 512 + 512) (R.val + 1))
      ((outsAt1 V c t.val t.isLt).2.1 (ix2 r 0)) ((outsAt1 V c t.val t.isLt).2.2.1 (ix2 r 0))
      ((outsAt1 V c t.val t.isLt).2.2.2 (ix2 r d)) := by
  have hr := r.isLt
  by_cases h0 : t.val % 4 = 0
  · have hle : t.val % 4 ≤ t.val / 4 % 4 := by omega
    rw [hR]
    exact seen_A V c t h0 r d _ _ (scores_of V c q k hq hk bh Qr Kr hQ hK t hb hle r R hR)
      (values_of V c v hv bh Vr hV t hb hle d)
  · have hp := hprev h0
    by_cases h1 : t.val % 4 ≤ t.val / 4 % 4
    · rw [min_eq_left (by omega)] at hp
      rw [hR]
      exact seen_BC V c t h0 h1 r d _ _ (scores_of V c q k hq hk bh Qr Kr hQ hK t hb h1 r R hR)
        (values_of V c v hv bh Vr hV t hb h1 d) hp
    · rw [scratch_DE V c t h0 h1]
      exact seen_skip _ _ (by omega) hp

/-- THE INVARIANT: after point n of slab bh — query tile n / 4 % 4, key tile n % 4 — row r, feature d have seen the
    keys below min ((n % 4 + 1) · 512) (R + 1), R the slab's row of (query tile, r). -/
theorem row_seen (c : Dev nD) (q k v : S64x2048x64.Idx → EReal) (hq : q = V c main_v8) (hk : k = V c main_v9)
    (hv : v = V c main_v10) (bh : Fin 64) (Qr Kr Vr : Fin 2048 → Fin 64 → ℝ)
    (hQ : ∀ n e, q (ix3 bh n e) = ((Qr n e : ℝ) : EReal)) (hK : ∀ n e, k (ix3 bh n e) = ((Kr n e : ℝ) : EReal))
    (hV : ∀ n e, v (ix3 bh n e) = ((Vr n e : ℝ) : EReal)) :
    ∀ (n : ℕ) (hn : n < cfg1.N), n / 16 = bh.val → ∀ (r : Fin 512) (d : Fin 64) (R : Fin 2048),
      R.val = n / 4 % 4 * 512 + r.val →
      Cert.FlashRow.Seen (zOf Qr Kr R) (hOf Vr d) (min (n % 4 * 512 + 512) (R.val + 1))
        ((outsAt1 V c n hn).2.1 (ix2 r 0)) ((outsAt1 V c n hn).2.2.1 (ix2 r 0)) ((outsAt1 V c n hn).2.2.2 (ix2 r d)) := by
  intro n
  induction n with
  | zero =>
    intro hn hb r d R hR
    exact row_step V c q k v hq hk hv bh Qr Kr Vr hQ hK hV ⟨0, hn⟩ hb r d R hR (fun h => absurd rfl h)
  | succ n ih =>
    intro hn hb r d R hR
    refine row_step V c q k v hq hk hv bh Qr Kr Vr hQ hK hV ⟨n + 1, hn⟩ hb r d R hR (fun h0 => ?_)
    have h0' : ¬(n + 1) % 4 = 0 := h0
    have e : (n + 1) % 4 * 512 = n % 4 * 512 + 512 := by omega
    have := ih (Nat.lt_of_succ_lt hn) (by omega) r d R (by omega)
    show Cert.FlashRow.Seen _ _ (min ((n + 1) % 4 * 512) (R.val + 1)) _ _ _
    rw [e]
    exact this

/-- THE OUTPUT BLOCK at key tile 3: at (row r, feature d), the softmax-weighted mean of the values over the keys n ≤ R. -/
theorem block_out (c : Dev nD) (q k v : S64x2048x64.Idx → EReal) (hq : q = V c main_v8) (hk : k = V c main_v9)
    (hv : v = V c main_v10) (bh : Fin 64) (Qr Kr Vr : Fin 2048 → Fin 64 → ℝ)
    (hQ : ∀ n e, q (ix3 bh n e) = ((Qr n e : ℝ) : EReal)) (hK : ∀ n e, k (ix3 bh n e) = ((Kr n e : ℝ) : EReal))
    (hV : ∀ n e, v (ix3 bh n e) = ((Vr n e : ℝ) : EReal)) (t : Fin cfg1.N) (h2 : t.val % 4 = 3)
    (hb : t.val / 16 = bh.val) (r : Fin 512) (d : Fin 64) (R : Fin 2048) (hR : R.val = t.val / 4 % 4 * 512 + r.val) :
    (outsAt1 V c t.val t.isLt).1 (ix3 0 r d)
      = ((Cert.Pool.wsum (zOf Qr Kr R) (hOf Vr d) 0 (R.val + 1) 0 / Cert.Pool.lsum (zOf Qr Kr R) 0 (R.val + 1) 0 : ℝ) : EReal) := by
  have hRlt := R.isLt
  have hs := row_seen V c q k v hq hk hv bh Qr Kr Vr hQ hK hV t.val t.isLt hb r d R hR
  have e : min (t.val % 4 * 512 + 512) (R.val + 1) = R.val + 1 := min_eq_right (by omega)
  rw [e] at hs
  rw [out_last V c t h2]
  exact point_final _ _ _ r d _ _ (Nat.succ_pos _) hs 0

end Row

end Cert.KernelIdeal.Val1

end
-- ==== Proof.Val1.lean ====
/-
  The attention kernel's output array. Each (slab, query tile) block is written back once, after key tile 3, holding at
  (row r, feature d) the softmax-weighted mean of the slab's values over the keys n ≤ R, R the slab's row of (query
  tile, r); the blocks tile the array. So for a slab whose projected queries, keys and values are real arrays, the
  array's entry (slab, R, d) is that mean: the causal attention of row R.
-/
import proofs.«181309_j90692529422468_2_alg».proof.Proof.Val1Rows

set_option maxRecDepth 16384

noncomputable section

namespace Cert.KernelIdeal.Val1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

section Final
variable (V : (c : Dev nD) → (b : Ref sig .tc) → Buf (Elt Ideal) ((c : Thread nD τ).loc b))

/-- The causal attention of row R at feature d: the softmax-weighted mean of the values over the keys n ≤ R. -/
def rowMean (Qr Kr Vr : Fin 2048 → Fin 64 → ℝ) (R : Fin 2048) (d : Fin 64) : EReal :=
  ((Cert.Pool.wsum (zOf Qr Kr R) (hOf Vr d) 0 (R.val + 1) 0 / Cert.Pool.lsum (zOf Qr Kr R) 0 (R.val + 1) 0 : ℝ) : EReal)

/-- "If the index is in slab bh, the entry is the given function of its row and feature." -/
def OutIs (c : Dev nD) (bh : Fin 64) (tgt : Fin 2048 → Fin 64 → EReal) :
    ((cfg1.win 3).arr.view.loc (c.tc : Thread nD τ)).2.ty.Idx
      → Elt Ideal ((cfg1.win 3).arr.view.loc (c.tc : Thread nD τ)).2.ty.elt → Prop :=
  fun j x => (j 0).val = bh.val → x = tgt ⟨(j 1).val, (j 1).isLt⟩ ⟨(j 2).val, (j 2).isLt⟩

theorem OutIs_intro (c : Dev nD) (bh : Fin 64) (tgt : Fin 2048 → Fin 64 → EReal) (j : S64x2048x64.Idx) (x : EReal)
    (R : Fin 2048) (d : Fin 64) (h1 : (j 1).val = R.val) (h2 : (j 2).val = d.val)
    (hx : (j 0).val = bh.val → x = tgt R d) : OutIs c bh tgt j x := by
  intro h0
  rw [hx h0]
  exact congrArg₂ tgt (Fin.ext h1.symm) (Fin.ext h2.symm)

/-- An index of the array is in a point's output block iff each coordinate is in the block's range. -/
theorem mem_blk (t : Fin cfg1.N) (i : S64x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v11).slice (win1_3.rect t)).set ↔ _
  rw [View.set_slice_whole, Rect.mem_set_unit]
  exact Iff.rfl

/-- Every entry of the array is in the block its (slab, query tile)'s key tile 3 writes back. -/
theorem cover (i : S64x2048x64.Idx) :
    ∃ t : Fin cfg1.N, (cfg1.win 3).flush t = true ∧ i ∈ ((cfg1.win 3).blk t).view.set := by
  have hN : cfg1.N = 1024 := N_1
  have hi0 : (i 0).val < 64 := (i 0).isLt
  have hi1 : (i 1).val < 2048 := (i 1).isLt
  have hi2 : (i 2).val < 64 := (i 2).isLt
  have hlt : (i 0).val * 16 + (i 1).val / 512 * 4 + 3 < cfg1.N := by omega
  obtain ⟨-, -, -, -, -, -, -, -, -, e0, e1, e2⟩ := idx_facts ⟨(i 0).val * 16 + (i 1).val / 512 * 4 + 3, hlt⟩
  refine ⟨⟨(i 0).val * 16 + (i 1).val / 512 * 4 + 3, hlt⟩,
    (flush1_3 _).mpr (by show ((i 0).val * 16 + (i 1).val / 512 * 4 + 3) % 4 = 3; omega), ?_⟩
  rw [mem_blk]
  intro a
  match a with
  | ⟨0, _⟩ =>
    show win1_3.index ⟨(i 0).val * 16 + (i 1).val / 512 * 4 + 3, hlt⟩ (0 : Fin 3) * 1 ≤ (i 0).val
      ∧ (i 0).val < win1_3.index ⟨(i 0).val * 16 + (i 1).val / 512 * 4 + 3, hlt⟩ (0 : Fin 3) * 1 + 1
    rw [e0]
    show ((i 0).val * 16 + (i 1).val / 512 * 4 + 3) / 16 * 1 ≤ (i 0).val
      ∧ (i 0).val < ((i 0).val * 16 + (i 1).val / 512 * 4 + 3) / 16 * 1 + 1
    omega
  | ⟨1, _⟩ =>
    show win1_3.index ⟨(i 0).val * 16 + (i 1).val / 512 * 4 + 3, hlt⟩ (1 : Fin 3) * 512 ≤ (i 1).val
      ∧ (i 1).val < win1_3.index ⟨(i 0).val * 16 + (i 1).val / 512 * 4 + 3, hlt⟩ (1 : Fin 3) * 512 + 512
    rw [e1]
    show ((i 0).val * 16 + (i 1).val / 512 * 4 + 3) / 4 % 4 * 512 ≤ (i 1).val
      ∧ (i 1).val < ((i 0).val * 16 + (i 1).val / 512 * 4 + 3) / 4 % 4 * 512 + 512
    omega
  | ⟨2, _⟩ =>
    show win1_3.index ⟨(i 0).val * 16 + (i 1).val / 512 * 4 + 3, hlt⟩ (2 : Fin 3) * 64 ≤ (i 2).val
      ∧ (i 2).val < win1_3.index ⟨(i 0).val * 16 + (i 1).val / 512 * 4 + 3, hlt⟩ (2 : Fin 3) * 64 + 64
    rw [e2]
    omega

/-- What key tile 3 of a (slab, query tile) writes back: in slab bh, the rows' causal attention. -/
theorem flushed_is (c : Dev nD) (q k v : S64x2048x64.Idx → EReal) (hq : q = V c main_v8) (hk : k = V c main_v9)
    (hv : v = V c main_v10) (bh : Fin 64) (Qr Kr Vr : Fin 2048 → Fin 64 → ℝ)
    (hQ : ∀ n e, q (ix3 bh n e) = ((Qr n e : ℝ) : EReal)) (hK : ∀ n e, k (ix3 bh n e) = ((Kr n e : ℝ) : EReal))
    (hV : ∀ n e, v (ix3 bh n e) = ((Vr n e : ℝ) : EReal)) (t : Fin cfg1.N) (hf : (cfg1.win 3).flush t = true)
    (y : ((cfg1.win 3).xblock (cfg1.grid.coords t)).Idx) :
    OutIs c bh (rowMean Qr Kr Vr) (((cfg1.win 3).blk t).view.emb y)
      (_root_.cast (congrArg (Elt Ideal) ((cfg1.win 3).blk t).view.elt_eq.symm) ((dat1 V c).flushed 3 t y)) := by
  have h2 : t.val % 4 = 3 := (flush1_3 t).mp hf
  have hN : cfg1.N = 1024 := N_1
  have ht := t.isLt
  obtain ⟨-, -, -, -, -, -, -, -, -, e0, e1, e2⟩ := idx_facts t
  obtain ⟨u, r, d, rfl⟩ : ∃ (u : Fin 1) (r : Fin 512) (d : Fin 64), y = ix3 u r d := ⟨y 0, y 1, y 2, eq_ix3 y⟩
  obtain rfl : u = 0 := Subsingleton.elim _ _
  have hr := r.isLt
  have hRlt : t.val / 4 % 4 * 512 + r.val < 2048 := by omega
  rw [cast_eq]
  refine OutIs_intro c bh _ _ _ ⟨t.val / 4 % 4 * 512 + r.val, hRlt⟩ d
    (by show win1_3.index t (1 : Fin 3) * 512 + 1 * r.val = t.val / 4 % 4 * 512 + r.val; omega)
    (by show win1_3.index t (2 : Fin 3) * 64 + 1 * d.val = d.val; omega) (fun h0 => ?_)
  have hb : t.val / 16 = bh.val := by
    have : win1_3.index t (0 : Fin 3) * 1 + 1 * 0 = bh.val := h0
    omega
  show (cfg1.win 3).cut (grid1.coords t) ((dat1 V c).after 3 t) (ix3 0 r d) = _
  rw [after1_3]
  exact block_out V c q k v hq hk hv bh Qr Kr Vr hQ hK hV t h2 hb r d ⟨t.val / 4 % 4 * 512 + r.val, hRlt⟩ rfl

/-- THE OUTPUT ARRAY in slab bh, at (row R, feature d): the causal attention of row R — the softmax-weighted mean of
    the slab's values over the keys n ≤ R, with logits the scaled dot products of the slab's query row R with its keys. -/
theorem final1_3 (c : Dev nD) (q k v : S64x2048x64.Idx → EReal) (hq : q = V c main_v8) (hk : k = V c main_v9)
    (hv : v = V c main_v10) (bh : Fin 64) (Qr Kr Vr : Fin 2048 → Fin 64 → ℝ)
    (hQ : ∀ n e, q (ix3 bh n e) = ((Qr n e : ℝ) : EReal)) (hK : ∀ n e, k (ix3 bh n e) = ((Kr n e : ℝ) : EReal))
    (hV : ∀ n e, v (ix3 bh n e) = ((Vr n e : ℝ) : EReal)) (R : Fin 2048) (d : Fin 64) :
    (dat1 (F := Ideal) V c).arrAt 3 cfg1.N (ix3 bh R d)
      = ((Cert.Pool.wsum (zOf Qr Kr R) (hOf Vr d) 0 (R.val + 1) 0 / Cert.Pool.lsum (zOf Qr Kr R) 0 (R.val + 1) 0 : ℝ) : EReal) := by
  have h := (dat1 V c).arrAt_forall_of_cover 3 (OutIs c bh (rowMean Qr Kr Vr))
    (fun t hf y => flushed_is V c q k v hq hk hv bh Qr Kr Vr hQ hK hV t hf y) (fun i => cover i) (ix3 bh R d)
  exact h rfl

end Final

end Cert.KernelIdeal.Val1

end
-- ==== Proof.PreReal.lean ====
/-
  The precondition decoded. It is the conjunction, over the four argument arrays, of "every element's absolute value
  is below +∞". An extended real whose absolute value max x (−x) is below +∞ is neither −∞ (whose absolute value is +∞)
  nor +∞: it is a real number. So under the precondition every element of every argument is a real.
-/
import proofs.«181309_j90692529422468_2_alg».proof.Proof.Gen.Pre_finite_inputs
import Idealize.ShloMosaic.Lib.ValueIdx
import Idealize.ShloMosaic.Lib.ReduceAll
import Idealize.ShloMosaic.PureOps.Ideal.Laws

noncomputable section

namespace Cert.PreReal

open Idealize.ShloMosaic Idealize.ShloMosaic.ValueIdx Cert.Pre_finite_inputs

/-- The scalar shape has one index. -/
instance : Subsingleton S_.Idx := ⟨fun _ _ => funext fun d => d.elim0⟩

/-- The word 0x7F800000 denotes +∞. -/
theorem ofBits_inf : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array: if the conjunction over all its elements of "|x| below +∞" is 1, every element is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32))) init hr hu ix0
      = 1#1)
    (i : s.Idx) : ∃ x : ℝ, a i = (x : EReal) := by
  have h := Host.reduce_andi_all _ init hr hu ix0 e i
  refine real_of_abs_lt_top (a i) ?_
  rw [← ofBits_inf]
  exact h

/-- THE PRECONDITION DECODED: every element of each of the four arguments is a real number. -/
theorem real_of_pre (a0 : Vec Ideal S4x2048x1024 .f32) (a1 : Vec Ideal S3072x1024 .f32)
    (a2 : Vec Ideal S1024x1024 .f32) (a3 : Vec Ideal S1024 .f32)
    (h : Cert.Pre_finite_inputs.fn (F := Ideal) a0 a1 a2 a3 = fun _ => 1#1) :
    (∀ i, ∃ x : ℝ, a0 i = (x : EReal)) ∧ (∀ i, ∃ x : ℝ, a1 i = (x : EReal))
      ∧ (∀ i, ∃ x : ℝ, a2 i = (x : EReal)) ∧ (∀ i, ∃ x : ℝ, a3 i = (x : EReal)) := by
  have e := congrFun h ix0
  dsimp only [Cert.Pre_finite_inputs.fn, Cert.Pre_finite_inputs.fn_part1, andi] at e
  obtain ⟨e012, e3⟩ := IntOp.andi_eq_one.1 e
  obtain ⟨e01, e2⟩ := IntOp.andi_eq_one.1 e012
  obtain ⟨e0, e1⟩ := IntOp.andi_eq_one.1 e01
  exact ⟨real_of_all a0 _ _ _ _ e0, real_of_all a1 _ _ _ _ e1, real_of_all a2 _ _ _ _ e2, real_of_all a3 _ _ _ _ e3⟩

end Cert.PreReal

end
-- ==== Proof.RefIsSpec.lean ====
/-
  The reference program computes the layer of the specification. Stage by stage: the joint projection is a real sum;
  reshape, transpose and slice pick the query, key and value of a head; the scores are the scaled inner products;
  the causal mask puts −∞ at the keys beyond the query's own position; the row maximum, the exponentials, their sum,
  the quotient and the contraction with the values are one masked softmax row against the values, which is the
  softmax-weighted mean of the values over the allowed keys; the heads are merged and the output projection and its
  bias are a real sum again.
-/
import proofs.«181309_j90692529422468_2_alg».proof.Proof.Gen.ReferenceIdeal.Read
import proofs.«181309_j90692529422468_2_alg».proof.Proof.Spec
import Idealize.ShloMosaic.Lib.Affine
import Idealize.ShloMosaic.PureOps.Reduce

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Pool Cert.FlashRow Cert.Attn

/-! ## The three float words -/

/-- The word of 0.125 denotes 1/8. -/
theorem ofBits_eighth : Ideal.ofBits .f32 0x3E000000#32 = ((1 / 8 : ℝ) : EReal) := by
  simp [Ideal.ofBits, Ideal.ieee, -EReal.coe_mul]; norm_num

/-- The word of −∞ denotes −∞. -/
theorem ofBits_neg_inf : Ideal.ofBits .f32 0xFF800000#32 = (⊥ : EReal) := by
  simp [Ideal.ofBits, Ideal.ieee]

/-- The word of +0.0 denotes 0. -/
theorem ofBits_zero : Ideal.ofBits .f32 0x00000000#32 = (0 : EReal) := by
  simp [Ideal.ofBits, Ideal.ieee]

section
variable (X : Fin 4 → Fin 2048 → Fin 1024 → ℝ) (Wq : Fin 3072 → Fin 1024 → ℝ) (Wp : Fin 1024 → Fin 1024 → ℝ)
  (bp : Fin 1024 → ℝ)
  (x0 : (⟨S4x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-! ## The joint projection -/

/-- Element (b, n, o) of the joint projection is the real sum over the input features. -/
theorem qkv_apply (h0 : ∀ b n c, x0 (ix3 b n c) = ((X b n c : ℝ) : EReal)) (h1 : ∀ o c, x1 (ix2 o c) = ((Wq o c : ℝ) : EReal))
    (b : Fin 4) (n : Fin 2048) (o : Fin 3072) :
    val_main_v0 (F := Ideal) x0 x1 (ix3 b n o) = ((∑ c : Fin 1024, X b n c * Wq o c : ℝ) : EReal) := by
  rw [val_main_v0_apply, coe_sum]
  refine Finset.sum_congr rfl fun k _ => ?_
  have el : lidx_main_v0 (ix3 b n o) k = ix3 b n k := by
    funext a; match a with | ⟨0, _⟩ => rfl | ⟨1, _⟩ => rfl | ⟨2, _⟩ => rfl
  have er : ridx_main_v0 (ix3 b n o) k = ix2 o k := by
    funext a; match a with | ⟨0, _⟩ => rfl | ⟨1, _⟩ => rfl
  rw [el, er, h0, h1, EReal.coe_mul]

/-- Reshaped to [4, 2048, 3, 16, 64] and transposed to [3, 4, 16, 2048, 64]: element (s, b, h, n, d) is row
    s·1024 + h·64 + d of the joint projection at (b, n). -/
theorem split_apply (s : Fin 3) (b : Fin 4) (h : Fin 16) (n : Fin 2048) (d : Fin 64) :
    val_main_v2 (F := Ideal) x0 x1 (ix5 s b h n d) = val_main_v0 (F := Ideal) x0 x1 (ix3 b n (qkvRow s h d)) := by
  rw [val_main_v2_apply, val_main_v1_apply]
  refine congrArg _ ?_
  have hs := s.isLt; have hb := b.isLt; have hh := h.isLt; have hn := n.isLt; have hd := d.isLt
  funext a
  match a with
  | ⟨0, _⟩ => exact Fin.ext (by show ((((b.val * 2048 + n.val) * 3 + s.val) * 16 + h.val) * 64 + d.val) / 6291456 = b.val; omega)
  | ⟨1, _⟩ => exact Fin.ext (by show ((((b.val * 2048 + n.val) * 3 + s.val) * 16 + h.val) * 64 + d.val) / 3072 % 2048 = n.val; omega)
  | ⟨2, _⟩ => exact Fin.ext (by show ((((b.val * 2048 + n.val) * 3 + s.val) * 16 + h.val) * 64 + d.val) % 3072 = s.val * 1024 + h.val * 64 + d.val; omega)

/-! ## Query, key and value of a head -/

/-- The first slice, its leading axis dropped: the queries. -/
theorem q_slice (b : Fin 4) (h : Fin 16) (n : Fin 2048) (d : Fin 64) :
    val_main_v4 (F := Ideal) x0 x1 (ix4 b h n d) = val_main_v2 (F := Ideal) x0 x1 (ix5 (0 : Fin 3) b h n d) := by
  rw [val_main_v4_apply, val_main_v3_apply]
  refine congrArg _ ?_
  have hb := b.isLt; have hh := h.isLt; have hn := n.isLt; have hd := d.isLt
  funext a
  match a with
  | ⟨0, _⟩ => exact Fin.ext rfl
  | ⟨1, _⟩ => exact Fin.ext (by show (((b.val * 16 + h.val) * 2048 + n.val) * 64 + d.val) / 2097152 % 4 = b.val; omega)
  | ⟨2, _⟩ => exact Fin.ext (by show (((b.val * 16 + h.val) * 2048 + n.val) * 64 + d.val) / 131072 % 16 = h.val; omega)
  | ⟨3, _⟩ => exact Fin.ext (by show (((b.val * 16 + h.val) * 2048 + n.val) * 64 + d.val) / 64 % 2048 = n.val; omega)
  | ⟨4, _⟩ => exact Fin.ext (by show (((b.val * 16 + h.val) * 2048 + n.val) * 64 + d.val) % 64 = d.val; omega)

/-- The second slice: the keys. -/
theorem k_slice (b : Fin 4) (h : Fin 16) (n : Fin 2048) (d : Fin 64) :
    val_main_v6 (F := Ideal) x0 x1 (ix4 b h n d) = val_main_v2 (F := Ideal) x0 x1 (ix5 (1 : Fin 3) b h n d) := by
  rw [val_main_v6_apply, val_main_v5_apply]
  refine congrArg _ ?_
  have hb := b.isLt; have hh := h.isLt; have hn := n.isLt; have hd := d.isLt
  funext a
  match a with
  | ⟨0, _⟩ => exact Fin.ext rfl
  | ⟨1, _⟩ => exact Fin.ext (by show (((b.val * 16 + h.val) * 2048 + n.val) * 64 + d.val) / 2097152 % 4 = b.val; omega)
  | ⟨2, _⟩ => exact Fin.ext (by show (((b.val * 16 + h.val) * 2048 + n.val) * 64 + d.val) / 131072 % 16 = h.val; omega)
  | ⟨3, _⟩ => exact Fin.ext (by show (((b.val * 16 + h.val) * 2048 + n.val) * 64 + d.val) / 64 % 2048 = n.val; omega)
  | ⟨4, _⟩ => exact Fin.ext (by show (((b.val * 16 + h.val) * 2048 + n.val) * 64 + d.val) % 64 = d.val; omega)

/-- The third slice: the values. -/
theorem v_slice (b : Fin 4) (h : Fin 16) (n : Fin 2048) (d : Fin 64) :
    val_main_v8 (F := Ideal) x0 x1 (ix4 b h n d) = val_main_v2 (F := Ideal) x0 x1 (ix5 (2 : Fin 3) b h n d) := by
  rw [val_main_v8_apply, val_main_v7_apply]
  refine congrArg _ ?_
  have hb := b.isLt; have hh := h.isLt; have hn := n.isLt; have hd := d.isLt
  funext a
  match a with
  | ⟨0, _⟩ => exact Fin.ext rfl
  | ⟨1, _⟩ => exact Fin.ext (by show (((b.val * 16 + h.val) * 2048 + n.val) * 64 + d.val) / 2097152 % 4 = b.val; omega)
  | ⟨2, _⟩ => exact Fin.ext (by show (((b.val * 16 + h.val) * 2048 + n.val) * 64 + d.val) / 131072 % 16 = h.val; omega)
  | ⟨3, _⟩ => exact Fin.ext (by show (((b.val * 16 + h.val) * 2048 + n.val) * 64 + d.val) / 64 % 2048 = n.val; omega)
  | ⟨4, _⟩ => exact Fin.ext (by show (((b.val * 16 + h.val) * 2048 + n.val) * 64 + d.val) % 64 = d.val; omega)

/-- The query, key or value at (b, h, n, d) is the specification's projection. -/
theorem split_proj (h0 : ∀ b n c, x0 (ix3 b n c) = ((X b n c : ℝ) : EReal)) (h1 : ∀ o c, x1 (ix2 o c) = ((Wq o c : ℝ) : EReal))
    (s : Fin 3) (b : Fin 4) (h : Fin 16) (n : Fin 2048) (d : Fin 64) :
    val_main_v2 (F := Ideal) x0 x1 (ix5 s b h n d) = ((proj X Wq s b h n d : ℝ) : EReal) := by
  rw [split_apply, qkv_apply X Wq x0 x1 h0 h1]
  rfl

/-! ## The scores and the causal mask -/

/-- The scaled score of query R against key k. -/
theorem score_apply (h0 : ∀ b n c, x0 (ix3 b n c) = ((X b n c : ℝ) : EReal)) (h1 : ∀ o c, x1 (ix2 o c) = ((Wq o c : ℝ) : EReal))
    (b : Fin 4) (h : Fin 16) (R k : Fin 2048) :
    val_main_v11 (F := Ideal) x0 x1 (ix4 b h R k) = ((score X Wq b h R k.val : ℝ) : EReal) := by
  have hsum : val_main_v9 (F := Ideal) x0 x1 (ix4 b h R k)
      = ((∑ d : Fin 64, proj X Wq 0 b h R d * proj X Wq 1 b h k d : ℝ) : EReal) := by
    rw [val_main_v9_apply, coe_sum]
    refine Finset.sum_congr rfl fun d _ => ?_
    have el : lidx_main_v9 (ix4 b h R k) d = ix4 b h R d := by
      funext a; match a with | ⟨0, _⟩ => rfl | ⟨1, _⟩ => rfl | ⟨2, _⟩ => rfl | ⟨3, _⟩ => rfl
    have er : ridx_main_v9 (ix4 b h R k) d = ix4 b h k d := by
      funext a; match a with | ⟨0, _⟩ => rfl | ⟨1, _⟩ => rfl | ⟨2, _⟩ => rfl | ⟨3, _⟩ => rfl
    rw [el, er, q_slice, k_slice, split_proj X Wq x0 x1 h0 h1, split_proj X Wq x0 x1 h0 h1, EReal.coe_mul]
  rw [val_main_v11_apply, Ideal.mulf_def, hsum, val_main_v10_apply, val_main_cst_apply, Ideal.ofBits_def, ofBits_eighth,
    ← EReal.coe_mul]
  unfold score
  rw [dif_pos k.isLt]

/-- A number below 2048 as a 32-bit word reads back signed as itself. -/
theorem toInt_ofNat_small (n : ℕ) (hn : n < 2048) : (BitVec.ofNat 32 n).toInt = (n : Int) := by
  have h : (BitVec.ofNat 32 n).toNat = n := by rw [BitVec.toNat_ofNat]; omega
  rw [BitVec.toInt_eq_toNat_of_lt (by rw [h]; omega), h]

/-- The mask's comparison (row + 0 ≥ column, signed) holds exactly at the keys up to the query's position. -/
theorem causal_bit (R k : ℕ) (hR : R < 2048) (hk : k < 2048) :
    IntOp.cmpi .sge (IntOp.addi (BitVec.ofNat 32 R) 0#32) (BitVec.ofNat 32 k) = 1#1 ↔ k ≤ R := by
  rw [IntOp.cmpi_sge, show IntOp.addi (BitVec.ofNat 32 R) 0#32 = BitVec.ofNat 32 R from BitVec.add_zero _,
    toInt_ofNat_small R hR, toInt_ofNat_small k hk]
  exact Int.ofNat_le

/-- The lower-triangular mask at (R, k). -/
theorem tril_apply (R k : Fin 2048) :
    val_main_v13 (F := Ideal) (ix2 R k) = if k.val ≤ R.val then 1#1 else 0#1 := by
  have hbit := causal_bit R.val k.val R.isLt k.isLt
  rw [val_main_v13_apply, val_main_v12_apply, val_main_c_apply, val_main_call0_v5_apply, val_main_call0_c_0_apply,
    val_main_call0_v4_apply, val_main_call0_v2_apply, val_main_call0_v0_apply, val_main_call0_v1_apply,
    val_main_call0_c_apply, val_main_call0_v3_apply]
  show Scalar.select (IntOp.cmpi .sge (IntOp.addi (BitVec.ofNat 32 R.val) 0#32) (BitVec.ofNat 32 k.val)) 1#1 0#1 = _
  split_ifs with hk
  · rw [hbit.mpr hk, select_one]
  · rw [eq_zero_of_ne_one (fun h => hk (hbit.mp h)), select_zero]

/-- The masked scores of query R: the score at the keys up to R, −∞ beyond. -/
theorem masked_apply (h0 : ∀ b n c, x0 (ix3 b n c) = ((X b n c : ℝ) : EReal)) (h1 : ∀ o c, x1 (ix2 o c) = ((Wq o c : ℝ) : EReal))
    (b : Fin 4) (h : Fin 16) (R k : Fin 2048) :
    val_main_v14 (F := Ideal) x0 x1 (ix4 b h R k) = masked (score X Wq b h R) (R.val + 1) 0 2048 k := by
  have ei : idx_main_call1_v1 (ix4 b h R k) = ix2 R k := by
    funext a; match a with | ⟨0, _⟩ => rfl | ⟨1, _⟩ => rfl
  rw [val_main_v14_apply, val_main_call1_v1_apply, ei, tril_apply, score_apply X Wq x0 x1 h0 h1, val_main_call1_v2_apply,
    val_main_call1_v0_apply, val_main_cst_0_apply, Ideal.ofBits_def, ofBits_neg_inf]
  unfold masked
  by_cases hk : k.val ≤ R.val
  · rw [if_pos hk, if_pos (by omega), select_one, Nat.zero_add]
  · rw [if_neg hk, if_neg (by omega), select_zero]

/-! ## The softmax row against the values -/

/-- The row maximum (from −∞, then once more against −∞) is the maximum of the masked row. -/
theorem rowmax_apply (h0 : ∀ b n c, x0 (ix3 b n c) = ((X b n c : ℝ) : EReal)) (h1 : ∀ o c, x1 (ix2 o c) = ((Wq o c : ℝ) : EReal))
    (b : Fin 4) (h : Fin 16) (R : Fin 2048) :
    val_main_v17 (F := Ideal) x0 x1 (ix3 b h R) = blockMax (score X Wq b h R) (R.val + 1) 0 2048 := by
  rw [val_main_v17_apply, Ideal.maximumf_def, val_main_v16_apply, val_main_cst_2_apply, Ideal.ofBits_def, ofBits_neg_inf,
    max_bot_left]
  unfold val_main_v15
  refine (Host.reduce_eq_fold_single (FloatOps.maximumf (F := Ideal) (φ := .f32)) _ _
    reducesTo_S4x16x2048x2048_S4x16x2048_d3 (by decide) h_S_ (ix3 b h R)).trans ?_
  show (Finset.univ : Finset (Fin 2048)).fold max (val_main_cst_1 (F := Ideal) (Shape.Idx.first h_S_)) _ = _
  rw [val_main_cst_1_apply, Ideal.ofBits_def, ofBits_neg_inf]
  unfold blockMax
  refine congrArg (fun f : Fin 2048 → EReal => (Finset.univ : Finset (Fin 2048)).fold max ⊥ f) (funext fun k => ?_)
  refine Eq.trans ?_ (masked_apply X Wq x0 x1 h0 h1 b h R k)
  show val_main_v14 (F := Ideal) x0 x1 _ = _
  refine congrArg (val_main_v14 (F := Ideal) x0 x1) (funext fun c => Fin.ext ?_)
  match c with
  | ⟨0, _⟩ => rfl
  | ⟨1, _⟩ => rfl
  | ⟨2, _⟩ => rfl
  | ⟨3, _⟩ => rfl

/-- e^(masked score − row maximum). -/
theorem exp_apply (h0 : ∀ b n c, x0 (ix3 b n c) = ((X b n c : ℝ) : EReal)) (h1 : ∀ o c, x1 (ix2 o c) = ((Wq o c : ℝ) : EReal))
    (b : Fin 4) (h : Fin 16) (R k : Fin 2048) :
    val_main_v21 (F := Ideal) x0 x1 (ix4 b h R k)
      = Ideal.exp (masked (score X Wq b h R) (R.val + 1) 0 2048 k - blockMax (score X Wq b h R) (R.val + 1) 0 2048) := by
  have e19 : idx_main_v18 (idx_main_v19 (ix4 b h R k)) = ix3 b h R := by
    funext a; match a with | ⟨0, _⟩ => rfl | ⟨1, _⟩ => rfl | ⟨2, _⟩ => rfl
  rw [val_main_v21_apply, Ideal.hostUnary_exp_def, val_main_v20_apply, Ideal.subf_def, masked_apply X Wq x0 x1 h0 h1,
    val_main_v19_apply, val_main_v18_apply, e19, rowmax_apply X Wq x0 x1 h0 h1]

/-- The row's sum of exponentials. -/
theorem rowsum_apply (h0 : ∀ b n c, x0 (ix3 b n c) = ((X b n c : ℝ) : EReal)) (h1 : ∀ o c, x1 (ix2 o c) = ((Wq o c : ℝ) : EReal))
    (b : Fin 4) (h : Fin 16) (R : Fin 2048) :
    val_main_v22 (F := Ideal) x0 x1 (ix3 b h R)
      = ∑ k : Fin 2048,
          Ideal.exp (masked (score X Wq b h R) (R.val + 1) 0 2048 k - blockMax (score X Wq b h R) (R.val + 1) 0 2048) := by
  rw [val_main_v22_apply, val_main_cst_3_apply, Ideal.ofBits_def, ofBits_zero, zero_add]
  refine Finset.sum_congr rfl fun k _ => ?_
  refine Eq.trans ?_ (exp_apply X Wq x0 x1 h0 h1 b h R k)
  refine congrArg (val_main_v21 (F := Ideal) x0 x1) (funext fun c => Fin.ext ?_)
  match c with
  | ⟨0, _⟩ => rfl
  | ⟨1, _⟩ => rfl
  | ⟨2, _⟩ => rfl
  | ⟨3, _⟩ => rfl

/-- The attention output of a head: the softmax-weighted mean of the values over the keys up to the query. -/
theorem attn_apply (h0 : ∀ b n c, x0 (ix3 b n c) = ((X b n c : ℝ) : EReal)) (h1 : ∀ o c, x1 (ix2 o c) = ((Wq o c : ℝ) : EReal))
    (b : Fin 4) (h : Fin 16) (R : Fin 2048) (d : Fin 64) :
    val_main_v26 (F := Ideal) x0 x1 (ix4 b h R d) = ((attn X Wq b h R d : ℝ) : EReal) := by
  rw [val_main_v26_apply]
  unfold attn
  rw [← softmax_row (score X Wq b h R) (value X Wq b h d) (L := R.val + 1) (N := 2048) (Nat.succ_pos _)
    (by have := R.isLt; omega) 0]
  refine Finset.sum_congr rfl fun k _ => ?_
  have el : lidx_main_v26 (ix4 b h R d) k = ix4 b h R k := by
    funext a; match a with | ⟨0, _⟩ => rfl | ⟨1, _⟩ => rfl | ⟨2, _⟩ => rfl | ⟨3, _⟩ => rfl
  have er : ridx_main_v26 (ix4 b h R d) k = ix4 b h k d := by
    funext a; match a with | ⟨0, _⟩ => rfl | ⟨1, _⟩ => rfl | ⟨2, _⟩ => rfl | ⟨3, _⟩ => rfl
  have e24 : idx_main_v23 (idx_main_v24 (ix4 b h R k)) = ix3 b h R := by
    funext a; match a with | ⟨0, _⟩ => rfl | ⟨1, _⟩ => rfl | ⟨2, _⟩ => rfl
  have hv : value X Wq b h d k.val = proj X Wq 2 b h k d := by
    unfold value
    rw [dif_pos k.isLt]
  rw [el, er, val_main_v25_apply, Ideal.hostDivf_def, exp_apply X Wq x0 x1 h0 h1, val_main_v24_apply, val_main_v23_apply,
    e24, rowsum_apply X Wq x0 x1 h0 h1, v_slice, split_proj X Wq x0 x1 h0 h1, hv]

/-! ## The heads merged, the output projection and its bias -/

/-- The heads merged: element (b, n, c') is feature c' % 64 of head c' / 64. -/
theorem merged_apply (h0 : ∀ b n c, x0 (ix3 b n c) = ((X b n c : ℝ) : EReal)) (h1 : ∀ o c, x1 (ix2 o c) = ((Wq o c : ℝ) : EReal))
    (b : Fin 4) (n : Fin 2048) (c' : Fin 1024) :
    val_main_v28 (F := Ideal) x0 x1 (ix3 b n c') = ((attn X Wq b (headOf c') n (featOf c') : ℝ) : EReal) := by
  have e : idx_main_v27 (idx_main_v28 (ix3 b n c')) = ix4 b (headOf c') n (featOf c') := by
    have hb := b.isLt; have hn := n.isLt; have hc := c'.isLt
    funext a
    match a with
    | ⟨0, _⟩ => exact Fin.ext (by show ((b.val * 2048 + n.val) * 1024 + c'.val) / 2097152 = b.val; omega)
    | ⟨1, _⟩ => exact Fin.ext (by show ((b.val * 2048 + n.val) * 1024 + c'.val) / 64 % 16 = c'.val / 64; omega)
    | ⟨2, _⟩ => exact Fin.ext (by show ((b.val * 2048 + n.val) * 1024 + c'.val) / 1024 % 2048 = n.val; omega)
    | ⟨3, _⟩ => exact Fin.ext (by show ((b.val * 2048 + n.val) * 1024 + c'.val) % 64 = c'.val % 64; omega)
  rw [val_main_v28_apply, val_main_v27_apply, e, attn_apply X Wq x0 x1 h0 h1]

/-- THE REFERENCE IS THE SPECIFICATION: on real inputs, element (b, n, o) of the reference's result is the layer's
    output. -/
theorem ref_apply (h0 : ∀ b n c, x0 (ix3 b n c) = ((X b n c : ℝ) : EReal)) (h1 : ∀ o c, x1 (ix2 o c) = ((Wq o c : ℝ) : EReal))
    (h2 : ∀ o c, x2 (ix2 o c) = ((Wp o c : ℝ) : EReal)) (h3 : ∀ o, x3 (ix1 o) = ((bp o : ℝ) : EReal))
    (b : Fin 4) (n : Fin 2048) (o : Fin 1024) :
    val_main_v32 (F := Ideal) x0 x1 x2 x3 (ix3 b n o) = ((out X Wq Wp bp b n o : ℝ) : EReal) := by
  have e31 : idx_main_v30 (idx_main_v31 (ix3 b n o)) = ix1 o := by
    funext a; match a with | ⟨0, _⟩ => rfl
  rw [val_main_v32_apply, Ideal.addf_def, val_main_v31_apply, val_main_v30_apply, e31, h3, val_main_v29_apply]
  unfold out
  rw [EReal.coe_add, coe_sum]
  refine congrArg (· + ((bp o : ℝ) : EReal)) (Finset.sum_congr rfl fun k _ => ?_)
  have el : lidx_main_v29 (ix3 b n o) k = ix3 b n k := by
    funext a; match a with | ⟨0, _⟩ => rfl | ⟨1, _⟩ => rfl | ⟨2, _⟩ => rfl
  have er : ridx_main_v29 (ix3 b n o) k = ix2 o k := by
    funext a; match a with | ⟨0, _⟩ => rfl | ⟨1, _⟩ => rfl
  rw [el, er, merged_apply X Wq x0 x1 h0 h1, h2, EReal.coe_mul]

end

end Cert.RefSide

end
-- ==== Proof.Bridge.lean ====
/-
  The two programs meet. Under the precondition every argument entry is a real number; name the real arrays X, Wqkv,
  Wproj, bproj. The idealized kernel's result array, read off the last boundary of its run — back through the final
  reshape, the output projection's head-by-head accumulation, the attention kernel's rows, the three reshapes, the
  projection kernel's products and the host transposes — is, entry by entry, the real formula of the specification; and
  so is the plain formulation's result, by its run read one operation at a time. Hence equal results.
-/
import proofs.«181309_j90692529422468_2_alg».proof.Proof.FrameI.Args
import proofs.«181309_j90692529422468_2_alg».proof.Proof.KernelOut
import proofs.«181309_j90692529422468_2_alg».proof.Proof.Val1
import proofs.«181309_j90692529422468_2_alg».proof.Proof.PreReal
import proofs.«181309_j90692529422468_2_alg».proof.Proof.RefIsSpec
import proofs.«181309_j90692529422468_2_alg».proof.Defs

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.KernelIdeal.Plumb

/-- The specification's output as an array of extended reals. -/
def outArr (X : Fin 4 → Fin 2048 → Fin 1024 → ℝ) (Wq : Fin 3072 → Fin 1024 → ℝ) (Wp : Fin 1024 → Fin 1024 → ℝ) (bp : Fin 1024 → ℝ) :
    S4x2048x1024.Idx → EReal :=
  fun i => ((Cert.Attn.out X Wq Wp bp ⟨(i 0).val, (i 0).isLt⟩ ⟨(i 1).val, (i 1).isLt⟩ ⟨(i 2).val, (i 2).isLt⟩ : ℝ) : EReal)

theorem outArr_apply (X Wq Wp bp) (b : Fin 4) (n : Fin 2048) (o : Fin 1024) :
    outArr X Wq Wp bp (ix3 b n o) = ((Cert.Attn.out X Wq Wp bp b n o : ℝ) : EReal) := rfl

/-- The real number an extended real is, when it is one. -/
theorem coe_toReal_of {x : EReal} (h : ∃ r : ℝ, x = (r : EReal)) : x = ((x.toReal : ℝ) : EReal) := by
  obtain ⟨r, rfl⟩ := h
  rw [EReal.toReal_coe]

variable (m : (ℓ : Loc nD τ sig) → Buf (Elt Ideal) ℓ) (ρ : Dev nD → PrngReg) (c : Dev nD)

/-- The real arrays the arguments are, on core `c`. -/
def Xr : Fin 4 → Fin 2048 → Fin 1024 → ℝ := fun b n k => (a0 m c (ix3 b n k)).toReal
def Wqr : Fin 3072 → Fin 1024 → ℝ := fun o k => (a1 m c (ix2 o k)).toReal
def Wpr : Fin 1024 → Fin 1024 → ℝ := fun o k => (a2 m c (ix2 o k)).toReal
def bpr : Fin 1024 → ℝ := fun o => (a3 m c (ix1 o)).toReal

/-- The attention kernel's output array is the specification's attention, slab by slab: its rows' running quantities
    end at the softmax-weighted mean, and the projected queries, keys and values are the specification's. -/
theorem attn_array (h0 : ∀ b n k, a0 m c (ix3 b n k) = ((Xr m c b n k : ℝ) : EReal)) (h1 : ∀ o k, a1 m c (ix2 o k) = ((Wqr m c o k : ℝ) : EReal))
    (b : Fin 4) (h : Fin 16) (n : Fin 2048) (d : Fin 64) :
    (dat1 (F := Ideal) (V3b m ρ) c).arrAt 3 cfg1.N (ix3 ⟨h.val * 4 + b.val, by omega⟩ n d) = ((Cert.Attn.attn (Xr m c) (Wqr m c) b h n d : ℝ) : EReal) := by
  rw [Cert.KernelIdeal.Val1.final1_3 (V3b m ρ) c (q1 m ρ c) (k1 m ρ c) (v1 m ρ c) rfl rfl rfl ⟨h.val * 4 + b.val, by omega⟩
    (Cert.Attn.proj (Xr m c) (Wqr m c) 0 b h) (Cert.Attn.proj (Xr m c) (Wqr m c) 1 b h) (Cert.Attn.proj (Xr m c) (Wqr m c) 2 b h)
    (fun n e => Cert.KernelIdeal.KernelOut.q1_real m ρ c (Xr m c) (Wqr m c) h0 h1 h b n e)
    (fun n e => Cert.KernelIdeal.KernelOut.k1_real m ρ c (Xr m c) (Wqr m c) h0 h1 h b n e)
    (fun n e => Cert.KernelIdeal.KernelOut.v1_real m ρ c (Xr m c) (Wqr m c) h0 h1 h b n e) n d]
  exact congrArg _ (Cert.OutAlg.attn_eq (Xr m c) (Wqr m c) b h n d)

/-! ## The claim -/

/-- From memories agreeing on the arguments, both idealized programs run and end with the same result array — the
    specification's formula of the real arrays the arguments are — and unchanged arguments. -/
theorem algebraic : Cert.algebraic_KernelIdeal_ReferenceIdeal := by
  intro m ρ m' ρ' hpre hagree
  have hre := fun c => Cert.PreReal.real_of_pre (a0 m c) (a1 m c) (a2 m c) (a3 m c) (hpre c)
  have h0 : ∀ c b n k, a0 m c (ix3 b n k) = ((Xr m c b n k : ℝ) : EReal) := fun c b n k => coe_toReal_of ((hre c).1 _)
  have h1 : ∀ c o k, a1 m c (ix2 o k) = ((Wqr m c o k : ℝ) : EReal) := fun c o k => coe_toReal_of ((hre c).2.1 _)
  have h2 : ∀ c o k, a2 m c (ix2 o k) = ((Wpr m c o k : ℝ) : EReal) := fun c o k => coe_toReal_of ((hre c).2.2.1 _)
  have h3 : ∀ c o, a3 m c (ix1 o) = ((bpr m c o : ℝ) : EReal) := fun c o => coe_toReal_of ((hre c).2.2.2 _)
  refine ⟨fun c => outArr (Xr m c) (Wqr m c) (Wpr m c) (bpr m c), ?_, ?_⟩
  · refine (θ_run Cert.KernelIdeal.defs _ _).mono (fun r h c => ⟨?_,
      (h c _ (mem_uc main_arg0 (by decide))).trans (W6b_main_arg0 m ρ c),
      (h c _ (mem_uc main_arg1 (by decide))).trans (W6b_main_arg1 m ρ c),
      (h c _ (mem_uc main_arg2 (by decide))).trans (W6b_main_arg2 m ρ c),
      (h c _ (mem_uc main_arg3 (by decide))).trans (W6b_main_arg3 m ρ c)⟩) (run_all (F := Ideal) m ρ)
    refine (h c _ (mem_uc main_v13 (by decide))).trans ?_
    funext i
    obtain ⟨b, n, o, rfl⟩ : ∃ (b : Fin 4) (n : Fin 2048) (o : Fin 1024), i = ix3 b n o := ⟨i 0, i 1, i 2, eq_ix3 i⟩
    exact Cert.KernelIdeal.KernelOut.kernel_out_of m ρ c (Xr m c) (Wqr m c) (Wpr m c) (bpr m c) (h2 c) (h3 c)
      (fun b h n d => attn_array m ρ c (h0 c) (h1 c) b h n d) b n o
  · refine (θ_run Cert.ReferenceIdeal.defs _ _).mono (fun r h c => ⟨?_, (h c).2⟩) (Cert.ReferenceIdeal.Value.run (F := Ideal) m' ρ')
    refine (h c).1.trans ?_
    rw [Cert.ReferenceIdeal.Read.val_main_v32_eq m' c, (hagree c).1, (hagree c).2.1, (hagree c).2.2.1, (hagree c).2.2.2]
    funext i
    obtain ⟨b, n, o, rfl⟩ : ∃ (b : Fin 4) (n : Fin 2048) (o : Fin 1024), i = ix3 b n o := ⟨i 0, i 1, i 2, eq_ix3 i⟩
    exact Cert.RefSide.ref_apply (Xr m c) (Wqr m c) (Wpr m c) (bpr m c) _ _ _ _ (h0 c) (h1 c) (h2 c) (h3 c) b n o

end Cert.Bridge

end
-- ==== Proof.lean ====
/- The certificate of a causal multi-head attention layer computed by three chained kernels — the query/key/value
   projection written head-major, a causal attention with a running maximum and running sums over key blocks (blocks
   wholly above the diagonal skipped), and the output projection accumulated over heads — against the plain
   formulation: projection, masked softmax over every key, weighted sum of values, output projection.
   At the ideal instance both sides are, for batch b, head h, query row R and feature d,
   (Σ_{n ≤ R} e^(s n − μ) · v n d) / (Σ_{n ≤ R} e^(s n − μ)) with s n = (q R · k n) / 8, whatever the shift μ. -/
import proofs.«181309_j90692529422468_2_alg».proof.Defs
import proofs.«181309_j90692529422468_2_alg».proof.Proof.Gen.Kernel
import proofs.«181309_j90692529422468_2_alg».proof.Proof.Gen.Kernel.Skeleton
import proofs.«181309_j90692529422468_2_alg».proof.Proof.Gen.Kernel.Launch
import proofs.«181309_j90692529422468_2_alg».proof.Proof.Gen.Kernel.Regions
import proofs.«181309_j90692529422468_2_alg».proof.Proof.Gen.Kernel.Points
import proofs.«181309_j90692529422468_2_alg».proof.Proof.Gen.KernelIdeal
import proofs.«181309_j90692529422468_2_alg».proof.Proof.Gen.KernelIdeal.Skeleton
import proofs.«181309_j90692529422468_2_alg».proof.Proof.Gen.KernelIdeal.Launch
import proofs.«181309_j90692529422468_2_alg».proof.Proof.Gen.KernelIdeal.Regions
import proofs.«181309_j90692529422468_2_alg».proof.Proof.Gen.KernelIdeal.Points
import proofs.«181309_j90692529422468_2_alg».proof.Proof.Gen.ReferenceIdeal
import proofs.«181309_j90692529422468_2_alg».proof.Proof.Gen.Pre_finite_inputs
import proofs.«181309_j90692529422468_2_alg».proof.Proof.Gen.ReferenceIdeal.Run
import proofs.«181309_j90692529422468_2_alg».proof.Proof.Gen.ReferenceIdeal.Read
import proofs.«181309_j90692529422468_2_alg».proof.Proof.FrameI.Args
import proofs.«181309_j90692529422468_2_alg».proof.Proof.FrameB.Args
import proofs.«181309_j90692529422468_2_alg».proof.Proof.Bridge
import Idealize.ShloMosaic.Adequacy
import Idealize.ShloMosaic.Init

noncomputable section

namespace Cert.Proof

open Idealize.ShloMosaic Idealize.SL.Sem Cert.Kernel

/-- The plain formulation has no kernel: its run is the composition of its host operations, which leaves the arguments
    as they were. -/
theorem frame_ri : Cert.frame_ReferenceIdeal := fun m ρ _ =>
  (θ_run Cert.ReferenceIdeal.defs _ _).mono (fun _ h c => (h c).2) (Cert.ReferenceIdeal.Value.run (F := Ideal) m ρ)

/-- The one rewritten literal: the finite stand-in for minus infinity that fills the masked scores is read as minus
    infinity itself, the value the plain formulation masks with. -/
theorem preserves : Cert.preserves_Kernel_KernelIdeal :=
  IdealRules.named_const.statement Cert.KernelIdeal.κ "neg_big" .f32 0xFF333333#32 ⊥ rfl

/-- The word-level kernel runs and leaves its arguments as launched: the run of its three pipelines between the host
    operations, read at the arguments. -/
theorem frame_k : Cert.frame_Kernel := fun m ρ _ => Cert.Kernel.Hand.frame_all (F := Bits) m ρ

/-- The same of the idealized kernel, at the extended reals. -/
theorem frame_ki : Cert.frame_KernelIdeal := fun m ρ _ => Cert.KernelIdeal.Hand.frame_all (F := Ideal) m ρ

theorem claim : Cert.Claim := ⟨Cert.Kernel.Gen.facts, Cert.KernelIdeal.Gen.facts, Cert.ReferenceIdeal.Gen.facts, Cert.Pre_finite_inputs.Gen.facts, by
  exact ⟨frame_k, frame_ki, frame_ri, preserves, Cert.Bridge.algebraic⟩⟩

end Cert.Proof

end
